-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S32 : Shape := ⟨1, ![32]⟩
abbrev S200000 : Shape := ⟨1, ![200000]⟩
abbrev S400000 : Shape := ⟨1, ![400000]⟩
abbrev S600000 : Shape := ⟨1, ![600000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S224x128 : Shape := ⟨2, ![224, 128]⟩
abbrev S128x64 : Shape := ⟨2, ![128, 64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S32 : S_.BroadcastsInDim S32 (![] : Fin 0 → Fin S32.rank)
  reducesTo_S32_S_d0 : S32.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S224x128 : S_.BroadcastsInDim S224x128 (![] : Fin 0 → Fin S224x128.rank)
  reducesTo_S224x128_S_d0_1 : S224x128.ReducesTo [0, 1] S_
  bcast_S_S128x64 : S_.BroadcastsInDim S128x64 (![] : Fin 0 → Fin S128x64.rank)
  reducesTo_S128x64_S_d0_1 : S128x64.ReducesTo [0, 1] S_

variable [Facts]

def fn_part6 {F : FTy → Type} [FloatOps F] (main_arg25 : FVec F S64 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg25
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg22 : FVec F S224x128 .f32) (main_arg23 : FVec F S128 .f32) (main_arg24 : FVec F S128x64 .f32) (main_arg25 : FVec F S64 .f32) (main_v83 : IVec S_ 1) (main_v84 : FVec F S192 .f32) (main_cst_32 : FVec F S_ .f32) : IVec S_ 1 :=
  let main_v85 : FVec F S192 .f32 := broadcastInDim S192 ![] bcast_S_S192 main_cst_32
  let main_v86 : IVec S192 1 := cmpf .olt main_v84 main_v85
  let main_c_33 : IVec S_ 1 := constantI S_ 1 1#1
  let main_v87 : IVec S_ 1 := (fun x v => Host.reduce IntOp.andi x v reducesTo_S192_S_d0 h_S_) main_v86 main_c_33
  let main_v88 : IVec S_ 1 := andi main_v83 main_v87
  let main_v89 : FVec F S224x128 .f32 := Host.absf main_arg22
  let main_cst_34 : FVec F S_ .f32 := constant S_ .f32 0x7F800000#32
  let main_v90 : FVec F S224x128 .f32 := broadcastInDim S224x128 ![] bcast_S_S224x128 main_cst_34
  let main_v91 : IVec S224x128 1 := cmpf .olt main_v89 main_v90
  let main_c_35 : IVec S_ 1 := constantI S_ 1 1#1
  let main_v92 : IVec S_ 1 := (fun x v => Host.reduce IntOp.andi x v reducesTo_S224x128_S_d0_1 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg24
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S192x192 .f32) (main_arg19 : FVec F S192 .f32) (main_arg20 : FVec F S192x192 .f32) (main_arg21 : FVec F S192 .f32) (main_arg22 : FVec F S224x128 .f32) (main_arg23 : FVec F S128 .f32) (main_arg24 : FVec F S128x64 .f32) (main_arg25 : FVec F S64 .f32) (main_v63 : IVec S_ 1) (main_v67 : IVec S_ 1) : IVec S_ 1 :=
  let main_v68 : IVec S_ 1 := andi main_v63 main_v67
  let main_v69 : FVec F S192x192 .f32 := Host.absf main_arg18
  let main_cst_26 : FVec F S_ .f32 := constant S_ .f32 0x7F800000#32
  let main_v70 : FVec F S192x192 .f32 := broadcastInDim S192x192 ![] bcast_S_S192x192 main_cst_26
  let main_v71 : IVec S192x192 1 := cmpf .olt main_v69 main_v70
  let main_c_27 : IVec S_ 1 := constantI S_ 1 1#1
  let main_v72 : IVec S_ 1 := (fun x v => Host.reduce IntOp.andi x v reducesTo_S192x192_S_d0_1 h_S_) main_v71 main_c_27
  let main_v73 : IVec S_ 1 := andi main_v68 main_v72
  let main_v74 : FVec F S192 .f32 := Host.absf main_arg19
  let main_cst_28 : FVec F S_ .f32 := constant S_ .f32 0x7F800000#32
  let main_v75 : FVec F S192 .f32 := broadcastInDim S192 ![] bcast_S_S192 main_cst_28
  let main_v76 : IVec S192 1 := cmpf .olt main_v74 main_v75
  let main_c_29 : IVec S_ 1 := constantI S_ 1 1#1
  let main_v77 : IVec S_ 1 := (fun x v => Host.reduce IntOp.andi x v reducesTo_S192_S_d0 h_S_) main_v76 main_c_29
  let main_v78 : IVec S_ 1 := andi main_v73 main_v77
  let main_v79 : FVec F S192x192 .f32 := Host.absf main_arg20
  let main_cst_30 : FVec F S_ .f32 := constant S_ .f32 0x7F800000#32
  let main_v80 : FVec F S192x192 .f32 := broadcastInDim S192x192 ![] bcast_S_S192x192 main_cst_30
  let main_v81 : IVec S192x192 1 := cmpf .olt main_v79 main_v80
  let main_c_31 : IVec S_ 1 := constantI S_ 1 1#1
  let main_v82 : IVec S_ 1 := (fun x v => Host.reduce IntOp.andi x v reducesTo_S192x192_S_d0_1 h_S_) main_v81 main_c_31
  let main_v83 : IVec S_ 1 := andi main_v78 main_v82
  let main_v84 : FVec F S192 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S128 .f32) (main_arg16 : FVec F S128x128 .f32) (main_arg17 : FVec F S128 .f32) (main_arg18 : FVec F S192x192 .f32) (main_arg19 : FVec F S192 .f32) (main_arg20 : FVec F S192x192 .f32) (main_arg21 : FVec F S192 .f32) (main_arg22 : FVec F S224x128 .f32) (main_arg23 : FVec F S128 .f32) (main_arg24 : FVec F S128x64 .f32) (main_arg25 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S192x192 .f32) (main_arg19 : FVec F S192 .f32) (main_arg20 : FVec F S192x192 .f32) (main_arg21 : FVec F S192 .f32) (main_arg22 : FVec F S224x128 .f32) (main_arg23 : FVec F S128 .f32) (main_arg24 : FVec F S128x64 .f32) (main_arg25 : FVec F S64 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S64x64 .f32) (main_arg9 : FVec F S64 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S192x192 .f32) (main_arg19 : FVec F S192 .f32) (main_arg20 : FVec F S192x192 .f32) (main_arg21 : FVec F S192 .f32) (main_arg22 : FVec F S224x128 .f32) (main_arg23 : FVec F S128 .f32) (main_arg24 : FVec F S128x64 .f32) (main_arg25 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S200000x64 .f32) (main_arg1 : FVec F S32 .f32) (main_arg2 : IVec S200000 32) (main_arg3 : IVec S400000 32) (main_arg4 : IVec S400000 32) (main_arg5 : IVec S600000 32) (main_arg6 : FVec F S64x64 .f32) (main_arg7 : FVec F S64 .f32) (main_arg8 : FVec F S64x64 .f32) (main_arg9 : FVec F S64 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S192x192 .f32) (main_arg19 : FVec F S192 .f32) (main_arg20 : FVec F S192x192 .f32) (main_arg21 : FVec F S192 .f32) (main_arg22 : FVec F S224x128 .f32) (main_arg23 : FVec F S128 .f32) (main_arg24 : FVec F S128x64 .f32) (main_arg25 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S200000x64 : Shape := ⟨2, ![200000, 64]⟩
abbrev S32 : Shape := ⟨1, ![32]⟩
abbrev S200000 : Shape := ⟨1, ![200000]⟩
abbrev S400000 : Shape := ⟨1, ![400000]⟩
abbrev S600000 : Shape := ⟨1, ![600000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S224x128 : Shape := ⟨2, ![224, 128]⟩
abbrev S128x64 : Shape := ⟨2, ![128, 64]⟩
abbrev S1x64 : Shape := ⟨2, ![1, 64]⟩
abbrev S10000x64 : Shape := ⟨2, ![10000, 64]⟩
abbrev S_ : Shape := ⟨0, ![]⟩
abbrev S200000x1 : Shape := ⟨2, ![200000, 1]⟩
abbrev S4000x64 : Shape := ⟨2, ![4000, 64]⟩
abbrev S400000x1 : Shape := ⟨2, ![400000, 1]⟩
abbrev S400000x64 : Shape := ⟨2, ![400000, 64]⟩
abbrev S200000x128 : Shape := ⟨2, ![200000, 128]⟩
abbrev S4000x128 : Shape := ⟨2, ![4000, 128]⟩
abbrev S1x128 : Shape := ⟨2, ![1, 128]⟩
abbrev S600000x1 : Shape := ⟨2, ![600000, 1]⟩
abbrev S600000x64 : Shape := ⟨2, ![600000, 64]⟩
abbrev S200000x192 : Shape := ⟨2, ![200000, 192]⟩
abbrev S4000x192 : Shape := ⟨2, ![4000, 192]⟩
abbrev S1x192 : Shape := ⟨2, ![1, 192]⟩
abbrev S1 : Shape := ⟨1, ![1]⟩
abbrev S4 : Shape := ⟨1, ![4]⟩
abbrev S200000x32 : Shape := ⟨2, ![200000, 32]⟩
abbrev S200000x224 : Shape := ⟨2, ![200000, 224]⟩
abbrev S4000x224 : Shape := ⟨2, ![4000, 224]⟩

abbrev nBuf : Space → Nat
  | .hbm => 161
  | .vmem => 45
  | .smem => 0
  | _ => 0

abbrev hbmTy0_0 (i : Nat) : BufTy := match i % 128 with
  | 0 => ⟨S200000x64, .f32⟩
  | 1 => ⟨S32, .f32⟩
  | 2 => ⟨S200000, .i32⟩
  | 3 => ⟨S400000, .i32⟩
  | 4 => ⟨S400000, .i32⟩
  | 5 => ⟨S600000, .i32⟩
  | 6 => ⟨S64x64, .f32⟩
  | 7 => ⟨S64, .f32⟩
  | 8 => ⟨S64x64, .f32⟩
  | 9 => ⟨S64, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S192x192, .f32⟩
  | 19 => ⟨S192, .f32⟩
  | 20 => ⟨S192x192, .f32⟩
  | 21 => ⟨S192, .f32⟩
  | 22 => ⟨S224x128, .f32⟩
  | 23 => ⟨S128, .f32⟩
  | 24 => ⟨S128x64, .f32⟩
  | 25 => ⟨S64, .f32⟩
  | 26 => ⟨S1x64, .f32⟩
  | 27 => ⟨S64, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x64, .f32⟩
  | 37 => ⟨S200000x64, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x64, .f32⟩
  | 47 => ⟨S200000x128, .f32⟩
  | 48 => ⟨S200000x128, .f32⟩
  | 49 => ⟨S400000x64, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x64, .f32⟩
  | 59 => ⟨S200000x128, .f32⟩
  | 60 => ⟨S200000x128, .f32⟩
  | 61 => ⟨S400000x64, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x64, .f32⟩
  | 71 => ⟨S200000x192, .f32⟩
  | 72 => ⟨S200000x192, .f32⟩
  | 73 => ⟨S600000x64, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1, .f32⟩
  | 83 => ⟨S1, .f32⟩
  | 84 => ⟨S1, .f32⟩
  | 85 => ⟨S1, .f32⟩
  | 86 => ⟨S4, .f32⟩
  | 87 => ⟨S_, .f32⟩
  | 88 => ⟨S_, .f32⟩
  | 89 => ⟨S_, .f32⟩
  | 90 => ⟨S200000x64, .f32⟩
  | 91 => ⟨S200000x64, .f32⟩
  | 92 => ⟨S200000x64, .f32⟩
  | 93 => ⟨S_, .f32⟩
  | 94 => ⟨S200000x64, .f32⟩
  | 95 => ⟨S200000x64, .f32⟩
  | 96 => ⟨S200000x64, .f32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S200000x64, .f32⟩
  | 106 => ⟨S400000x64, .f32⟩
  | 107 => ⟨S400000x64, .f32⟩
  | 108 => ⟨S_, .f32⟩
  | 109 => ⟨S400000x64, .f32⟩
  | 110 => ⟨S400000x64, .f32⟩
  | 111 => ⟨S400000x64, .f32⟩
  | 112 => ⟨S_, .i32⟩
  | 113 => ⟨S400000, .i32⟩
  | 114 => ⟨S400000, .i1⟩
  | 115 => ⟨S_, .i32⟩
  | 116 => ⟨S400000, .i32⟩
  | 117 => ⟨S400000, .i32⟩
  | 118 => ⟨S400000, .i32⟩
  | 119 => ⟨S400000x1, .i32⟩
  | 120 => ⟨S200000x64, .f32⟩
  | 121 => ⟨S400000x64, .f32⟩
  | 122 => ⟨S400000x64, .f32⟩
  | 123 => ⟨S_, .f32⟩
  | 124 => ⟨S400000x64, .f32⟩
  | 125 => ⟨S400000x64, .f32⟩
  | 126 => ⟨S400000x64, .f32⟩
  | 127 => ⟨S_, .i32⟩
  | _ => ⟨S200000x64, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S200000x64, .f32⟩
  | 8 => ⟨S600000x64, .f32⟩
  | 9 => ⟨S600000x64, .f32⟩
  | 10 => ⟨S_, .f32⟩
  | 11 => ⟨S600000x64, .f32⟩
  | 12 => ⟨S600000x64, .f32⟩
  | 13 => ⟨S600000x64, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S200000x64, .f32⟩
  | 23 => ⟨S200000x64, .f32⟩
  | 24 => ⟨S_, .f32⟩
  | 25 => ⟨S200000x64, .f32⟩
  | 26 => ⟨S200000x64, .f32⟩
  | 27 => ⟨S200000x64, .f32⟩
  | 28 => ⟨S200000x64, .f32⟩
  | 29 => ⟨S200000x32, .f32⟩
  | 30 => ⟨S200000x64, .f32⟩
  | 31 => ⟨S200000x224, .f32⟩
  | 32 => ⟨S200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S4000x64, .f32⟩
  | .local _ .vmem, ⟨6, _⟩ => ⟨S4000x64, .f32⟩
  | .local _ .vmem, ⟨7, _⟩ => ⟨S64x64, .f32⟩
  | .local _ .vmem, ⟨8, _⟩ => ⟨S64, .f32⟩
  | .local _ .vmem, ⟨9, _⟩ => ⟨S64x64, .f32⟩
  | .local _ .vmem, ⟨10, _⟩ => ⟨S64, .f32⟩
  | .local _ .vmem, ⟨11, _⟩ => ⟨S4000x64, .f32⟩
  | .local _ .vmem, ⟨12, _⟩ => ⟨S4000x64, .f32⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S4000x128, .f32⟩
  | .local _ .vmem, ⟨28, _⟩ => ⟨S4000x128, .f32⟩
  | .local _ .vmem, ⟨29, _⟩ => ⟨S4000x192, .f32⟩
  | .local _ .vmem, ⟨30, _⟩ => ⟨S4000x192, .f32⟩
  | .local _ .vmem, ⟨31, _⟩ => ⟨S192x192, .f32⟩
  | .local _ .vmem, ⟨32, _⟩ => ⟨S192, .f32⟩
  | .local _ .vmem, ⟨33, _⟩ => ⟨S192x192, .f32⟩
  | .local _ .vmem, ⟨34, _⟩ => ⟨S192, .f32⟩
  | .local _ .vmem, ⟨35, _⟩ => ⟨S4000x192, .f32⟩
  | .local _ .vmem, ⟨36, _⟩ => ⟨S4000x192, .f32⟩
  | .local _ .vmem, ⟨37, _⟩ => ⟨S4000x224, .f32⟩
  | .local _ .vmem, ⟨38, _⟩ => ⟨S4000x224, .f32⟩
  | .local _ .vmem, ⟨39, _⟩ => ⟨S224x128, .f32⟩
  | .local _ .vmem, ⟨40, _⟩ => ⟨S128, .f32⟩
  | .local _ .vmem, ⟨41, _⟩ => ⟨S128x64, .f32⟩
  | .local _ .vmem, ⟨42, _⟩ => ⟨S64, .f32⟩
  | .local _ .vmem, ⟨43, _⟩ => ⟨S4000x64, .f32⟩
  | .local _ .vmem, ⟨44, _⟩ => ⟨S4000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_v10 : Ref sig .tc := ⟨.hbm, 39, rfl⟩
abbrev main_v11 : Ref sig .tc := ⟨.hbm, 40, rfl⟩
abbrev main_c_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_5 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_cst_8 : Ref sig .tc := ⟨.hbm, 78, rfl⟩
abbrev main_v42 : Ref sig .tc := ⟨.hbm, 79, rfl⟩
abbrev main_cst_9 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_10 : Ref sig .tc := ⟨.hbm, 87, rfl⟩
abbrev main_v49 : Ref sig .tc := ⟨.hbm, 88, rfl⟩
abbrev main_cst_11 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_12 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_13 : Ref sig .tc := ⟨.hbm, 97, rfl⟩
abbrev main_v56 : Ref sig .tc := ⟨.hbm, 98, rfl⟩
abbrev main_v57 : Ref sig .tc := ⟨.hbm, 99, rfl⟩
abbrev main_c_14 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_15 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_16 : Ref sig .tc := ⟨.hbm, 112, rfl⟩
abbrev main_v68 : Ref sig .tc := ⟨.hbm, 113, rfl⟩
abbrev main_v69 : Ref sig .tc := ⟨.hbm, 114, rfl⟩
abbrev main_c_17 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_18 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_19 : Ref sig .tc := ⟨.hbm, 127, rfl⟩
abbrev main_v80 : Ref sig .tc := ⟨.hbm, 128, rfl⟩
abbrev main_v81 : Ref sig .tc := ⟨.hbm, 129, rfl⟩
abbrev main_c_20 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_21 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c_22 : Ref sig .tc := ⟨.hbm, 142, rfl⟩
abbrev main_v92 : Ref sig .tc := ⟨.hbm, 143, rfl⟩
abbrev main_v93 : Ref sig .tc := ⟨.hbm, 144, rfl⟩
abbrev main_c_23 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_24 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem5_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem5_1 : DmaSem sig := 42

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S192x192 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S192 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x192 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x224 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S224x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  reduces_S10000x64_S64 : S10000x64.Reduces [0] S64
  shapeCasts_S64_S1x64 : S64.ShapeCasts S1x64
  broadcasts_S1x64_S10000x64 : S1x64.Broadcasts S10000x64
  shapeCasts_S1x64_S64 : S1x64.ShapeCasts S64
  bcast_S_S200000 : S_.BroadcastsInDim S200000 (![] : Fin 0 → Fin S200000.rank)
  bcast_S200000_S200000x1_0 : S200000.BroadcastsInDim S200000x1 (![0] : Fin 1 → Fin S200000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  broadcasts_S1x64_S4000x64 : S1x64.Broadcasts S4000x64
  bcast_S_S400000 : S_.BroadcastsInDim S400000 (![] : Fin 0 → Fin S400000.rank)
  bcast_S400000_S400000x1_0 : S400000.BroadcastsInDim S400000x1 (![0] : Fin 1 → Fin S400000x1.rank)
  shapeCasts_S400000x64_S200000x128 : S400000x64.ShapeCasts S200000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  shapeCasts_S200000x128_S400000x64 : S200000x128.ShapeCasts S400000x64
  bcast_S_S600000 : S_.BroadcastsInDim S600000 (![] : Fin 0 → Fin S600000.rank)
  bcast_S600000_S600000x1_0 : S600000.BroadcastsInDim S600000x1 (![0] : Fin 1 → Fin S600000x1.rank)
  shapeCasts_S600000x64_S200000x192 : S600000x64.ShapeCasts S200000x192
  inb_S4000x192_S4000x192_0_0 : ∀ a, (![0, 0] : Fin 2 → Nat) a + S4000x192.size a ≤ S4000x192.size a
  h_S4000x192 : 0 < S4000x192.numel
  shapeCasts_S4000x192_S4000x192 : S4000x192.ShapeCasts S4000x192
  inb_S192x192_S192x192_0_0 : ∀ a, (![0, 0] : Fin 2 → Nat) a + S192x192.size a ≤ S192x192.size a
  h_S192x192 : 0 < S192x192.numel
  inb_S192_S192_0 : ∀ a, (![0] : Fin 1 → Nat) a + S192.size a ≤ S192.size a
  h_S192 : 0 < S192.numel
  shapeCasts_S192_S1x192 : S192.ShapeCasts S1x192
  broadcasts_S1x192_S4000x192 : S1x192.Broadcasts S4000x192
  shapeCasts_S200000x192_S600000x64 : S200000x192.ShapeCasts S600000x64
  reducesTo_S200000x64_S_d0_1 : S200000x64.ReducesTo [0, 1] S_
  h_S_ : 0 < S_.numel
  reducesTo_S400000x64_S_d0_1 : S400000x64.ReducesTo [0, 1] S_
  reducesTo_S600000x64_S_d0_1 : S600000x64.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_
  bcast_S_S200000x64 : S_.BroadcastsInDim S200000x64 (![] : Fin 0 → Fin S200000x64.rank)
  bcast_S_S400000x64 : S_.BroadcastsInDim S400000x64 (![] : Fin 0 → Fin S400000x64.rank)
  bcast_S_S600000x64 : S_.BroadcastsInDim S600000x64 (![] : Fin 0 → Fin S600000x64.rank)
  bcast_S32_S200000x32_1 : S32.BroadcastsInDim S200000x32 (![1] : Fin 1 → Fin S200000x32.rank)
  bcast_S64_S200000x64_1 : S64.BroadcastsInDim S200000x64 (![1] : Fin 1 → Fin S200000x64.rank)
  concatenates_S200000x32_S200000x64_S200000x64_S200000x64_S200000x224_d1 : Shape.Concatenates [S200000x32, S200000x64, S200000x64, S200000x64] S200000x224 1
  inb_S4000x224_S4000x224_0_0 : ∀ a, (![0, 0] : Fin 2 → Nat) a + S4000x224.size a ≤ S4000x224.size a
  h_S4000x224 : 0 < S4000x224.numel
  shapeCasts_S4000x224_S4000x224 : S4000x224.ShapeCasts S4000x224
  inb_S224x128_S224x128_0_0 : ∀ a, (![0, 0] : Fin 2 → Nat) a + S224x128.size a ≤ S224x128.size a
  h_S224x128 : 0 < S224x128.numel
  inb_S128x64_S128x64_0_0 : ∀ a, (![0, 0] : Fin 2 → Nat) a + S128x64.size a ≤ S128x64.size a
  h_S128x64 : 0 < S128x64.numel
  gather_S200000x64_S200000x1_S200000x64_1_0_n_n_0_1_164_wf : GatherDims.WF S200000x64 S200000x1 S200000x64 [1] [0] [] [0] [] 1 ![1, 64]
  dot_S4000x64_S64x64_S4000x64_1_0_0_1_n_n_wf : DotDims.WF S4000x64 S64x64 S4000x64 [1] [0] [0] [1] [] []
  gather_S200000x64_S400000x1_S400000x64_1_0_n_n_0_1_164_wf : GatherDims.WF S200000x64 S400000x1 S400000x64 [1] [0] [] [0] [] 1 ![1, 64]
  dot_S4000x128_S128x128_S4000x128_1_0_0_1_n_n_wf : DotDims.WF S4000x128 S128x128 S4000x128 [1] [0] [0] [1] [] []
  gather_S200000x64_S600000x1_S600000x64_1_0_n_n_0_1_164_wf : GatherDims.WF S200000x64 S600000x1 S600000x64 [1] [0] [] [0] [] 1 ![1, 64]
  dot_S4000x192_S192x192_S4000x192_1_0_0_1_n_n_wf : DotDims.WF S4000x192 S192x192 S4000x192 [1] [0] [0] [1] [] []
  scatter_S200000x64_S200000x1_S200000x64_1_0_0_1_wf : ScatterDims.WF S200000x64 S200000x1 S200000x64 [1] [0] [0] 1
  scatter_S200000x64_S400000x1_S400000x64_1_0_0_1_wf : ScatterDims.WF S200000x64 S400000x1 S400000x64 [1] [0] [0] 1
  scatter_S200000x64_S600000x1_S600000x64_1_0_0_1_wf : ScatterDims.WF S200000x64 S600000x1 S600000x64 [1] [0] [0] 1
  dot_S4000x224_S224x128_S4000x128_1_0_0_1_n_n_wf : DotDims.WF S4000x224 S224x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S200000x64.size a
  hwx1_5 : ∀ i : grid1.Coords, EltTy.bits .f32 = 32 ∨ (Rect.block (s := S200000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S200000x128.size a
  hwx2_5 : ∀ i : grid2.Coords, EltTy.bits .f32 = 32 ∨ (Rect.block (s := S200000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S200000x128.size a
  hwx3_5 : ∀ i : grid3.Coords, EltTy.bits .f32 = 32 ∨ (Rect.block (s := S200000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x192.size a ≤ S200000x192.size a
  hwx4_0 : ∀ i : grid4.Coords, EltTy.bits .f32 = 32 ∨ (Rect.block (s := S200000x192) S4000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x192.size a ≤ S192x192.size a
  hwx4_1 : ∀ i : grid4.Coords, EltTy.bits .f32 = 32 ∨ (Rect.block (s := S192x192) S192x192.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S192.size a ≤ S192.size a
  hwx4_2 : ∀ i : grid4.Coords, EltTy.bits .f32 = 32 ∨ (Rect.block (s := S192) S192.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S192x192.size a ≤ S192x192.size a
  hwx4_3 : ∀ i : grid4.Coords, EltTy.bits .f32 = 32 ∨ (Rect.block (s := S192x192) S192x192.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S192.size a ≤ S192.size a
  hwx4_4 : ∀ i : grid4.Coords, EltTy.bits .f32 = 32 ∨ (Rect.block (s := S192) S192.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x192.size a ≤ S200000x192.size a
  hwx4_5 : ∀ i : grid4.Coords, EltTy.bits .f32 = 32 ∨ (Rect.block (s := S200000x192) S4000x192.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x224.size a ≤ S200000x224.size a
  hwx5_0 : ∀ i : grid5.Coords, EltTy.bits .f32 = 32 ∨ (Rect.block (s := S200000x224) S4000x224.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S224x128.size a ≤ S224x128.size a
  hwx5_1 : ∀ i : grid5.Coords, EltTy.bits .f32 = 32 ∨ (Rect.block (s := S224x128) S224x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x64.size a ≤ S200000x64.size a
  hwx5_5 : ∀ i : grid5.Coords, EltTy.bits .f32 = 32 ∨ (Rect.block (s := S200000x64) S4000x64.size (cc5_transform_5 i) (hinb5_5 i)).WholeWords (EltTy.packing .f32)

variable [Facts₀]

def gather_S200000x64_S200000x1_S200000x64_1_0_n_n_0_1_164 : GatherDims S200000x64 S200000x1 S200000x64 where
  offsetDims := [1]
  collapsedSliceDims := [0]
  operandBatchingDims := []
  startIndicesBatchingDims := []
  startIndexMap := [0]
  indexVectorDim := 1
  sliceSizes := ![1, 64]
  wf := gather_S200000x64_S200000x1_S200000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def dot_S4000x192_S192x192_S4000x192_1_0_0_1_n_n : DotDims S4000x192 S192x192 S4000x192 where
  lhsContracting := [1]
  rhsContracting := [0]
  lhsNonContracting := [0]
  rhsNonContracting := [1]
  lhsBatch := []
  rhsBatch := []
  wf := dot_S4000x192_S192x192_S4000x192_1_0_0_1_n_n_wf
def scatter_S200000x64_S200000x1_S200000x64_1_0_0_1 : ScatterDims S200000x64 S200000x1 S200000x64 where
  updateWindowDims := [1]
  insertedWindowDims := [0]
  scatterDimsToOperandDims := [0]
  indexVectorDim := 1
  wf := scatter_S200000x64_S200000x1_S200000x64_1_0_0_1_wf
def scatter_S200000x64_S400000x1_S400000x64_1_0_0_1 : ScatterDims S200000x64 S400000x1 S400000x64 where
  updateWindowDims := [1]
  insertedWindowDims := [0]
  scatterDimsToOperandDims := [0]
  indexVectorDim := 1
  wf := scatter_S200000x64_S400000x1_S400000x64_1_0_0_1_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S4000x224_S224x128_S4000x128_1_0_0_1_n_n : DotDims S4000x224 S224x128 S4000x128 where
  lhsContracting := [1]
  rhsContracting := [0]
  lhsNonContracting := [0]
  rhsNonContracting := [1]
  lhsBatch := []
  rhsBatch := []
  wf := dot_S4000x224_S224x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v8) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v27) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v28) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v37) S4000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S192x192.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg19) S192.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S192x192.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg21) S192.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v38) S4000x192.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v106) S4000x224.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg22) S224x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg23) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg24) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg25) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v107) S4000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S200000x64 : Shape := ⟨2, ![200000, 64]⟩
abbrev S32 : Shape := ⟨1, ![32]⟩
abbrev S200000 : Shape := ⟨1, ![200000]⟩
abbrev S400000 : Shape := ⟨1, ![400000]⟩
abbrev S600000 : Shape := ⟨1, ![600000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S224x128 : Shape := ⟨2, ![224, 128]⟩
abbrev S128x64 : Shape := ⟨2, ![128, 64]⟩
abbrev S_ : Shape := ⟨0, ![]⟩
abbrev S1x64 : Shape := ⟨2, ![1, 64]⟩
abbrev S200000x1 : Shape := ⟨2, ![200000, 1]⟩
abbrev S400000x1 : Shape := ⟨2, ![400000, 1]⟩
abbrev S400000x64 : Shape := ⟨2, ![400000, 64]⟩
abbrev S200000x128 : Shape := ⟨2, ![200000, 128]⟩
abbrev S1x128 : Shape := ⟨2, ![1, 128]⟩
abbrev S600000x1 : Shape := ⟨2, ![600000, 1]⟩
abbrev S600000x64 : Shape := ⟨2, ![600000, 64]⟩
abbrev S200000x192 : Shape := ⟨2, ![200000, 192]⟩
abbrev S1x192 : Shape := ⟨2, ![1, 192]⟩
abbrev S1 : Shape := ⟨1, ![1]⟩
abbrev S4 : Shape := ⟨1, ![4]⟩
abbrev S200000x32 : Shape := ⟨2, ![200000, 32]⟩
abbrev S200000x224 : Shape := ⟨2, ![200000, 224]⟩

abbrev nBuf : Space → Nat
  | .hbm => 225
  | .vmem => 0
  | .smem => 0
  | _ => 0

abbrev hbmTy0_0 (i : Nat) : BufTy := match i % 128 with
  | 0 => ⟨S200000x64, .f32⟩
  | 1 => ⟨S32, .f32⟩
  | 2 => ⟨S200000, .i32⟩
  | 3 => ⟨S400000, .i32⟩
  | 4 => ⟨S400000, .i32⟩
  | 5 => ⟨S600000, .i32⟩
  | 6 => ⟨S64x64, .f32⟩
  | 7 => ⟨S64, .f32⟩
  | 8 => ⟨S64x64, .f32⟩
  | 9 => ⟨S64, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S192x192, .f32⟩
  | 19 => ⟨S192, .f32⟩
  | 20 => ⟨S192x192, .f32⟩
  | 21 => ⟨S192, .f32⟩
  | 22 => ⟨S224x128, .f32⟩
  | 23 => ⟨S128, .f32⟩
  | 24 => ⟨S128x64, .f32⟩
  | 25 => ⟨S64, .f32⟩
  | 26 => ⟨S_, .f32⟩
  | 27 => ⟨S64, .f32⟩
  | 28 => ⟨S1x64, .f32⟩
  | 29 => ⟨S200000x64, .f32⟩
  | 30 => ⟨S200000x64, .f32⟩
  | 31 => ⟨S_, .f32⟩
  | 32 => ⟨S200000x64, .f32⟩
  | 33 => ⟨S200000x64, .f32⟩
  | 34 => ⟨S200000x64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S64, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x64, .f32⟩
  | 51 => ⟨S200000x64, .f32⟩
  | 52 => ⟨S1x64, .f32⟩
  | 53 => ⟨S200000x64, .f32⟩
  | 54 => ⟨S200000x64, .f32⟩
  | 55 => ⟨S_, .f32⟩
  | 56 => ⟨S200000x64, .f32⟩
  | 57 => ⟨S200000x64, .f32⟩
  | 58 => ⟨S200000x64, .f32⟩
  | 59 => ⟨S1x64, .f32⟩
  | 60 => ⟨S200000x64, .f32⟩
  | 61 => ⟨S200000x64, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x64, .f32⟩
  | 71 => ⟨S200000x128, .f32⟩
  | 72 => ⟨S200000x128, .f32⟩
  | 73 => ⟨S1x128, .f32⟩
  | 74 => ⟨S200000x128, .f32⟩
  | 75 => ⟨S200000x128, .f32⟩
  | 76 => ⟨S_, .f32⟩
  | 77 => ⟨S200000x128, .f32⟩
  | 78 => ⟨S200000x128, .f32⟩
  | 79 => ⟨S200000x128, .f32⟩
  | 80 => ⟨S1x128, .f32⟩
  | 81 => ⟨S200000x128, .f32⟩
  | 82 => ⟨S200000x128, .f32⟩
  | 83 => ⟨S400000x64, .f32⟩
  | 84 => ⟨S_, .i32⟩
  | 85 => ⟨S400000, .i32⟩
  | 86 => ⟨S400000, .i1⟩
  | 87 => ⟨S_, .i32⟩
  | 88 => ⟨S400000, .i32⟩
  | 89 => ⟨S400000, .i32⟩
  | 90 => ⟨S400000, .i32⟩
  | 91 => ⟨S400000x1, .i32⟩
  | 92 => ⟨S400000x64, .f32⟩
  | 93 => ⟨S200000x128, .f32⟩
  | 94 => ⟨S200000x128, .f32⟩
  | 95 => ⟨S1x128, .f32⟩
  | 96 => ⟨S200000x128, .f32⟩
  | 97 => ⟨S200000x128, .f32⟩
  | 98 => ⟨S_, .f32⟩
  | 99 => ⟨S200000x128, .f32⟩
  | 100 => ⟨S200000x128, .f32⟩
  | 101 => ⟨S200000x128, .f32⟩
  | 102 => ⟨S1x128, .f32⟩
  | 103 => ⟨S200000x128, .f32⟩
  | 104 => ⟨S200000x128, .f32⟩
  | 105 => ⟨S400000x64, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000x64, .f32⟩
  | 115 => ⟨S200000x192, .f32⟩
  | 116 => ⟨S200000x192, .f32⟩
  | 117 => ⟨S1x192, .f32⟩
  | 118 => ⟨S200000x192, .f32⟩
  | 119 => ⟨S200000x192, .f32⟩
  | 120 => ⟨S_, .f32⟩
  | 121 => ⟨S200000x192, .f32⟩
  | 122 => ⟨S200000x192, .f32⟩
  | 123 => ⟨S200000x192, .f32⟩
  | 124 => ⟨S1x192, .f32⟩
  | 125 => ⟨S200000x192, .f32⟩
  | 126 => ⟨S200000x192, .f32⟩
  | 127 => ⟨S600000x64, .f32⟩
  | _ => ⟨S200000x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S1, .f32⟩
  | 9 => ⟨S1, .f32⟩
  | 10 => ⟨S1, .f32⟩
  | 11 => ⟨S1, .f32⟩
  | 12 => ⟨S4, .f32⟩
  | 13 => ⟨S_, .f32⟩
  | 14 => ⟨S_, .f32⟩
  | 15 => ⟨S_, .f32⟩
  | 16 => ⟨S200000x64, .f32⟩
  | 17 => ⟨S200000x64, .f32⟩
  | 18 => ⟨S200000x64, .f32⟩
  | 19 => ⟨S_, .f32⟩
  | 20 => ⟨S200000x64, .f32⟩
  | 21 => ⟨S200000x64, .f32⟩
  | 22 => ⟨S200000x64, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x64, .f32⟩
  | 32 => ⟨S400000x64, .f32⟩
  | 33 => ⟨S400000x64, .f32⟩
  | 34 => ⟨S_, .f32⟩
  | 35 => ⟨S400000x64, .f32⟩
  | 36 => ⟨S400000x64, .f32⟩
  | 37 => ⟨S400000x64, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S200000x64, .f32⟩
  | 47 => ⟨S400000x64, .f32⟩
  | 48 => ⟨S400000x64, .f32⟩
  | 49 => ⟨S_, .f32⟩
  | 50 => ⟨S400000x64, .f32⟩
  | 51 => ⟨S400000x64, .f32⟩
  | 52 => ⟨S400000x64, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S200000x64, .f32⟩
  | 62 => ⟨S600000x64, .f32⟩
  | 63 => ⟨S600000x64, .f32⟩
  | 64 => ⟨S_, .f32⟩
  | 65 => ⟨S600000x64, .f32⟩
  | 66 => ⟨S600000x64, .f32⟩
  | 67 => ⟨S600000x64, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S200000x64, .f32⟩
  | 77 => ⟨S200000x64, .f32⟩
  | 78 => ⟨S_, .f32⟩
  | 79 => ⟨S200000x64, .f32⟩
  | 80 => ⟨S200000x64, .f32⟩
  | 81 => ⟨S200000x64, .f32⟩
  | 82 => ⟨S200000x64, .f32⟩
  | 83 => ⟨S200000x32, .f32⟩
  | 84 => ⟨S200000x64, .f32⟩
  | 85 => ⟨S200000x224, .f32⟩
  | 86 => ⟨S200000x128, .f32⟩
  | 87 => ⟨S1x128, .f32⟩
  | 88 => ⟨S200000x128, .f32⟩
  | 89 => ⟨S200000x128, .f32⟩
  | 90 => ⟨S_, .f32⟩
  | 91 => ⟨S200000x128, .f32⟩
  | 92 => ⟨S200000x128, .f32⟩
  | 93 => ⟨S200000x64, .f32⟩
  | 94 => ⟨S1x64, .f32⟩
  | 95 => ⟨S200000x64, .f32⟩
  | 96 => ⟨S200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_5 : Ref sig .tc := ⟨.hbm, 62, rfl⟩
abbrev main_v29 : Ref sig .tc := ⟨.hbm, 63, rfl⟩
abbrev main_v30 : Ref sig .tc := ⟨.hbm, 64, rfl⟩
abbrev main_c_6 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_8 : Ref sig .tc := ⟨.hbm, 84, rfl⟩
abbrev main_v48 : Ref sig .tc := ⟨.hbm, 85, rfl⟩
abbrev main_v49 : Ref sig .tc := ⟨.hbm, 86, rfl⟩
abbrev main_c_9 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_10 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_11 : Ref sig .tc := ⟨.hbm, 106, rfl⟩
abbrev main_v67 : Ref sig .tc := ⟨.hbm, 107, rfl⟩
abbrev main_v68 : Ref sig .tc := ⟨.hbm, 108, rfl⟩
abbrev main_c_12 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_13 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_14 : Ref sig .tc := ⟨.hbm, 128, rfl⟩
abbrev main_v86 : Ref sig .tc := ⟨.hbm, 129, rfl⟩
abbrev main_cst_15 : Ref sig .tc := ⟨.hbm, 130, rfl⟩
abbrev main_v87 : Ref sig .tc := ⟨.hbm, 131, rfl⟩
abbrev main_cst_16 : Ref sig .tc := ⟨.hbm, 132, rfl⟩
abbrev main_v88 : Ref sig .tc := ⟨.hbm, 133, rfl⟩
abbrev main_cst_17 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_18 : Ref sig .tc := ⟨.hbm, 141, rfl⟩
abbrev main_v95 : Ref sig .tc := ⟨.hbm, 142, rfl⟩
abbrev main_cst_19 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_20 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_c_21 : Ref sig .tc := ⟨.hbm, 151, rfl⟩
abbrev main_v102 : Ref sig .tc := ⟨.hbm, 152, rfl⟩
abbrev main_v103 : Ref sig .tc := ⟨.hbm, 153, rfl⟩
abbrev main_c_22 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_23 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_c_24 : Ref sig .tc := ⟨.hbm, 166, rfl⟩
abbrev main_v114 : Ref sig .tc := ⟨.hbm, 167, rfl⟩
abbrev main_v115 : Ref sig .tc := ⟨.hbm, 168, rfl⟩
abbrev main_c_25 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_26 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_c_27 : Ref sig .tc := ⟨.hbm, 181, rfl⟩
abbrev main_v126 : Ref sig .tc := ⟨.hbm, 182, rfl⟩
abbrev main_v127 : Ref sig .tc := ⟨.hbm, 183, rfl⟩
abbrev main_c_28 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_29 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_c_30 : Ref sig .tc := ⟨.hbm, 196, rfl⟩
abbrev main_v138 : Ref sig .tc := ⟨.hbm, 197, rfl⟩
abbrev main_v139 : Ref sig .tc := ⟨.hbm, 198, rfl⟩
abbrev main_c_31 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_32 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_33 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩

abbrev nD : Nat := 1
abbrev τ : Topo := Topo.v7x

variable {F : FTy → Type} [FloatOps F]

class Facts₀ : Prop where
  reducesTo_S200000x64_S64_d0 : S200000x64.ReducesTo [0] S64
  h_S_ : 0 < S_.numel
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S64 : S_.BroadcastsInDim S64 (![] : Fin 0 → Fin S64.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S400000 : S_.BroadcastsInDim S400000 (![] : Fin 0 → Fin S400000.rank)
  bcast_S400000_S400000x1_0 : S400000.BroadcastsInDim S400000x1 (![0] : Fin 1 → Fin S400000x1.rank)
  shapeCasts_S400000x64_S200000x128 : S400000x64.ShapeCasts S200000x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  shapeCasts_S200000x128_S400000x64 : S200000x128.ShapeCasts S400000x64
  bcast_S_S600000 : S_.BroadcastsInDim S600000 (![] : Fin 0 → Fin S600000.rank)
  bcast_S600000_S600000x1_0 : S600000.BroadcastsInDim S600000x1 (![0] : Fin 1 → Fin S600000x1.rank)
  shapeCasts_S600000x64_S200000x192 : S600000x64.ShapeCasts S200000x192
  bcast_S192_S1x192_1 : S192.BroadcastsInDim S1x192 (![1] : Fin 1 → Fin S1x192.rank)
  bcast_S1x192_S200000x192_0_1 : S1x192.BroadcastsInDim S200000x192 (![0, 1] : Fin 2 → Fin S200000x192.rank)
  bcast_S_S200000x192 : S_.BroadcastsInDim S200000x192 (![] : Fin 0 → Fin S200000x192.rank)
  shapeCasts_S200000x192_S600000x64 : S200000x192.ShapeCasts S600000x64
  reducesTo_S200000x64_S_d0_1 : S200000x64.ReducesTo [0, 1] S_
  reducesTo_S400000x64_S_d0_1 : S400000x64.ReducesTo [0, 1] S_
  reducesTo_S600000x64_S_d0_1 : S600000x64.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_
  bcast_S_S400000x64 : S_.BroadcastsInDim S400000x64 (![] : Fin 0 → Fin S400000x64.rank)
  bcast_S_S600000x64 : S_.BroadcastsInDim S600000x64 (![] : Fin 0 → Fin S600000x64.rank)
  bcast_S32_S200000x32_1 : S32.BroadcastsInDim S200000x32 (![1] : Fin 1 → Fin S200000x32.rank)
  bcast_S64_S200000x64_1 : S64.BroadcastsInDim S200000x64 (![1] : Fin 1 → Fin S200000x64.rank)
  concatenates_S200000x32_S200000x64_S200000x64_S200000x64_S200000x224_d1 : Shape.Concatenates [S200000x32, S200000x64, S200000x64, S200000x64] S200000x224 1
  gather_S200000x64_S200000x1_S200000x64_1_0_n_n_0_1_164_wf : GatherDims.WF S200000x64 S200000x1 S200000x64 [1] [0] [] [0] [] 1 ![1, 64]
  dot_S200000x64_S64x64_S200000x64_1_0_0_1_n_n_wf : DotDims.WF S200000x64 S64x64 S200000x64 [1] [0] [0] [1] [] []
  gather_S200000x64_S400000x1_S400000x64_1_0_n_n_0_1_164_wf : GatherDims.WF S200000x64 S400000x1 S400000x64 [1] [0] [] [0] [] 1 ![1, 64]
  dot_S200000x128_S128x128_S200000x128_1_0_0_1_n_n_wf : DotDims.WF S200000x128 S128x128 S200000x128 [1] [0] [0] [1] [] []
  gather_S200000x64_S600000x1_S600000x64_1_0_n_n_0_1_164_wf : GatherDims.WF S200000x64 S600000x1 S600000x64 [1] [0] [] [0] [] 1 ![1, 64]
  dot_S200000x192_S192x192_S200000x192_1_0_0_1_n_n_wf : DotDims.WF S200000x192 S192x192 S200000x192 [1] [0] [0] [1] [] []
  scatter_S200000x64_S200000x1_S200000x64_1_0_0_1_wf : ScatterDims.WF S200000x64 S200000x1 S200000x64 [1] [0] [0] 1
  scatter_S200000x64_S400000x1_S400000x64_1_0_0_1_wf : ScatterDims.WF S200000x64 S400000x1 S400000x64 [1] [0] [0] 1
  scatter_S200000x64_S600000x1_S600000x64_1_0_0_1_wf : ScatterDims.WF S200000x64 S600000x1 S600000x64 [1] [0] [0] 1
  dot_S200000x224_S224x128_S200000x128_1_0_0_1_n_n_wf : DotDims.WF S200000x224 S224x128 S200000x128 [1] [0] [0] [1] [] []
  dot_S200000x128_S128x64_S200000x64_1_0_0_1_n_n_wf : DotDims.WF S200000x128 S128x64 S200000x64 [1] [0] [0] [1] [] []

variable [Facts₀]

def gather_S200000x64_S200000x1_S200000x64_1_0_n_n_0_1_164 : GatherDims S200000x64 S200000x1 S200000x64 where
  offsetDims := [1]
  collapsedSliceDims := [0]
  operandBatchingDims := []
  startIndicesBatchingDims := []
  startIndexMap := [0]
  indexVectorDim := 1
  sliceSizes := ![1, 64]
  wf := gather_S200000x64_S200000x1_S200000x64_1_0_n_n_0_1_164_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def dot_S200000x192_S192x192_S200000x192_1_0_0_1_n_n : DotDims S200000x192 S192x192 S200000x192 where
  lhsContracting := [1]
  rhsContracting := [0]
  lhsNonContracting := [0]
  rhsNonContracting := [1]
  lhsBatch := []
  rhsBatch := []
  wf := dot_S200000x192_S192x192_S200000x192_1_0_0_1_n_n_wf
def scatter_S200000x64_S200000x1_S200000x64_1_0_0_1 : ScatterDims S200000x64 S200000x1 S200000x64 where
  updateWindowDims := [1]
  insertedWindowDims := [0]
  scatterDimsToOperandDims := [0]
  indexVectorDim := 1
  wf := scatter_S200000x64_S200000x1_S200000x64_1_0_0_1_wf
def scatter_S200000x64_S400000x1_S400000x64_1_0_0_1 : ScatterDims S200000x64 S400000x1 S400000x64 where
  updateWindowDims := [1]
  insertedWindowDims := [0]
  scatterDimsToOperandDims := [0]
  indexVectorDim := 1
  wf := scatter_S200000x64_S400000x1_S400000x64_1_0_0_1_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S200000x224_S224x128_S200000x128_1_0_0_1_n_n : DotDims S200000x224 S224x128 S200000x128 where
  lhsContracting := [1]
  rhsContracting := [0]
  lhsNonContracting := [0]
  rhsNonContracting := [1]
  lhsBatch := []
  rhsBatch := []
  wf := dot_S200000x224_S224x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf

class Facts : Prop extends Facts₀ where

variable [Facts]
-- ==== Proof.KB.Mlp1.lean ====
import proofs.«131809_j79121887527265_1_alg».proof.Proof.Gen.Kernel.Launch
import proofs.«131809_j79121887527265_1_alg».proof.Proof.Gen.Kernel.Skeleton
import proofs.«131809_j79121887527265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 1: a block of rows x, the weights W1, b1, W2, b2 whole, and the block
    relu(x·W1 + b1)·W2 + b2 stored whole. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S4000x64 := Rect.unit (s := S4000x64) ![0, 0] S4000x64.size inb_S4000x64_S4000x64_0_0
abbrev r1_w1 : Rect S64x64 := Rect.unit (s := S64x64) ![0, 0] S64x64.size inb_S64x64_S64x64_0_0
abbrev r1_b1 : Rect S64 := Rect.unit (s := S64) ![0] S64.size inb_S64_S64_0
abbrev r1_w2 : Rect S64x64 := Rect.unit (s := S64x64) ![0, 0] S64x64.size inb_S64x64_S64x64_0_0
abbrev r1_b2 : Rect S64 := Rect.unit (s := S64) ![0] S64.size inb_S64_S64_0
abbrev r1_o : Rect S4000x64 := Rect.unit (s := S4000x64) ![0, 0] S4000x64.size inb_S4000x64_S4000x64_0_0

/-- What the body leaves in the output window's buffer, from the five input blocks: its one store. -/
def out1_5 (x0 : Vec F S4000x64 .f32) (x1 : Vec F S64x64 .f32) (x2 : Vec F S64 .f32) (x3 : Vec F S64x64 .f32) (x4 : Vec F S64 .f32) : Vec F S4000x64 .f32 :=
  View.canon [⟨r1_o, k1_pay1 (View.ld x0 r1_x) (View.ld x1 r1_w1) (View.ld x2 r1_b1) (View.ld x3 r1_w2) (View.ld x4 r1_b2)⟩]

/-- The proof data of pipeline 1 on core `c`: the arrays as the region finds them; after the body each input's
    buffer at its block and the output's at the perceptron of the input blocks; nothing of the core's own kept. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- The output's one store goes through the whole-buffer rectangle, so it covers the buffer. -/
theorem cover1_5 (p0 : Vec F S4000x64 .f32) (y : S4000x64.Idx) :
    ∃ pc ∈ ([⟨r1_o, p0⟩] : List (View.Piece (Elt F) S4000x64 .f32)), y ∈ pc.1.set :=
  View.cover_of_tiled [⟨r1_o, p0⟩] S4000x64.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel1 (c : Dev nD) (E : Set ℕ) (i : grid1.Coords)
    (arg1 : Memref sig .tc .vmem S4000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S4000x64 .f32) (harg6 : arg6.IsWhole)
    (x0 : Vec F S4000x64 .f32) (x1 : Vec F S64x64 .f32) (x2 : Vec F S64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`: the invariant, what the core owes, and the six windows' current
    staging buffers, each at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation1 (c : Dev nD) : BodyObligation (dat1 (F := F) V c) (defs₀ (F := F)) Variants.none () Set.univ := fun t => by
  rw [Gen.bigSep_W1, Gen.bigSep_W1]
  exact sound_body1 V c t

end Cert.Kernel.Fr

end
-- ==== Proof.KB.Mlp2.lean ====
import proofs.«131809_j79121887527265_1_alg».proof.Proof.Gen.Kernel.Launch
import proofs.«131809_j79121887527265_1_alg».proof.Proof.Gen.Kernel.Skeleton
import proofs.«131809_j79121887527265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 2: a block of rows x, the weights W1, b1, W2, b2 whole, and the block
    relu(x·W1 + b1)·W2 + b2 stored whole. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev r2_x : Rect S4000x128 := Rect.unit (s := S4000x128) ![0, 0] S4000x128.size inb_S4000x128_S4000x128_0_0
abbrev r2_w1 : Rect S128x128 := Rect.unit (s := S128x128) ![0, 0] S128x128.size inb_S128x128_S128x128_0_0
abbrev r2_b1 : Rect S128 := Rect.unit (s := S128) ![0] S128.size inb_S128_S128_0
abbrev r2_w2 : Rect S128x128 := Rect.unit (s := S128x128) ![0, 0] S128x128.size inb_S128x128_S128x128_0_0
abbrev r2_b2 : Rect S128 := Rect.unit (s := S128) ![0] S128.size inb_S128_S128_0
abbrev r2_o : Rect S4000x128 := Rect.unit (s := S4000x128) ![0, 0] S4000x128.size inb_S4000x128_S4000x128_0_0

/-- What the body leaves in the output window's buffer, from the five input blocks: its one store. -/
def out2_5 (x0 : Vec F S4000x128 .f32) (x1 : Vec F S128x128 .f32) (x2 : Vec F S128 .f32) (x3 : Vec F S128x128 .f32) (x4 : Vec F S128 .f32) : Vec F S4000x128 .f32 :=
  View.canon [⟨r2_o, k2_pay1 (View.ld x0 r2_x) (View.ld x1 r2_w1) (View.ld x2 r2_b1) (View.ld x3 r2_w2) (View.ld x4 r2_b2)⟩]

/-- The proof data of pipeline 2 on core `c`: the arrays as the region finds them; after the body each input's
    buffer at its block and the output's at the perceptron of the input blocks; nothing of the core's own kept. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- The output's one store goes through the whole-buffer rectangle, so it covers the buffer. -/
theorem cover2_5 (p0 : Vec F S4000x128 .f32) (y : S4000x128.Idx) :
    ∃ pc ∈ ([⟨r2_o, p0⟩] : List (View.Piece (Elt F) S4000x128 .f32)), y ∈ pc.1.set :=
  View.cover_of_tiled [⟨r2_o, p0⟩] S4000x128.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel2 (c : Dev nD) (E : Set ℕ) (i : grid2.Coords)
    (arg1 : Memref sig .tc .vmem S4000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S4000x128 .f32) (harg6 : arg6.IsWhole)
    (x0 : Vec F S4000x128 .f32) (x1 : Vec F S128x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`: the invariant, what the core owes, and the six windows' current
    staging buffers, each at what the pipeline left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation2 (c : Dev nD) : BodyObligation (dat2 (F := F) V c) (defs₀ (F := F)) Variants.none () Set.univ := fun t => by
  rw [Gen.bigSep_W2, Gen.bigSep_W2]
  exact sound_body2 V c t

end Cert.Kernel.Fr

end
-- ==== Proof.KB.Mlp3.lean ====
import proofs.«131809_j79121887527265_1_alg».proof.Proof.Gen.Kernel.Launch
import proofs.«131809_j79121887527265_1_alg».proof.Proof.Gen.Kernel.Skeleton
import proofs.«131809_j79121887527265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 3: a block of rows x, the weights W1, b1, W2, b2 whole, and the block
    relu(x·W1 + b1)·W2 + b2 stored whole. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev r3_x : Rect S4000x128 := Rect.unit (s := S4000x128) ![0, 0] S4000x128.size inb_S4000x128_S4000x128_0_0
abbrev r3_w1 : Rect S128x128 := Rect.unit (s := S128x128) ![0, 0] S128x128.size inb_S128x128_S128x128_0_0
abbrev r3_b1 : Rect S128 := Rect.unit (s := S128) ![0] S128.size inb_S128_S128_0
abbrev r3_w2 : Rect S128x128 := Rect.unit (s := S128x128) ![0, 0] S128x128.size inb_S128x128_S128x128_0_0
abbrev r3_b2 : Rect S128 := Rect.unit (s := S128) ![0] S128.size inb_S128_S128_0
abbrev r3_o : Rect S4000x128 := Rect.unit (s := S4000x128) ![0, 0] S4000x128.size inb_S4000x128_S4000x128_0_0

/-- What the body leaves in the output window's buffer, from the five input blocks: its one store. -/
def out3_5 (x0 : Vec F S4000x128 .f32) (x1 : Vec F S128x128 .f32) (x2 : Vec F S128 .f32) (x3 : Vec F S128x128 .f32) (x4 : Vec F S128 .f32) : Vec F S4000x128 .f32 :=
  View.canon [⟨r3_o, k3_pay1 (View.ld x0 r3_x) (View.ld x1 r3_w1) (View.ld x2 r3_b1) (View.ld x3 r3_w2) (View.ld x4 r3_b2)⟩]

/-- The proof data of pipeline 3 on core `c`: the arrays as the region finds them; after the body each input's
    buffer at its block and the output's at the perceptron of the input blocks; nothing of the core's own kept. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- The output's one store goes through the whole-buffer rectangle, so it covers the buffer. -/
theorem cover3_5 (p0 : Vec F S4000x128 .f32) (y : S4000x128.Idx) :
    ∃ pc ∈ ([⟨r3_o, p0⟩] : List (View.Piece (Elt F) S4000x128 .f32)), y ∈ pc.1.set :=
  View.cover_of_tiled [⟨r3_o, p0⟩] S4000x128.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel3 (c : Dev nD) (E : Set ℕ) (i : grid3.Coords)
    (arg1 : Memref sig .tc .vmem S4000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S4000x128 .f32) (harg6 : arg6.IsWhole)
    (x0 : Vec F S4000x128 .f32) (x1 : Vec F S128x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`: the invariant, what the core owes, and the six windows' current
    staging buffers, each at what the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's run applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation3 (c : Dev nD) : BodyObligation (dat3 (F := F) V c) (defs₀ (F := F)) Variants.none () Set.univ := fun t => by
  rw [Gen.bigSep_W3, Gen.bigSep_W3]
  exact sound_body3 V c t

end Cert.Kernel.Fr

end
-- ==== Proof.KB.Mlp4.lean ====
import proofs.«131809_j79121887527265_1_alg».proof.Proof.Gen.Kernel.Launch
import proofs.«131809_j79121887527265_1_alg».proof.Proof.Gen.Kernel.Skeleton
import proofs.«131809_j79121887527265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 4: a block of rows x, the weights W1, b1, W2, b2 whole, and the block
    relu(x·W1 + b1)·W2 + b2 stored whole. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-buffer rectangles the body loads and stores through. -/
abbrev r4_x : Rect S4000x192 := Rect.unit (s := S4000x192) ![0, 0] S4000x192.size inb_S4000x192_S4000x192_0_0
abbrev r4_w1 : Rect S192x192 := Rect.unit (s := S192x192) ![0, 0] S192x192.size inb_S192x192_S192x192_0_0
abbrev r4_b1 : Rect S192 := Rect.unit (s := S192) ![0] S192.size inb_S192_S192_0
abbrev r4_w2 : Rect S192x192 := Rect.unit (s := S192x192) ![0, 0] S192x192.size inb_S192x192_S192x192_0_0
abbrev r4_b2 : Rect S192 := Rect.unit (s := S192) ![0] S192.size inb_S192_S192_0
abbrev r4_o : Rect S4000x192 := Rect.unit (s := S4000x192) ![0, 0] S4000x192.size inb_S4000x192_S4000x192_0_0

/-- What the body leaves in the output window's buffer, from the five input blocks: its one store. -/
def out4_5 (x0 : Vec F S4000x192 .f32) (x1 : Vec F S192x192 .f32) (x2 : Vec F S192 .f32) (x3 : Vec F S192x192 .f32) (x4 : Vec F S192 .f32) : Vec F S4000x192 .f32 :=
  View.canon [⟨r4_o, k4_pay1 (View.ld x0 r4_x) (View.ld x1 r4_w1) (View.ld x2 r4_b1) (View.ld x3 r4_w2) (View.ld x4 r4_b2)⟩]

/-- The proof data of pipeline 4 on core `c`: the arrays as the region finds them; after the body each input's
    buffer at its block and the output's at the perceptron of the input blocks; nothing of the core's own kept. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- The output's one store goes through the whole-buffer rectangle, so it covers the buffer. -/
theorem cover4_5 (p0 : Vec F S4000x192 .f32) (y : S4000x192.Idx) :
    ∃ pc ∈ ([⟨r4_o, p0⟩] : List (View.Piece (Elt F) S4000x192 .f32)), y ∈ pc.1.set :=
  View.cover_of_tiled [⟨r4_o, p0⟩] S4000x192.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel4 (c : Dev nD) (E : Set ℕ) (i : grid4.Coords)
    (arg1 : Memref sig .tc .vmem S4000x192 .f32) (harg1 : arg1.IsWhole) (arg2 : Memref sig .tc .vmem S192x192 .f32) (harg2 : arg2.IsWhole)
    (arg3 : Memref sig .tc .vmem S192 .f32) (harg3 : arg3.IsWhole) (arg4 : Memref sig .tc .vmem S192x192 .f32) (harg4 : arg4.IsWhole)
    (arg5 : Memref sig .tc .vmem S192 .f32) (harg5 : arg5.IsWhole) (arg6 : Memref sig .tc .vmem S4000x192 .f32) (harg6 : arg6.IsWhole)
    (x0 : Vec F S4000x192 .f32) (x1 : Vec F S192x192 .f32) (x2 : Vec F S192 .f32) (x3 : Vec F S192x192 .f32) (x4 : Vec F S192 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`: the invariant, what the core owes, and the six windows' current
    staging buffers, each at what the pipeline left there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it returns: the same, each buffer at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's run applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation4 (c : Dev nD) : BodyObligation (dat4 (F := F) V c) (defs₀ (F := F)) Variants.none () Set.univ := fun t => by
  rw [Gen.bigSep_W4, Gen.bigSep_W4]
  exact sound_body4 V c t

end Cert.Kernel.Fr

end
-- ==== Proof.KB.Mlp5.lean ====
import proofs.«131809_j79121887527265_1_alg».proof.Proof.Gen.Kernel.Launch
import proofs.«131809_j79121887527265_1_alg».proof.Proof.Gen.Kernel.Skeleton
import proofs.«131809_j79121887527265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 5: a block of rows x, the weights W1, b1, W2, b2 whole, and the block
    relu(x·W1 + b1)·W2 + b2 stored whole. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-buffer rectangles the body loads and stores through. -/
abbrev r5_x : Rect S4000x224 := Rect.unit (s := S4000x224) ![0, 0] S4000x224.size inb_S4000x224_S4000x224_0_0
abbrev r5_w1 : Rect S224x128 := Rect.unit (s := S224x128) ![0, 0] S224x128.size inb_S224x128_S224x128_0_0
abbrev r5_b1 : Rect S128 := Rect.unit (s := S128) ![0] S128.size inb_S128_S128_0
abbrev r5_w2 : Rect S128x64 := Rect.unit (s := S128x64) ![0, 0] S128x64.size inb_S128x64_S128x64_0_0
abbrev r5_b2 : Rect S64 := Rect.unit (s := S64) ![0] S64.size inb_S64_S64_0
abbrev r5_o : Rect S4000x64 := Rect.unit (s := S4000x64) ![0, 0] S4000x64.size inb_S4000x64_S4000x64_0_0

/-- What the body leaves in the output window's buffer, from the five input blocks: its one store. -/
def out5_5 (x0 : Vec F S4000x224 .f32) (x1 : Vec F S224x128 .f32) (x2 : Vec F S128 .f32) (x3 : Vec F S128x64 .f32) (x4 : Vec F S64 .f32) : Vec F S4000x64 .f32 :=
  View.canon [⟨r5_o, k5_pay1 (View.ld x0 r5_x) (View.ld x1 r5_w1) (View.ld x2 r5_b1) (View.ld x3 r5_w2) (View.ld x4 r5_b2)⟩]

/-- The proof data of pipeline 5 on core `c`: the arrays as the region finds them; after the body each input's
    buffer at its block and the output's at the perceptron of the input blocks; nothing of the core's own kept. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- The output's one store goes through the whole-buffer rectangle, so it covers the buffer. -/
theorem cover5_5 (p0 : Vec F S4000x64 .f32) (y : S4000x64.Idx) :
    ∃ pc ∈ ([⟨r5_o, p0⟩] : List (View.Piece (Elt F) S4000x64 .f32)), y ∈ pc.1.set :=
  View.cover_of_tiled [⟨r5_o, p0⟩] S4000x64.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel5 (c : Dev nD) (E : Set ℕ) (i : grid5.Coords)
    (arg1 : Memref sig .tc .vmem S4000x224 .f32) (harg1 : arg1.IsWhole) (arg2 : Memref sig .tc .vmem S224x128 .f32) (harg2 : arg2.IsWhole)
    (arg3 : Memref sig .tc .vmem S128 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S4000x64 .f32) (harg6 : arg6.IsWhole)
    (x0 : Vec F S4000x224 .f32) (x1 : Vec F S224x128 .f32) (x2 : Vec F S128 .f32) (x3 : Vec F S128x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`: the invariant, what the core owes, and the six windows' current
    staging buffers, each at what the pipeline left there. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What it returns: the same, each buffer at what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's run applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation5 (c : Dev nD) : BodyObligation (dat5 (F := F) V c) (defs₀ (F := F)) Variants.none () Set.univ := fun t => by
  rw [Gen.bigSep_W5, Gen.bigSep_W5]
  exact sound_body5 V c t

end Cert.Kernel.Fr

end
-- ==== Proof.KB.EmbRun.lean ====
import proofs.«131809_j79121887527265_1_alg».proof.Proof.Gen.Kernel.Launch
import proofs.«131809_j79121887527265_1_alg».proof.Proof.Gen.Kernel.Skeleton
import proofs.«131809_j79121887527265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The graph-embedding kernel's body, run once per control case

The body branches twice on the grid coordinate: at the first point it resets the two carried rows
(`m := -∞`, `l := 0`) before the step; at the last point it stores the output row `log l / 8 + m` after the step.
The grid has 20 points, so a point is the first, the last, or neither, and the body is run once for each of the
three. Each run is stated on whole memrefs at named contents and returns them at the skeleton's payloads of those
contents: a whole-row store read back is its payload. -/

/-- The first conditional's test as the kernel computes it: the grid coordinate is zero. -/
abbrev embFirst (i : grid0.Coords) : Prop := (Scalar.cmpi .ne (Scalar.extui (Scalar.cmpi .eq (BitVec.ofNat 32 (i 0).val) 0#32)) 0#32) = 1#1
/-- The second conditional's test: the grid coordinate is the last one. -/
abbrev embLast (i : grid0.Coords) : Prop := k0_cond2 i = 1#1

theorem emb_hz : (![0, 0] : Fin 2 → Nat) = fun _ => 0 := funext fun a => by fin_cases a <;> rfl

set_option maxHeartbeats 1000000 in
/-- A middle point (neither the first nor the last): the two rows go from `(m, l)` to one step of the recurrence; the
    input block and the output row are left as found. -/
theorem emb_run_mid (c : Dev nD) (i : grid0.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (hc0 : ¬embFirst i) (hc1 : ¬embLast i)
    (x : Vec F S10000x64 .f32) (o mv lv : Vec F S1x64 .f32) (E : Set ℕ) (K : PUnit → sProp 𝕄) :
    iprop(owns (c : Thread nD τ) arg1 fullShare x ∗ owns (c : Thread nD τ) arg2 fullShare o
        ∗ owns (c : Thread nD τ) arg3 fullShare mv ∗ owns (c : Thread nD τ) arg4 fullShare lv
        ∗ (iprop(owns (c : Thread nD τ) arg1 fullShare x ∗ owns (c : Thread nD τ) arg2 fullShare o
            ∗ owns (c : Thread nD τ) arg3 fullShare (k0_pay5 x mv) ∗ owns (c : Thread nD τ) arg4 fullShare (k0_pay4 x mv mv lv)) -∗ K ⟨⟩))
      ⊢ wp frame (wpE (defs₀ (F := F)) Variants.none c none) E (cc0__graph_emb_kernel i arg1 harg1 arg2 harg2 arg3 harg3 arg4 harg4) K := by
  simp only [cc0__graph_emb_kernel_eq_skeleton]; unfold cc0__graph_emb_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2
  obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_cons_self .., View.mem_set_unit_zero (S := S1x64) emb_hz inb_S1x64_S1x64_0_0 y⟩), View.canon_cons_unit_zero emb_hz]
    simp only [View.readAt_eq_ld, harg1.read_unread, harg3.read_unread, View.ld_unit_zero (S := S10000x64) emb_hz, View.ld_unit_zero (S := S1x64) emb_hz]
  iexists _; isplitr
  swap; · iexact H4
  ipureintro
  rw [View.read_writes_eq_canon _ _ _ (fun y => ⟨_, List.mem_cons_self .., View.mem_set_unit_zero (S := S1x64) emb_hz inb_S1x64_S1x64_0_0 y⟩), View.canon_cons_unit_zero emb_hz]
  simp only [View.readAt_eq_ld, harg1.read_unread, harg3.read_unread, harg4.read_unread, View.ld_unit_zero (S := S10000x64) emb_hz, View.ld_unit_zero (S := S1x64) emb_hz]

set_option maxHeartbeats 1000000 in
/-- The first point: whatever the two rows held, they are reset to `(-∞, 0)` and then take one step of the recurrence;
    the input block and the output row are left as found. -/
theorem emb_run_first (c : Dev nD) (i : grid0.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (hc0 : embFirst i) (hc1 : ¬embLast i)
    (x : Vec F S10000x64 .f32) (o : Vec F S1x64 .f32) (E : Set ℕ) (K : PUnit → sProp 𝕄) :
    iprop(owns (c : Thread nD τ) arg1 fullShare x ∗ owns (c : Thread nD τ) arg2 fullShare o
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare o
            ∗ owns (c : Thread nD τ) arg3 fullShare (k0_pay5 x k0_pay1) ∗ owns (c : Thread nD τ) arg4 fullShare (k0_pay4 x k0_pay1 k0_pay1 k0_pay2)) -∗ K ⟨⟩))
      ⊢ wp frame (wpE (defs₀ (F := F)) Variants.none c none) E (cc0__graph_emb_kernel i arg1 harg1 arg2 harg2 arg3 harg3 arg4 harg4) K := by
  simp only [cc0__graph_emb_kernel_eq_skeleton]; unfold cc0__graph_emb_kernel_skel
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_cons_self .., View.mem_set_unit_zero (S := S1x64) emb_hz inb_S1x64_S1x64_0_0 y⟩), View.canon_cons_unit_zero emb_hz]
    sl_unfold_words
    rw [View.readCov_unit_zero (S := S1x64) _ emb_hz]
    simp only [View.readAt_eq_ld, harg1.read_unread, View.ld_unit_zero (S := S10000x64) emb_hz]
  iexists _; isplitr
  swap; · iexact H4
  ipureintro
  rw [View.read_writes_eq_canon _ _ _ (fun y => ⟨_, List.mem_cons_self .., View.mem_set_unit_zero (S := S1x64) emb_hz inb_S1x64_S1x64_0_0 y⟩), View.canon_cons_unit_zero emb_hz]
  sl_unfold_words
  rw [View.readCov_unit_zero (S := S1x64) _ emb_hz, View.readCov_unit_zero (S := S1x64) _ emb_hz]
  simp only [View.readAt_eq_ld, harg1.read_unread, View.ld_unit_zero (S := S10000x64) emb_hz]

set_option maxHeartbeats 1000000 in
/-- The last point: one step of the recurrence, then the output row is `log l / 8 + m` of the new rows. -/
theorem emb_run_last (c : Dev nD) (i : grid0.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (hc0 : ¬embFirst i) (hc1 : embLast i)
    (x : Vec F S10000x64 .f32) (mv lv : Vec F S1x64 .f32) (E : Set ℕ) (K : PUnit → sProp 𝕄) :
    iprop(owns (c : Thread nD τ) arg1 fullShare x ∗ (∃ d, owns (c : Thread nD τ) arg2 fullShare d)
        ∗ owns (c : Thread nD τ) arg3 fullShare mv ∗ owns (c : Thread nD τ) arg4 fullShare lv
        ∗ (iprop(owns (c : Thread nD τ) arg1 fullShare x ∗ owns (c : Thread nD τ) arg2 fullShare (k0_pay6 (k0_pay4 x mv mv lv) (k0_pay5 x mv))
            ∗ owns (c : Thread nD τ) arg3 fullShare (k0_pay5 x mv) ∗ owns (c : Thread nD τ) arg4 fullShare (k0_pay4 x mv mv lv)) -∗ K ⟨⟩))
      ⊢ wp frame (wpE (defs₀ (F := F)) Variants.none c none) E (cc0__graph_emb_kernel i arg1 harg1 arg2 harg2 arg3 harg3 arg4 harg4) K := by
  simp only [cc0__graph_emb_kernel_eq_skeleton]; unfold cc0__graph_emb_kernel_skel
  unfold owns
  iintro ⟨⟨%f1, %hf1, H1⟩, ⟨%d2, %f2, -, H2⟩, ⟨%f3, %hf3, H3⟩, ⟨%f4, %hf4, H4⟩, Hk⟩
  obtain rfl := harg1.eq_unread hf1
  obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr
    swap; · iexact H2
    ipureintro
    rw [View.read_writes_eq_canon _ _ _ (fun y => ⟨_, List.mem_cons_self .., View.mem_set_unit_zero (S := S1x64) emb_hz inb_S1x64_S1x64_0_0 y⟩), View.canon_cons_unit_zero emb_hz]
    sl_unfold_words
    rw [View.readCov_unit_zero (S := S1x64) _ emb_hz, View.readCov_unit_zero (S := S1x64) _ emb_hz]
    simp only [View.readAt_eq_ld, harg1.read_unread, harg3.read_unread, harg4.read_unread, View.ld_unit_zero (S := S10000x64) emb_hz, View.ld_unit_zero (S := S1x64) emb_hz]
  isplitl [H3]
  · iexists _; isplitr
    swap; · iexact H3
    ipureintro
    sl_unfold_words
    rw [View.read_writes_eq_canon _ _ _ (fun y => ⟨_, List.mem_cons_self .., View.mem_set_unit_zero (S := S1x64) emb_hz inb_S1x64_S1x64_0_0 y⟩), View.canon_cons_unit_zero emb_hz]
    simp only [View.readAt_eq_ld, harg1.read_unread, harg3.read_unread, harg4.read_unread, View.ld_unit_zero (S := S10000x64) emb_hz, View.ld_unit_zero (S := S1x64) emb_hz]
  iexists _; isplitr
  swap; · iexact H4
  ipureintro
  sl_unfold_words
  rw [View.read_writes_eq_canon _ _ _ (fun y => ⟨_, List.mem_cons_self .., View.mem_set_unit_zero (S := S1x64) emb_hz inb_S1x64_S1x64_0_0 y⟩), View.canon_cons_unit_zero emb_hz]
  simp only [View.readAt_eq_ld, harg1.read_unread, harg3.read_unread, harg4.read_unread, View.ld_unit_zero (S := S10000x64) emb_hz, View.ld_unit_zero (S := S1x64) emb_hz]

end Cert.Kernel.Fr

end
-- ==== Proof.KB.Emb.lean ====
import proofs.«131809_j79121887527265_1_alg».proof.Proof.Gen.Kernel.Launch
import proofs.«131809_j79121887527265_1_alg».proof.Proof.Gen.Kernel.Skeleton
import proofs.«131809_j79121887527265_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«131809_j79121887527265_1_alg».proof.Proof.KB.EmbRun

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The graph-embedding region: an online log-sum-exp over the twenty row blocks

The kernel walks the 20 blocks of 10000 rows. It keeps two rows of 64 numbers between grid points: the running
column maximum `m` and the running scaled sum `l = Σ exp(8·(x − m))`. At the first point both are reset
(`m := -∞`, `l := 0`); at every point `m' := max(m, max of the block's columns)`,
`l' := exp(8·(m − m'))·l + Σ_rows exp(8·(x − m'))`; at the last point the output row is `log l / 8 + m`.
Everything is stated at a parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The carried rows, by recursion on the number of points done -/

/-- The running maximum and the running sum after `k` points: `(-∞, 0)` before any point (what the first point's
    reset stores), then one step of the recurrence per block. Past the grid nothing changes. -/
def mlAt (c : Dev nD) : ℕ → Vec F S1x64 .f32 × Vec F S1x64 .f32
  | 0 => (k0_pay1, k0_pay2)
  | k + 1 =>
    if h : k < cfg0.N then
      (k0_pay5 (iblk0 V c 0 ⟨k, h⟩) (mlAt c k).1,
       k0_pay4 (iblk0 V c 0 ⟨k, h⟩) (mlAt c k).1 (mlAt c k).1 (mlAt c k).2)
    else mlAt c k

/-- The running column maximum after `k` points. -/
def mAt (c : Dev nD) (k : ℕ) : Vec F S1x64 .f32 := (mlAt V c k).1
/-- The running scaled sum after `k` points. -/
def lAt (c : Dev nD) (k : ℕ) : Vec F S1x64 .f32 := (mlAt V c k).2

theorem mAt_zero (c : Dev nD) : mAt V c 0 = k0_pay1 := rfl
theorem lAt_zero (c : Dev nD) : lAt V c 0 = k0_pay2 := rfl

/-- One step of the maximum: the old maximum against the block's column maxima. -/
theorem mAt_succ (c : Dev nD) (t : Fin cfg0.N) :
    mAt V c (t.val + 1) = k0_pay5 (iblk0 V c 0 t) (mAt V c t.val) := by
  unfold mAt; rw [mlAt, dif_pos t.isLt]

/-- One step of the sum: the old sum rescaled to the new maximum, plus the block's terms. -/
theorem lAt_succ (c : Dev nD) (t : Fin cfg0.N) :
    lAt V c (t.val + 1) = k0_pay4 (iblk0 V c 0 t) (mAt V c t.val) (mAt V c t.val) (lAt V c t.val) := by
  unfold lAt mAt; rw [mlAt, dif_pos t.isLt]

/-! ## The invariant and the proof data -/

/-- The two scratch rows as whole memrefs, as the kernel is called with them. -/
abbrev scM0 : Memref sig .tc .vmem S1x64 .f32 := Memref.whole cc0_scratch0
abbrev scL0 : Memref sig .tc .vmem S1x64 .f32 := Memref.whole cc0_scratch1

/-- Every other scoped buffer of the core, unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region invariant before point `k`: before the first point the two scratch rows hold anything; afterwards the
    running maximum and sum after `k` points. Beside them the other scoped buffers and the generator register. -/
def Phi0 (c : Dev nD) : ℕ → sProp 𝕄
  | 0 => iprop(iprop((∃ d, owns (c : Thread nD τ) scM0 fullShare d) ∗ (∃ d, owns (c : Thread nD τ) scL0 fullShare d))
      ∗ restBut0 c ∗ (∃ r, prngReg c r))
  | k + 1 => iprop(iprop(owns (c : Thread nD τ) scM0 fullShare (mAt V c (k + 1)) ∗ owns (c : Thread nD τ) scL0 fullShare (lAt V c (k + 1)))
      ∗ restBut0 c ∗ (∃ r, prngReg c r))

theorem Phi0_zero (c : Dev nD) : Phi0 V c 0 = iprop(iprop((∃ d, owns (c : Thread nD τ) scM0 fullShare d) ∗ (∃ d, owns (c : Thread nD τ) scL0 fullShare d))
      ∗ restBut0 c ∗ (∃ r, prngReg c r)) := rfl
theorem Phi0_succ (c : Dev nD) (k : ℕ) : Phi0 V c (k + 1) = iprop(iprop(owns (c : Thread nD τ) scM0 fullShare (mAt V c (k + 1)) ∗ owns (c : Thread nD τ) scL0 fullShare (lAt V c (k + 1)))
      ∗ restBut0 c ∗ (∃ r, prngReg c r)) := rfl

/-- The proof data of the region on core `c`: the arrays as the region finds them; the input's buffer keeps its block;
    the output row is what the last point stores, `log l / 8 + m` of the rows after all 20 points (unread at the
    idle points); the invariant carries the two rows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay6 (lAt V c 20) (mAt V c 20)
  Φ k := Phi0 V c k.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay6 (lAt V c 20) (mAt V c 20) := by dsimp only [dat0]

theorem before0_0 (c : Dev nD) (t : Fin cfg0.N) (d) : (dat0 V c).before 0 t d = iblk0 V c 0 t :=
  before0_0_of V (dat0 V c) (A_eq0 V c 0) (after0_0 V c) t d

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := rfl

/-! ## Into the invariant and out of it -/

/-- What the launch hands the region — the generator register, the (empty) prefetched tables, the scoped buffers no
    window stages — is the invariant before the first point: the scoped rest splits at the two scratch rows. -/
theorem hin0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (dat0 V c).Φ 0 := by
  rw [show (dat0 V c).Φ 0 = Phi0 V c 0 from rfl, Phi0_zero, scopedRest0_split]
  simp only [scM0, scL0, owns_whole]
  iintro ⟨Hp, -, ⟨⟨H0, H1⟩, Hr⟩⟩
  isplitl [H0 H1]
  · isplitl [H0]; · iexact H0
    iexact H1
  isplitl [Hr]; · iexact Hr
  iexact Hp

/-- After the last point the invariant gives the same back: the two rows' named contents are forgotten. -/
theorem hout0 (c : Dev nD) :
    (dat0 V c).Φ (Fin.last cfg0.N)
      ⊢ iprop((∃ r, prngReg c r) ∗ (BI.emp : sProp 𝕄) ∗ Pipeline.scopedRest (Ix := Unit) (Name := ℕ) (U := UR sig nD τ) (Lvl := ℕ) (Val := Elt F) spec0 c) := by
  have hN : (Fin.last cfg0.N).val = 19 + 1 := by rw [Fin.val_last]; exact N_0
  rw [show (dat0 V c).Φ (Fin.last cfg0.N) = Phi0 V c (Fin.last cfg0.N).val from rfl, hN, Phi0_succ, scopedRest0_split]
  simp only [scM0, scL0, owns_whole]
  iintro ⟨⟨H0, H1⟩, Hr, Hp⟩
  isplitl [Hp]; · iexact Hp
  isplitr; · iempintro
  isplitl [H0 H1]
  · isplitl [H0]; · iexists _; iexact H0
    iexists _; iexact H1
  iexact Hr

/-! ## The body obligation -/

/-- The first test holds at the first point only, the second at the last point only (decided over the grid). -/
theorem hfirst0 : ∀ t : Fin cfg0.N, embFirst (grid0.coords t) ↔ t.val % 20 = 0 :=
  (by decide +kernel : ∀ t : Fin grid0.N, embFirst (grid0.coords t) ↔ t.val % 20 = 0)
theorem hlast0 : ∀ t : Fin cfg0.N, embLast (grid0.coords t) ↔ t.val % 20 = 19 :=
  (by decide +kernel : ∀ t : Fin grid0.N, embLast (grid0.coords t) ↔ t.val % 20 = 19)

/-- The input window is never idle; the output row is idle, and not written back, exactly off the last point. -/
theorem live0_0 : ∀ t : Fin cfg0.N, cfg0.idle 0 (grid0.coords t) = false := by decide +kernel
theorem idle0_1 : ∀ t : Fin cfg0.N, ¬embLast (grid0.coords t) → cfg0.idle 1 (grid0.coords t) = true := by decide +kernel
theorem noFlush0_1 : ∀ t : Fin cfg0.N, ¬embLast (grid0.coords t) → (cfg0.win 1).flush t = false := by decide +kernel
theorem live0_1 : ∀ t : Fin cfg0.N, embLast (grid0.coords t) → cfg0.idle 1 (grid0.coords t) = false := by decide +kernel

theorem Phi0_of_zero (c : Dev nD) (k : ℕ) (hk : k = 0) : Phi0 V c k = iprop(iprop((∃ d, owns (c : Thread nD τ) scM0 fullShare d) ∗ (∃ d, owns (c : Thread nD τ) scL0 fullShare d))
      ∗ restBut0 c ∗ (∃ r, prngReg c r)) := by subst hk; rfl
theorem Phi0_of_pos (c : Dev nD) (k : ℕ) (hk : k ≠ 0) : Phi0 V c k = iprop(iprop(owns (c : Thread nD τ) scM0 fullShare (mAt V c k) ∗ owns (c : Thread nD τ) scL0 fullShare (lAt V c k))
      ∗ restBut0 c ∗ (∃ r, prngReg c r)) := by
  cases k with
  | zero => exact absurd rfl hk
  | succ k => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 1600000 in
/-- The body at any point. The input's buffer holds its block. At the first point the rows are reset and stepped, so the
    invariant's "anything" becomes the rows after one point; at a later point the rows after `t` points become the rows
    after `t + 1`. Off the last point the output row is handed back as found; at the last point it is stored from the
    rows after all 20 points. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [Phi_succ0, Phi0_succ, Phi_castSucc0, mAt_succ, lAt_succ]
  rw [show (dat0 V c).leavesExact 0 t = owns (c : Thread nD τ) (st0_0 t) fullShare ((dat0 V c).after 0 t) from by
    unfold Dat.leavesExact; rw [live0_0 t], after0_0]
  have hN : t.val < 20 := lt_of_lt_of_eq t.isLt (show cfg0.N = 20 from N_0)
  by_cases h1 : t.val % 20 = 19
  · have h0 : ¬t.val % 20 = 0 := by omega
    have hk : t.val ≠ 0 := by omega
    have hc0 : ¬embFirst (grid0.coords t) := fun h => h0 ((hfirst0 t).mp h)
    have hc1 : embLast (grid0.coords t) := (hlast0 t).mpr h1
    rw [show (dat0 V c).leavesExact 1 t = owns (c : Thread nD τ) (st0_1 t) fullShare ((dat0 V c).after 1 t) from by
      unfold Dat.leavesExact; rw [live0_1 t hc1], after0_1]
    have e20 : (20 : ℕ) = t.val + 1 := by omega
    rw [show mAt V c 20 = mAt V c (t.val + 1) from by rw [← e20], show lAt V c 20 = lAt V c (t.val + 1) from by rw [← e20], mAt_succ, lAt_succ]
    rw [Phi0_of_pos V c _ hk]
    iintro ⟨⟨⟨HS0, HS1⟩, Hr, Hg⟩, Ho, ⟨%d0, H0⟩, ⟨%d1, H1⟩⟩
    iapply (emb_run_last c (grid0.coords t) _ _ _ _ _ _ _ _ hc0 hc1 (iblk0 V c 0 t) (mAt V c t.val) (lAt V c t.val) Set.univ _)
    isplitl [H0]; · iexact H0
    isplitl [H1]; · iexists _; iexact H1
    isplitl [HS0]; · iexact HS0
    isplitl [HS1]; · iexact HS1
    iintro ⟨H0, H1, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    iexact H1
  · have hc1 : ¬embLast (grid0.coords t) := fun h => h1 ((hlast0 t).mp h)
    rw [Dat.leavesExact_idle (dat0 V c) 1 t (idle0_1 t hc1) (noFlush0_1 t hc1)]
    by_cases h0 : t.val % 20 = 0
    · have hk : t.val = 0 := by omega
      have hc0 : embFirst (grid0.coords t) := (hfirst0 t).mpr h0
      rw [Phi0_of_zero V c _ hk, show mAt V c t.val = k0_pay1 from by rw [hk]; rfl, show lAt V c t.val = k0_pay2 from by rw [hk]; rfl]
      iintro ⟨⟨⟨HS0, HS1⟩, Hr, Hg⟩, Ho, ⟨%d0, H0⟩, ⟨%d1, H1⟩⟩
      iapply (emb_run_first c (grid0.coords t) _ _ _ _ _ _ _ _ hc0 hc1 (iblk0 V c 0 t) _ Set.univ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      iexists _; iexact H1
    · have hk : t.val ≠ 0 := by omega
      have hc0 : ¬embFirst (grid0.coords t) := fun h => h0 ((hfirst0 t).mp h)
      rw [Phi0_of_pos V c _ hk]
      iintro ⟨⟨⟨HS0, HS1⟩, Hr, Hg⟩, Ho, ⟨%d0, H0⟩, ⟨%d1, H1⟩⟩
      iapply (emb_run_mid c (grid0.coords t) _ _ _ _ _ _ _ _ hc0 hc1 (iblk0 V c 0 t) _ (mAt V c t.val) (lAt V c t.val) Set.univ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Fr

end
-- ==== Proof.KB.Run.lean ====
import proofs.«131809_j79121887527265_1_alg».proof.Proof.Gen.Kernel.Launch
import proofs.«131809_j79121887527265_1_alg».proof.Proof.Gen.Kernel.Skeleton
import proofs.«131809_j79121887527265_1_alg».proof.Proof.Gen.Kernel.Points
import proofs.«131809_j79121887527265_1_alg».proof.Proof.KB.Mlp1
import proofs.«131809_j79121887527265_1_alg».proof.Proof.KB.Mlp2
import proofs.«131809_j79121887527265_1_alg».proof.Proof.KB.Mlp3
import proofs.«131809_j79121887527265_1_alg».proof.Proof.KB.Mlp4
import proofs.«131809_j79121887527265_1_alg».proof.Proof.KB.Mlp5
import proofs.«131809_j79121887527265_1_alg».proof.Proof.KB.Emb
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: six kernel regions among five stretches of host operations

## The buffer contents at each segment boundary, a fold from the launch memory -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves region 0 as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
/-- After the host stretch that follows region 0. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- After the host stretch that follows region 1. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- An input window's array leaves region 2 as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
/-- After the host stretch that follows region 2. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- An input window's array leaves region 3 as it entered. -/
theorem W7_in (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw _).trans (A_eq3 (V6 m ρ) c w))
/-- After the host stretch that follows region 3. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same read at the TensorCore's references. -/
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- An input window's array leaves region 4 as it entered. -/
theorem W9_in (c : Dev nD) (w : Fin cfg4.W) (hw : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hw _).trans (A_eq4 (V8 m ρ) c w))
/-- After the host stretch that follows region 4. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same read at the TensorCore's references. -/
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- An input window's array leaves region 5 as it entered. -/
theorem W11_in (c : Dev nD) (w : Fin cfg5.W) (hw : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hw _).trans (A_eq5 (V10 m ρ) c w))

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V8 m ρ) c
  | ⟨5, _⟩ => fun c => dat5 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch 1 allocates a buffer. -/
theorem hostOps1_fresh : (hostOps1 : List (HloOp τ sig (Elt F))).Forall fun op => op.fresh = ∅ := by
  simp only [List.Forall]; repeat' constructor
/-- No operation of the host stretch 2 allocates a buffer. -/
theorem hostOps2_fresh : (hostOps2 : List (HloOp τ sig (Elt F))).Forall fun op => op.fresh = ∅ := by
  simp only [List.Forall]; repeat' constructor
/-- No operation of the host stretch 3 allocates a buffer. -/
theorem hostOps3_fresh : (hostOps3 : List (HloOp τ sig (Elt F))).Forall fun op => op.fresh = ∅ := by
  simp only [List.Forall]; repeat' constructor
/-- No operation of the host stretch 4 allocates a buffer. -/
theorem hostOps4_fresh : (hostOps4 : List (HloOp τ sig (Elt F))).Forall fun op => op.fresh = ∅ := by
  simp only [List.Forall]; repeat' constructor
set_option maxHeartbeats 4000000 in
/-- No operation of the host stretch 5 allocates a buffer. -/
theorem hostOps5_fresh : (hostOps5 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at W0, left at W1. Its arrays are split out of
    the unscoped buffers and put back at the exit contents; the generator register goes into the invariant and
    comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (V0 m ρ) c _
  hout c := by rw [Pipeline.ownSems0_none]; exact hout0 (V0 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its arrays are split out of
    the unscoped buffers and put back at the exit contents; the generator register goes into the invariant and
    comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W4, left at W5. Its arrays are split out of
    the unscoped buffers and put back at the exit contents; the generator register goes into the invariant and
    comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W6, left at W7. Its arrays are split out of
    the unscoped buffers and put back at the exit contents; the generator register goes into the invariant and
    comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W8, left at W9. Its arrays are split out of
    the unscoped buffers and put back at the exit contents; the generator register goes into the invariant and
    comes out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W10, left at W11. Its arrays are split out of
    the unscoped buffers and put back at the exit contents; the generator register goes into the invariant and
    comes out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in every
    final state each unscoped buffer holds the last boundary's contents `W11`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.Kernel.Fr

end
-- ==== Proof.KB.Args.lean ====
import proofs.«131809_j79121887527265_1_alg».proof.Proof.Gen.Kernel.Launch
import proofs.«131809_j79121887527265_1_alg».proof.Proof.Gen.Kernel.Skeleton
import proofs.«131809_j79121887527265_1_alg».proof.Proof.Gen.Kernel.Points
import proofs.«131809_j79121887527265_1_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The argument arrays end as launched

No item of @main changes an argument array: a stretch of host operations writes only its own result buffers, none of
which is an argument, and a kernel region changes only the array of its output window — an argument is either the array
of one of its input windows, which the pipeline hands back as it found it, or none of its windows' arrays. So at every
boundary between items each argument's buffer holds the launch memory's contents (`W1_launch` … `W11_launch`), and the
final state of the run, which has every unscoped buffer at the last boundary's contents, has the arguments as launched:
the frame, at any reading of the floats. -/

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- Region 0 leaves every argument array as it found it: an argument is one of its input windows' arrays or none of its windows'. -/
theorem W1_arg (c : Dev nD) (b : Ref sig .tc) (hb : b ∈ argRefs) : W1 m ρ c (Proc.devRef .tc b) = W0 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W1_of_ne m ρ c _ (by decide)
    | exact W1_in m ρ c 0 rfl

/-- No operation of host stretch 1 writes an argument array. -/
theorem W2_arg (c : Dev nD) (b : Ref sig .tc) (hb : b ∈ argRefs) : W2 m ρ c (Proc.devRef .tc b) = W1 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 1 leaves every argument array as it found it: an argument is one of its input windows' arrays or none of its windows'. -/
theorem W3_arg (c : Dev nD) (b : Ref sig .tc) (hb : b ∈ argRefs) : W3 m ρ c (Proc.devRef .tc b) = W2 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W3_of_ne m ρ c _ (by decide)
    | exact W3_in m ρ c 0 rfl
    | exact W3_in m ρ c 1 rfl
    | exact W3_in m ρ c 2 rfl
    | exact W3_in m ρ c 3 rfl
    | exact W3_in m ρ c 4 rfl

/-- No operation of host stretch 2 writes an argument array. -/
theorem W4_arg (c : Dev nD) (b : Ref sig .tc) (hb : b ∈ argRefs) : W4 m ρ c (Proc.devRef .tc b) = W3 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 2 leaves every argument array as it found it: an argument is one of its input windows' arrays or none of its windows'. -/
theorem W5_arg (c : Dev nD) (b : Ref sig .tc) (hb : b ∈ argRefs) : W5 m ρ c (Proc.devRef .tc b) = W4 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W5_of_ne m ρ c _ (by decide)
    | exact W5_in m ρ c 0 rfl
    | exact W5_in m ρ c 1 rfl
    | exact W5_in m ρ c 2 rfl
    | exact W5_in m ρ c 3 rfl
    | exact W5_in m ρ c 4 rfl

/-- No operation of host stretch 3 writes an argument array. -/
theorem W6_arg (c : Dev nD) (b : Ref sig .tc) (hb : b ∈ argRefs) : W6 m ρ c (Proc.devRef .tc b) = W5 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 3 leaves every argument array as it found it: an argument is one of its input windows' arrays or none of its windows'. -/
theorem W7_arg (c : Dev nD) (b : Ref sig .tc) (hb : b ∈ argRefs) : W7 m ρ c (Proc.devRef .tc b) = W6 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W7_of_ne m ρ c _ (by decide)
    | exact W7_in m ρ c 0 rfl
    | exact W7_in m ρ c 1 rfl
    | exact W7_in m ρ c 2 rfl
    | exact W7_in m ρ c 3 rfl
    | exact W7_in m ρ c 4 rfl

/-- No operation of host stretch 4 writes an argument array. -/
theorem W8_arg (c : Dev nD) (b : Ref sig .tc) (hb : b ∈ argRefs) : W8 m ρ c (Proc.devRef .tc b) = W7 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 4 leaves every argument array as it found it: an argument is one of its input windows' arrays or none of its windows'. -/
theorem W9_arg (c : Dev nD) (b : Ref sig .tc) (hb : b ∈ argRefs) : W9 m ρ c (Proc.devRef .tc b) = W8 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W9_of_ne m ρ c _ (by decide)
    | exact W9_in m ρ c 0 rfl
    | exact W9_in m ρ c 1 rfl
    | exact W9_in m ρ c 2 rfl
    | exact W9_in m ρ c 3 rfl
    | exact W9_in m ρ c 4 rfl

set_option maxHeartbeats 4000000 in
/-- No operation of host stretch 5 writes an argument array. -/
theorem W10_arg (c : Dev nD) (b : Ref sig .tc) (hb : b ∈ argRefs) : W10 m ρ c (Proc.devRef .tc b) = W9 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 5 leaves every argument array as it found it: an argument is one of its input windows' arrays or none of its windows'. -/
theorem W11_arg (c : Dev nD) (b : Ref sig .tc) (hb : b ∈ argRefs) : W11 m ρ c (Proc.devRef .tc b) = W10 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W11_of_ne m ρ c _ (by decide)
    | exact W11_in m ρ c 0 rfl
    | exact W11_in m ρ c 1 rfl
    | exact W11_in m ρ c 2 rfl
    | exact W11_in m ρ c 3 rfl
    | exact W11_in m ρ c 4 rfl

/-- At every boundary an argument array's buffer is the launch memory's. -/
theorem W1_launch (c : Dev nD) (b : Ref sig .tc) (hb : b ∈ argRefs) : W1 m ρ c (Proc.devRef .tc b) = m ((c : Thread nD τ).loc b) :=
  (W1_arg m ρ c b hb).trans rfl
theorem W2_launch (c : Dev nD) (b : Ref sig .tc) (hb : b ∈ argRefs) : W2 m ρ c (Proc.devRef .tc b) = m ((c : Thread nD τ).loc b) :=
  (W2_arg m ρ c b hb).trans (W1_launch m ρ c b hb)
theorem W3_launch (c : Dev nD) (b : Ref sig .tc) (hb : b ∈ argRefs) : W3 m ρ c (Proc.devRef .tc b) = m ((c : Thread nD τ).loc b) :=
  (W3_arg m ρ c b hb).trans (W2_launch m ρ c b hb)
theorem W4_launch (c : Dev nD) (b : Ref sig .tc) (hb : b ∈ argRefs) : W4 m ρ c (Proc.devRef .tc b) = m ((c : Thread nD τ).loc b) :=
  (W4_arg m ρ c b hb).trans (W3_launch m ρ c b hb)
theorem W5_launch (c : Dev nD) (b : Ref sig .tc) (hb : b ∈ argRefs) : W5 m ρ c (Proc.devRef .tc b) = m ((c : Thread nD τ).loc b) :=
  (W5_arg m ρ c b hb).trans (W4_launch m ρ c b hb)
theorem W6_launch (c : Dev nD) (b : Ref sig .tc) (hb : b ∈ argRefs) : W6 m ρ c (Proc.devRef .tc b) = m ((c : Thread nD τ).loc b) :=
  (W6_arg m ρ c b hb).trans (W5_launch m ρ c b hb)
theorem W7_launch (c : Dev nD) (b : Ref sig .tc) (hb : b ∈ argRefs) : W7 m ρ c (Proc.devRef .tc b) = m ((c : Thread nD τ).loc b) :=
  (W7_arg m ρ c b hb).trans (W6_launch m ρ c b hb)
theorem W8_launch (c : Dev nD) (b : Ref sig .tc) (hb : b ∈ argRefs) : W8 m ρ c (Proc.devRef .tc b) = m ((c : Thread nD τ).loc b) :=
  (W8_arg m ρ c b hb).trans (W7_launch m ρ c b hb)
theorem W9_launch (c : Dev nD) (b : Ref sig .tc) (hb : b ∈ argRefs) : W9 m ρ c (Proc.devRef .tc b) = m ((c : Thread nD τ).loc b) :=
  (W9_arg m ρ c b hb).trans (W8_launch m ρ c b hb)
theorem W10_launch (c : Dev nD) (b : Ref sig .tc) (hb : b ∈ argRefs) : W10 m ρ c (Proc.devRef .tc b) = m ((c : Thread nD τ).loc b) :=
  (W10_arg m ρ c b hb).trans (W9_launch m ρ c b hb)
theorem W11_launch (c : Dev nD) (b : Ref sig .tc) (hb : b ∈ argRefs) : W11 m ρ c (Proc.devRef .tc b) = m ((c : Thread nD τ).loc b) :=
  (W11_arg m ρ c b hb).trans (W10_launch m ρ c b hb)

/-- An argument array's buffer in a final state of the run is the launch memory's. -/
theorem arg_end (mem : (ℓ : Loc nD τ sig) → Buf (Elt F) ℓ)
    (h : ∀ c : Dev nD, ∀ b ∈ Pipeline.ucRefs τ sig, mem (((c : Thread nD τ)).1, b) = W11 m ρ c b)
    (c : Dev nD) (b : Ref sig .tc) (hb : b ∈ argRefs) (hu : ¬ (Proc.devRef .tc b : DevRef τ sig).isScoped) :
    mem ((c.tc : Thread nD τ).loc b) = m ((c.tc : Thread nD τ).loc b) :=
  (h c _ (mem_uc b hu)).trans (W11_launch m ρ c b hb)

/-- The frame at any `F`: every weakly fair execution of @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨arg_end m ρ r.2.mem h c main_arg0 (by decide) (by decide),
     arg_end m ρ r.2.mem h c main_arg1 (by decide) (by decide),
     arg_end m ρ r.2.mem h c main_arg2 (by decide) (by decide),
     arg_end m ρ r.2.mem h c main_arg3 (by decide) (by decide),
     arg_end m ρ r.2.mem h c main_arg4 (by decide) (by decide),
     arg_end m ρ r.2.mem h c main_arg5 (by decide) (by decide),
     arg_end m ρ r.2.mem h c main_arg6 (by decide) (by decide),
     arg_end m ρ r.2.mem h c main_arg7 (by decide) (by decide),
     arg_end m ρ r.2.mem h c main_arg8 (by decide) (by decide),
     arg_end m ρ r.2.mem h c main_arg9 (by decide) (by decide),
     arg_end m ρ r.2.mem h c main_arg10 (by decide) (by decide),
     arg_end m ρ r.2.mem h c main_arg11 (by decide) (by decide),
     arg_end m ρ r.2.mem h c main_arg12 (by decide) (by decide),
     arg_end m ρ r.2.mem h c main_arg13 (by decide) (by decide),
     arg_end m ρ r.2.mem h c main_arg14 (by decide) (by decide),
     arg_end m ρ r.2.mem h c main_arg15 (by decide) (by decide),
     arg_end m ρ r.2.mem h c main_arg16 (by decide) (by decide),
     arg_end m ρ r.2.mem h c main_arg17 (by decide) (by decide),
     arg_end m ρ r.2.mem h c main_arg18 (by decide) (by decide),
     arg_end m ρ r.2.mem h c main_arg19 (by decide) (by decide),
     arg_end m ρ r.2.mem h c main_arg20 (by decide) (by decide),
     arg_end m ρ r.2.mem h c main_arg21 (by decide) (by decide),
     arg_end m ρ r.2.mem h c main_arg22 (by decide) (by decide),
     arg_end m ρ r.2.mem h c main_arg23 (by decide) (by decide),
     arg_end m ρ r.2.mem h c main_arg24 (by decide) (by decide),
     arg_end m ρ r.2.mem h c main_arg25 (by decide) (by decide)⟩) (run m ρ)

end Cert.Kernel.Fr

end
-- ==== Proof.KI.Mlp1.lean ====
import proofs.«131809_j79121887527265_1_alg».proof.Proof.Gen.KernelIdeal.Launch
import proofs.«131809_j79121887527265_1_alg».proof.Proof.Gen.KernelIdeal.Skeleton
import proofs.«131809_j79121887527265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 1: a block of rows x, the weights W1, b1, W2, b2 whole, and the block
    relu(x·W1 + b1)·W2 + b2 stored whole. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S4000x64 := Rect.unit (s := S4000x64) ![0, 0] S4000x64.size inb_S4000x64_S4000x64_0_0
abbrev r1_w1 : Rect S64x64 := Rect.unit (s := S64x64) ![0, 0] S64x64.size inb_S64x64_S64x64_0_0
abbrev r1_b1 : Rect S64 := Rect.unit (s := S64) ![0] S64.size inb_S64_S64_0
abbrev r1_w2 : Rect S64x64 := Rect.unit (s := S64x64) ![0, 0] S64x64.size inb_S64x64_S64x64_0_0
abbrev r1_b2 : Rect S64 := Rect.unit (s := S64) ![0] S64.size inb_S64_S64_0
abbrev r1_o : Rect S4000x64 := Rect.unit (s := S4000x64) ![0, 0] S4000x64.size inb_S4000x64_S4000x64_0_0

/-- What the body leaves in the output window's buffer, from the five input blocks: its one store. -/
def out1_5 (x0 : Vec F S4000x64 .f32) (x1 : Vec F S64x64 .f32) (x2 : Vec F S64 .f32) (x3 : Vec F S64x64 .f32) (x4 : Vec F S64 .f32) : Vec F S4000x64 .f32 :=
  View.canon [⟨r1_o, k1_pay1 (View.ld x0 r1_x) (View.ld x1 r1_w1) (View.ld x2 r1_b1) (View.ld x3 r1_w2) (View.ld x4 r1_b2)⟩]

/-- The proof data of pipeline 1 on core `c`: the arrays as the region finds them; after the body each input's
    buffer at its block and the output's at the perceptron of the input blocks; nothing of the core's own kept. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- The output's one store goes through the whole-buffer rectangle, so it covers the buffer. -/
theorem cover1_5 (p0 : Vec F S4000x64 .f32) (y : S4000x64.Idx) :
    ∃ pc ∈ ([⟨r1_o, p0⟩] : List (View.Piece (Elt F) S4000x64 .f32)), y ∈ pc.1.set :=
  View.cover_of_tiled [⟨r1_o, p0⟩] S4000x64.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel1 (c : Dev nD) (E : Set ℕ) (i : grid1.Coords)
    (arg1 : Memref sig .tc .vmem S4000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S4000x64 .f32) (harg6 : arg6.IsWhole)
    (x0 : Vec F S4000x64 .f32) (x1 : Vec F S64x64 .f32) (x2 : Vec F S64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`: the invariant, what the core owes, and the six windows' current
    staging buffers, each at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation1 (c : Dev nD) : BodyObligation (dat1 (F := F) V c) (defs₀ (F := F)) Variants.none () Set.univ := fun t => by
  rw [Gen.bigSep_W1, Gen.bigSep_W1]
  exact sound_body1 V c t

end Cert.KernelIdeal.Fr

end
-- ==== Proof.KI.Mlp2.lean ====
import proofs.«131809_j79121887527265_1_alg».proof.Proof.Gen.KernelIdeal.Launch
import proofs.«131809_j79121887527265_1_alg».proof.Proof.Gen.KernelIdeal.Skeleton
import proofs.«131809_j79121887527265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 2: a block of rows x, the weights W1, b1, W2, b2 whole, and the block
    relu(x·W1 + b1)·W2 + b2 stored whole. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev r2_x : Rect S4000x128 := Rect.unit (s := S4000x128) ![0, 0] S4000x128.size inb_S4000x128_S4000x128_0_0
abbrev r2_w1 : Rect S128x128 := Rect.unit (s := S128x128) ![0, 0] S128x128.size inb_S128x128_S128x128_0_0
abbrev r2_b1 : Rect S128 := Rect.unit (s := S128) ![0] S128.size inb_S128_S128_0
abbrev r2_w2 : Rect S128x128 := Rect.unit (s := S128x128) ![0, 0] S128x128.size inb_S128x128_S128x128_0_0
abbrev r2_b2 : Rect S128 := Rect.unit (s := S128) ![0] S128.size inb_S128_S128_0
abbrev r2_o : Rect S4000x128 := Rect.unit (s := S4000x128) ![0, 0] S4000x128.size inb_S4000x128_S4000x128_0_0

/-- What the body leaves in the output window's buffer, from the five input blocks: its one store. -/
def out2_5 (x0 : Vec F S4000x128 .f32) (x1 : Vec F S128x128 .f32) (x2 : Vec F S128 .f32) (x3 : Vec F S128x128 .f32) (x4 : Vec F S128 .f32) : Vec F S4000x128 .f32 :=
  View.canon [⟨r2_o, k2_pay1 (View.ld x0 r2_x) (View.ld x1 r2_w1) (View.ld x2 r2_b1) (View.ld x3 r2_w2) (View.ld x4 r2_b2)⟩]

/-- The proof data of pipeline 2 on core `c`: the arrays as the region finds them; after the body each input's
    buffer at its block and the output's at the perceptron of the input blocks; nothing of the core's own kept. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- The output's one store goes through the whole-buffer rectangle, so it covers the buffer. -/
theorem cover2_5 (p0 : Vec F S4000x128 .f32) (y : S4000x128.Idx) :
    ∃ pc ∈ ([⟨r2_o, p0⟩] : List (View.Piece (Elt F) S4000x128 .f32)), y ∈ pc.1.set :=
  View.cover_of_tiled [⟨r2_o, p0⟩] S4000x128.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel2 (c : Dev nD) (E : Set ℕ) (i : grid2.Coords)
    (arg1 : Memref sig .tc .vmem S4000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S4000x128 .f32) (harg6 : arg6.IsWhole)
    (x0 : Vec F S4000x128 .f32) (x1 : Vec F S128x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`: the invariant, what the core owes, and the six windows' current
    staging buffers, each at what the pipeline left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation2 (c : Dev nD) : BodyObligation (dat2 (F := F) V c) (defs₀ (F := F)) Variants.none () Set.univ := fun t => by
  rw [Gen.bigSep_W2, Gen.bigSep_W2]
  exact sound_body2 V c t

end Cert.KernelIdeal.Fr

end
-- ==== Proof.KI.Mlp3.lean ====
import proofs.«131809_j79121887527265_1_alg».proof.Proof.Gen.KernelIdeal.Launch
import proofs.«131809_j79121887527265_1_alg».proof.Proof.Gen.KernelIdeal.Skeleton
import proofs.«131809_j79121887527265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 3: a block of rows x, the weights W1, b1, W2, b2 whole, and the block
    relu(x·W1 + b1)·W2 + b2 stored whole. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev r3_x : Rect S4000x128 := Rect.unit (s := S4000x128) ![0, 0] S4000x128.size inb_S4000x128_S4000x128_0_0
abbrev r3_w1 : Rect S128x128 := Rect.unit (s := S128x128) ![0, 0] S128x128.size inb_S128x128_S128x128_0_0
abbrev r3_b1 : Rect S128 := Rect.unit (s := S128) ![0] S128.size inb_S128_S128_0
abbrev r3_w2 : Rect S128x128 := Rect.unit (s := S128x128) ![0, 0] S128x128.size inb_S128x128_S128x128_0_0
abbrev r3_b2 : Rect S128 := Rect.unit (s := S128) ![0] S128.size inb_S128_S128_0
abbrev r3_o : Rect S4000x128 := Rect.unit (s := S4000x128) ![0, 0] S4000x128.size inb_S4000x128_S4000x128_0_0

/-- What the body leaves in the output window's buffer, from the five input blocks: its one store. -/
def out3_5 (x0 : Vec F S4000x128 .f32) (x1 : Vec F S128x128 .f32) (x2 : Vec F S128 .f32) (x3 : Vec F S128x128 .f32) (x4 : Vec F S128 .f32) : Vec F S4000x128 .f32 :=
  View.canon [⟨r3_o, k3_pay1 (View.ld x0 r3_x) (View.ld x1 r3_w1) (View.ld x2 r3_b1) (View.ld x3 r3_w2) (View.ld x4 r3_b2)⟩]

/-- The proof data of pipeline 3 on core `c`: the arrays as the region finds them; after the body each input's
    buffer at its block and the output's at the perceptron of the input blocks; nothing of the core's own kept. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- The output's one store goes through the whole-buffer rectangle, so it covers the buffer. -/
theorem cover3_5 (p0 : Vec F S4000x128 .f32) (y : S4000x128.Idx) :
    ∃ pc ∈ ([⟨r3_o, p0⟩] : List (View.Piece (Elt F) S4000x128 .f32)), y ∈ pc.1.set :=
  View.cover_of_tiled [⟨r3_o, p0⟩] S4000x128.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel3 (c : Dev nD) (E : Set ℕ) (i : grid3.Coords)
    (arg1 : Memref sig .tc .vmem S4000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S4000x128 .f32) (harg6 : arg6.IsWhole)
    (x0 : Vec F S4000x128 .f32) (x1 : Vec F S128x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`: the invariant, what the core owes, and the six windows' current
    staging buffers, each at what the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's run applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation3 (c : Dev nD) : BodyObligation (dat3 (F := F) V c) (defs₀ (F := F)) Variants.none () Set.univ := fun t => by
  rw [Gen.bigSep_W3, Gen.bigSep_W3]
  exact sound_body3 V c t

end Cert.KernelIdeal.Fr

end
-- ==== Proof.KI.Mlp4.lean ====
import proofs.«131809_j79121887527265_1_alg».proof.Proof.Gen.KernelIdeal.Launch
import proofs.«131809_j79121887527265_1_alg».proof.Proof.Gen.KernelIdeal.Skeleton
import proofs.«131809_j79121887527265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 4: a block of rows x, the weights W1, b1, W2, b2 whole, and the block
    relu(x·W1 + b1)·W2 + b2 stored whole. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-buffer rectangles the body loads and stores through. -/
abbrev r4_x : Rect S4000x192 := Rect.unit (s := S4000x192) ![0, 0] S4000x192.size inb_S4000x192_S4000x192_0_0
abbrev r4_w1 : Rect S192x192 := Rect.unit (s := S192x192) ![0, 0] S192x192.size inb_S192x192_S192x192_0_0
abbrev r4_b1 : Rect S192 := Rect.unit (s := S192) ![0] S192.size inb_S192_S192_0
abbrev r4_w2 : Rect S192x192 := Rect.unit (s := S192x192) ![0, 0] S192x192.size inb_S192x192_S192x192_0_0
abbrev r4_b2 : Rect S192 := Rect.unit (s := S192) ![0] S192.size inb_S192_S192_0
abbrev r4_o : Rect S4000x192 := Rect.unit (s := S4000x192) ![0, 0] S4000x192.size inb_S4000x192_S4000x192_0_0

/-- What the body leaves in the output window's buffer, from the five input blocks: its one store. -/
def out4_5 (x0 : Vec F S4000x192 .f32) (x1 : Vec F S192x192 .f32) (x2 : Vec F S192 .f32) (x3 : Vec F S192x192 .f32) (x4 : Vec F S192 .f32) : Vec F S4000x192 .f32 :=
  View.canon [⟨r4_o, k4_pay1 (View.ld x0 r4_x) (View.ld x1 r4_w1) (View.ld x2 r4_b1) (View.ld x3 r4_w2) (View.ld x4 r4_b2)⟩]

/-- The proof data of pipeline 4 on core `c`: the arrays as the region finds them; after the body each input's
    buffer at its block and the output's at the perceptron of the input blocks; nothing of the core's own kept. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- The output's one store goes through the whole-buffer rectangle, so it covers the buffer. -/
theorem cover4_5 (p0 : Vec F S4000x192 .f32) (y : S4000x192.Idx) :
    ∃ pc ∈ ([⟨r4_o, p0⟩] : List (View.Piece (Elt F) S4000x192 .f32)), y ∈ pc.1.set :=
  View.cover_of_tiled [⟨r4_o, p0⟩] S4000x192.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel4 (c : Dev nD) (E : Set ℕ) (i : grid4.Coords)
    (arg1 : Memref sig .tc .vmem S4000x192 .f32) (harg1 : arg1.IsWhole) (arg2 : Memref sig .tc .vmem S192x192 .f32) (harg2 : arg2.IsWhole)
    (arg3 : Memref sig .tc .vmem S192 .f32) (harg3 : arg3.IsWhole) (arg4 : Memref sig .tc .vmem S192x192 .f32) (harg4 : arg4.IsWhole)
    (arg5 : Memref sig .tc .vmem S192 .f32) (harg5 : arg5.IsWhole) (arg6 : Memref sig .tc .vmem S4000x192 .f32) (harg6 : arg6.IsWhole)
    (x0 : Vec F S4000x192 .f32) (x1 : Vec F S192x192 .f32) (x2 : Vec F S192 .f32) (x3 : Vec F S192x192 .f32) (x4 : Vec F S192 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`: the invariant, what the core owes, and the six windows' current
    staging buffers, each at what the pipeline left there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it returns: the same, each buffer at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's run applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation4 (c : Dev nD) : BodyObligation (dat4 (F := F) V c) (defs₀ (F := F)) Variants.none () Set.univ := fun t => by
  rw [Gen.bigSep_W4, Gen.bigSep_W4]
  exact sound_body4 V c t

end Cert.KernelIdeal.Fr

end
-- ==== Proof.KI.Mlp5.lean ====
import proofs.«131809_j79121887527265_1_alg».proof.Proof.Gen.KernelIdeal.Launch
import proofs.«131809_j79121887527265_1_alg».proof.Proof.Gen.KernelIdeal.Skeleton
import proofs.«131809_j79121887527265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! The two-layer perceptron of region 5: a block of rows x, the weights W1, b1, W2, b2 whole, and the block
    relu(x·W1 + b1)·W2 + b2 stored whole. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-buffer rectangles the body loads and stores through. -/
abbrev r5_x : Rect S4000x224 := Rect.unit (s := S4000x224) ![0, 0] S4000x224.size inb_S4000x224_S4000x224_0_0
abbrev r5_w1 : Rect S224x128 := Rect.unit (s := S224x128) ![0, 0] S224x128.size inb_S224x128_S224x128_0_0
abbrev r5_b1 : Rect S128 := Rect.unit (s := S128) ![0] S128.size inb_S128_S128_0
abbrev r5_w2 : Rect S128x64 := Rect.unit (s := S128x64) ![0, 0] S128x64.size inb_S128x64_S128x64_0_0
abbrev r5_b2 : Rect S64 := Rect.unit (s := S64) ![0] S64.size inb_S64_S64_0
abbrev r5_o : Rect S4000x64 := Rect.unit (s := S4000x64) ![0, 0] S4000x64.size inb_S4000x64_S4000x64_0_0

/-- What the body leaves in the output window's buffer, from the five input blocks: its one store. -/
def out5_5 (x0 : Vec F S4000x224 .f32) (x1 : Vec F S224x128 .f32) (x2 : Vec F S128 .f32) (x3 : Vec F S128x64 .f32) (x4 : Vec F S64 .f32) : Vec F S4000x64 .f32 :=
  View.canon [⟨r5_o, k5_pay1 (View.ld x0 r5_x) (View.ld x1 r5_w1) (View.ld x2 r5_b1) (View.ld x3 r5_w2) (View.ld x4 r5_b2)⟩]

/-- The proof data of pipeline 5 on core `c`: the arrays as the region finds them; after the body each input's
    buffer at its block and the output's at the perceptron of the input blocks; nothing of the core's own kept. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- The output's one store goes through the whole-buffer rectangle, so it covers the buffer. -/
theorem cover5_5 (p0 : Vec F S4000x64 .f32) (y : S4000x64.Idx) :
    ∃ pc ∈ ([⟨r5_o, p0⟩] : List (View.Piece (Elt F) S4000x64 .f32)), y ∈ pc.1.set :=
  View.cover_of_tiled [⟨r5_o, p0⟩] S4000x64.size (by rfl) y

set_option maxHeartbeats 1000000 in
/-- The body on whole staging buffers: the five inputs' at read contents x0 … x4 and the output's at anything.
    It loads the five inputs whole, loads the output buffer once (a value nothing uses), and stores the
    perceptron of the five loads through the whole output rectangle; so it ends with the inputs' buffers as
    they were and the output's at the perceptron of x0 … x4. -/
theorem sound_kernel5 (c : Dev nD) (E : Set ℕ) (i : grid5.Coords)
    (arg1 : Memref sig .tc .vmem S4000x224 .f32) (harg1 : arg1.IsWhole) (arg2 : Memref sig .tc .vmem S224x128 .f32) (harg2 : arg2.IsWhole)
    (arg3 : Memref sig .tc .vmem S128 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S4000x64 .f32) (harg6 : arg6.IsWhole)
    (x0 : Vec F S4000x224 .f32) (x1 : Vec F S224x128 .f32) (x2 : Vec F S128 .f32) (x3 : Vec F S128x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- An input window's current staging buffer holds its block at every point, fetched there or not, for any proof
    data whose array is the region-entry contents and whose body leaves the block in place: a window that is not
    fetched at a point has the block index it had at the point before (the rows' window moves at every point;
    the four weight windows have a constant index and are fetched at the first point only). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`: the invariant, what the core owes, and the six windows' current
    staging buffers, each at what the pipeline left there. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What it returns: the same, each buffer at what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's run applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point (the body's run at a point: five loads, the perceptron, one store). -/
theorem body_obligation5 (c : Dev nD) : BodyObligation (dat5 (F := F) V c) (defs₀ (F := F)) Variants.none () Set.univ := fun t => by
  rw [Gen.bigSep_W5, Gen.bigSep_W5]
  exact sound_body5 V c t

end Cert.KernelIdeal.Fr

end
-- ==== Proof.KI.EmbRun.lean ====
import proofs.«131809_j79121887527265_1_alg».proof.Proof.Gen.KernelIdeal.Launch
import proofs.«131809_j79121887527265_1_alg».proof.Proof.Gen.KernelIdeal.Skeleton
import proofs.«131809_j79121887527265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The graph-embedding kernel's body, run once per control case

The body branches twice on the grid coordinate: at the first point it resets the two carried rows
(`m := -∞`, `l := 0`) before the step; at the last point it stores the output row `log l / 8 + m` after the step.
The grid has 20 points, so a point is the first, the last, or neither, and the body is run once for each of the
three. Each run is stated on whole memrefs at named contents and returns them at the skeleton's payloads of those
contents: a whole-row store read back is its payload. -/

/-- The first conditional's test as the kernel computes it: the grid coordinate is zero. -/
abbrev embFirst (i : grid0.Coords) : Prop := (Scalar.cmpi .ne (Scalar.extui (Scalar.cmpi .eq (BitVec.ofNat 32 (i 0).val) 0#32)) 0#32) = 1#1
/-- The second conditional's test: the grid coordinate is the last one. -/
abbrev embLast (i : grid0.Coords) : Prop := k0_cond2 i = 1#1

theorem emb_hz : (![0, 0] : Fin 2 → Nat) = fun _ => 0 := funext fun a => by fin_cases a <;> rfl

set_option maxHeartbeats 1000000 in
/-- A middle point (neither the first nor the last): the two rows go from `(m, l)` to one step of the recurrence; the
    input block and the output row are left as found. -/
theorem emb_run_mid (c : Dev nD) (i : grid0.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (hc0 : ¬embFirst i) (hc1 : ¬embLast i)
    (x : Vec F S10000x64 .f32) (o mv lv : Vec F S1x64 .f32) (E : Set ℕ) (K : PUnit → sProp 𝕄) :
    iprop(owns (c : Thread nD τ) arg1 fullShare x ∗ owns (c : Thread nD τ) arg2 fullShare o
        ∗ owns (c : Thread nD τ) arg3 fullShare mv ∗ owns (c : Thread nD τ) arg4 fullShare lv
        ∗ (iprop(owns (c : Thread nD τ) arg1 fullShare x ∗ owns (c : Thread nD τ) arg2 fullShare o
            ∗ owns (c : Thread nD τ) arg3 fullShare (k0_pay5 x mv) ∗ owns (c : Thread nD τ) arg4 fullShare (k0_pay4 x mv mv lv)) -∗ K ⟨⟩))
      ⊢ wp frame (wpE (defs₀ (F := F)) Variants.none c none) E (cc0__graph_emb_kernel i arg1 harg1 arg2 harg2 arg3 harg3 arg4 harg4) K := by
  simp only [cc0__graph_emb_kernel_eq_skeleton]; unfold cc0__graph_emb_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2
  obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_cons_self .., View.mem_set_unit_zero (S := S1x64) emb_hz inb_S1x64_S1x64_0_0 y⟩), View.canon_cons_unit_zero emb_hz]
    simp only [View.readAt_eq_ld, harg1.read_unread, harg3.read_unread, View.ld_unit_zero (S := S10000x64) emb_hz, View.ld_unit_zero (S := S1x64) emb_hz]
  iexists _; isplitr
  swap; · iexact H4
  ipureintro
  rw [View.read_writes_eq_canon _ _ _ (fun y => ⟨_, List.mem_cons_self .., View.mem_set_unit_zero (S := S1x64) emb_hz inb_S1x64_S1x64_0_0 y⟩), View.canon_cons_unit_zero emb_hz]
  simp only [View.readAt_eq_ld, harg1.read_unread, harg3.read_unread, harg4.read_unread, View.ld_unit_zero (S := S10000x64) emb_hz, View.ld_unit_zero (S := S1x64) emb_hz]

set_option maxHeartbeats 1000000 in
/-- The first point: whatever the two rows held, they are reset to `(-∞, 0)` and then take one step of the recurrence;
    the input block and the output row are left as found. -/
theorem emb_run_first (c : Dev nD) (i : grid0.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (hc0 : embFirst i) (hc1 : ¬embLast i)
    (x : Vec F S10000x64 .f32) (o : Vec F S1x64 .f32) (E : Set ℕ) (K : PUnit → sProp 𝕄) :
    iprop(owns (c : Thread nD τ) arg1 fullShare x ∗ owns (c : Thread nD τ) arg2 fullShare o
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare o
            ∗ owns (c : Thread nD τ) arg3 fullShare (k0_pay5 x k0_pay1) ∗ owns (c : Thread nD τ) arg4 fullShare (k0_pay4 x k0_pay1 k0_pay1 k0_pay2)) -∗ K ⟨⟩))
      ⊢ wp frame (wpE (defs₀ (F := F)) Variants.none c none) E (cc0__graph_emb_kernel i arg1 harg1 arg2 harg2 arg3 harg3 arg4 harg4) K := by
  simp only [cc0__graph_emb_kernel_eq_skeleton]; unfold cc0__graph_emb_kernel_skel
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_cons_self .., View.mem_set_unit_zero (S := S1x64) emb_hz inb_S1x64_S1x64_0_0 y⟩), View.canon_cons_unit_zero emb_hz]
    sl_unfold_words
    rw [View.readCov_unit_zero (S := S1x64) _ emb_hz]
    simp only [View.readAt_eq_ld, harg1.read_unread, View.ld_unit_zero (S := S10000x64) emb_hz]
  iexists _; isplitr
  swap; · iexact H4
  ipureintro
  rw [View.read_writes_eq_canon _ _ _ (fun y => ⟨_, List.mem_cons_self .., View.mem_set_unit_zero (S := S1x64) emb_hz inb_S1x64_S1x64_0_0 y⟩), View.canon_cons_unit_zero emb_hz]
  sl_unfold_words
  rw [View.readCov_unit_zero (S := S1x64) _ emb_hz, View.readCov_unit_zero (S := S1x64) _ emb_hz]
  simp only [View.readAt_eq_ld, harg1.read_unread, View.ld_unit_zero (S := S10000x64) emb_hz]

set_option maxHeartbeats 1000000 in
/-- The last point: one step of the recurrence, then the output row is `log l / 8 + m` of the new rows. -/
theorem emb_run_last (c : Dev nD) (i : grid0.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (hc0 : ¬embFirst i) (hc1 : embLast i)
    (x : Vec F S10000x64 .f32) (mv lv : Vec F S1x64 .f32) (E : Set ℕ) (K : PUnit → sProp 𝕄) :
    iprop(owns (c : Thread nD τ) arg1 fullShare x ∗ (∃ d, owns (c : Thread nD τ) arg2 fullShare d)
        ∗ owns (c : Thread nD τ) arg3 fullShare mv ∗ owns (c : Thread nD τ) arg4 fullShare lv
        ∗ (iprop(owns (c : Thread nD τ) arg1 fullShare x ∗ owns (c : Thread nD τ) arg2 fullShare (k0_pay6 (k0_pay4 x mv mv lv) (k0_pay5 x mv))
            ∗ owns (c : Thread nD τ) arg3 fullShare (k0_pay5 x mv) ∗ owns (c : Thread nD τ) arg4 fullShare (k0_pay4 x mv mv lv)) -∗ K ⟨⟩))
      ⊢ wp frame (wpE (defs₀ (F := F)) Variants.none c none) E (cc0__graph_emb_kernel i arg1 harg1 arg2 harg2 arg3 harg3 arg4 harg4) K := by
  simp only [cc0__graph_emb_kernel_eq_skeleton]; unfold cc0__graph_emb_kernel_skel
  unfold owns
  iintro ⟨⟨%f1, %hf1, H1⟩, ⟨%d2, %f2, -, H2⟩, ⟨%f3, %hf3, H3⟩, ⟨%f4, %hf4, H4⟩, Hk⟩
  obtain rfl := harg1.eq_unread hf1
  obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr
    swap; · iexact H2
    ipureintro
    rw [View.read_writes_eq_canon _ _ _ (fun y => ⟨_, List.mem_cons_self .., View.mem_set_unit_zero (S := S1x64) emb_hz inb_S1x64_S1x64_0_0 y⟩), View.canon_cons_unit_zero emb_hz]
    sl_unfold_words
    rw [View.readCov_unit_zero (S := S1x64) _ emb_hz, View.readCov_unit_zero (S := S1x64) _ emb_hz]
    simp only [View.readAt_eq_ld, harg1.read_unread, harg3.read_unread, harg4.read_unread, View.ld_unit_zero (S := S10000x64) emb_hz, View.ld_unit_zero (S := S1x64) emb_hz]
  isplitl [H3]
  · iexists _; isplitr
    swap; · iexact H3
    ipureintro
    sl_unfold_words
    rw [View.read_writes_eq_canon _ _ _ (fun y => ⟨_, List.mem_cons_self .., View.mem_set_unit_zero (S := S1x64) emb_hz inb_S1x64_S1x64_0_0 y⟩), View.canon_cons_unit_zero emb_hz]
    simp only [View.readAt_eq_ld, harg1.read_unread, harg3.read_unread, harg4.read_unread, View.ld_unit_zero (S := S10000x64) emb_hz, View.ld_unit_zero (S := S1x64) emb_hz]
  iexists _; isplitr
  swap; · iexact H4
  ipureintro
  sl_unfold_words
  rw [View.read_writes_eq_canon _ _ _ (fun y => ⟨_, List.mem_cons_self .., View.mem_set_unit_zero (S := S1x64) emb_hz inb_S1x64_S1x64_0_0 y⟩), View.canon_cons_unit_zero emb_hz]
  simp only [View.readAt_eq_ld, harg1.read_unread, harg3.read_unread, harg4.read_unread, View.ld_unit_zero (S := S10000x64) emb_hz, View.ld_unit_zero (S := S1x64) emb_hz]

end Cert.KernelIdeal.Fr

end
-- ==== Proof.KI.Emb.lean ====
import proofs.«131809_j79121887527265_1_alg».proof.Proof.Gen.KernelIdeal.Launch
import proofs.«131809_j79121887527265_1_alg».proof.Proof.Gen.KernelIdeal.Skeleton
import proofs.«131809_j79121887527265_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«131809_j79121887527265_1_alg».proof.Proof.KI.EmbRun

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The graph-embedding region: an online log-sum-exp over the twenty row blocks

The kernel walks the 20 blocks of 10000 rows. It keeps two rows of 64 numbers between grid points: the running
column maximum `m` and the running scaled sum `l = Σ exp(8·(x − m))`. At the first point both are reset
(`m := -∞`, `l := 0`); at every point `m' := max(m, max of the block's columns)`,
`l' := exp(8·(m − m'))·l + Σ_rows exp(8·(x − m'))`; at the last point the output row is `log l / 8 + m`.
Everything is stated at a parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The carried rows, by recursion on the number of points done -/

/-- The running maximum and the running sum after `k` points: `(-∞, 0)` before any point (what the first point's
    reset stores), then one step of the recurrence per block. Past the grid nothing changes. -/
def mlAt (c : Dev nD) : ℕ → Vec F S1x64 .f32 × Vec F S1x64 .f32
  | 0 => (k0_pay1, k0_pay2)
  | k + 1 =>
    if h : k < cfg0.N then
      (k0_pay5 (iblk0 V c 0 ⟨k, h⟩) (mlAt c k).1,
       k0_pay4 (iblk0 V c 0 ⟨k, h⟩) (mlAt c k).1 (mlAt c k).1 (mlAt c k).2)
    else mlAt c k

/-- The running column maximum after `k` points. -/
def mAt (c : Dev nD) (k : ℕ) : Vec F S1x64 .f32 := (mlAt V c k).1
/-- The running scaled sum after `k` points. -/
def lAt (c : Dev nD) (k : ℕ) : Vec F S1x64 .f32 := (mlAt V c k).2

theorem mAt_zero (c : Dev nD) : mAt V c 0 = k0_pay1 := rfl
theorem lAt_zero (c : Dev nD) : lAt V c 0 = k0_pay2 := rfl

/-- One step of the maximum: the old maximum against the block's column maxima. -/
theorem mAt_succ (c : Dev nD) (t : Fin cfg0.N) :
    mAt V c (t.val + 1) = k0_pay5 (iblk0 V c 0 t) (mAt V c t.val) := by
  unfold mAt; rw [mlAt, dif_pos t.isLt]

/-- One step of the sum: the old sum rescaled to the new maximum, plus the block's terms. -/
theorem lAt_succ (c : Dev nD) (t : Fin cfg0.N) :
    lAt V c (t.val + 1) = k0_pay4 (iblk0 V c 0 t) (mAt V c t.val) (mAt V c t.val) (lAt V c t.val) := by
  unfold lAt mAt; rw [mlAt, dif_pos t.isLt]

/-! ## The invariant and the proof data -/

/-- The two scratch rows as whole memrefs, as the kernel is called with them. -/
abbrev scM0 : Memref sig .tc .vmem S1x64 .f32 := Memref.whole cc0_scratch0
abbrev scL0 : Memref sig .tc .vmem S1x64 .f32 := Memref.whole cc0_scratch1

/-- Every other scoped buffer of the core, unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region invariant before point `k`: before the first point the two scratch rows hold anything; afterwards the
    running maximum and sum after `k` points. Beside them the other scoped buffers and the generator register. -/
def Phi0 (c : Dev nD) : ℕ → sProp 𝕄
  | 0 => iprop(iprop((∃ d, owns (c : Thread nD τ) scM0 fullShare d) ∗ (∃ d, owns (c : Thread nD τ) scL0 fullShare d))
      ∗ restBut0 c ∗ (∃ r, prngReg c r))
  | k + 1 => iprop(iprop(owns (c : Thread nD τ) scM0 fullShare (mAt V c (k + 1)) ∗ owns (c : Thread nD τ) scL0 fullShare (lAt V c (k + 1)))
      ∗ restBut0 c ∗ (∃ r, prngReg c r))

theorem Phi0_zero (c : Dev nD) : Phi0 V c 0 = iprop(iprop((∃ d, owns (c : Thread nD τ) scM0 fullShare d) ∗ (∃ d, owns (c : Thread nD τ) scL0 fullShare d))
      ∗ restBut0 c ∗ (∃ r, prngReg c r)) := rfl
theorem Phi0_succ (c : Dev nD) (k : ℕ) : Phi0 V c (k + 1) = iprop(iprop(owns (c : Thread nD τ) scM0 fullShare (mAt V c (k + 1)) ∗ owns (c : Thread nD τ) scL0 fullShare (lAt V c (k + 1)))
      ∗ restBut0 c ∗ (∃ r, prngReg c r)) := rfl

/-- The proof data of the region on core `c`: the arrays as the region finds them; the input's buffer keeps its block;
    the output row is what the last point stores, `log l / 8 + m` of the rows after all 20 points (unread at the
    idle points); the invariant carries the two rows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay6 (lAt V c 20) (mAt V c 20)
  Φ k := Phi0 V c k.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay6 (lAt V c 20) (mAt V c 20) := by dsimp only [dat0]

theorem before0_0 (c : Dev nD) (t : Fin cfg0.N) (d) : (dat0 V c).before 0 t d = iblk0 V c 0 t :=
  before0_0_of V (dat0 V c) (A_eq0 V c 0) (after0_0 V c) t d

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := rfl

/-! ## Into the invariant and out of it -/

/-- What the launch hands the region — the generator register, the (empty) prefetched tables, the scoped buffers no
    window stages — is the invariant before the first point: the scoped rest splits at the two scratch rows. -/
theorem hin0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (dat0 V c).Φ 0 := by
  rw [show (dat0 V c).Φ 0 = Phi0 V c 0 from rfl, Phi0_zero, scopedRest0_split]
  simp only [scM0, scL0, owns_whole]
  iintro ⟨Hp, -, ⟨⟨H0, H1⟩, Hr⟩⟩
  isplitl [H0 H1]
  · isplitl [H0]; · iexact H0
    iexact H1
  isplitl [Hr]; · iexact Hr
  iexact Hp

/-- After the last point the invariant gives the same back: the two rows' named contents are forgotten. -/
theorem hout0 (c : Dev nD) :
    (dat0 V c).Φ (Fin.last cfg0.N)
      ⊢ iprop((∃ r, prngReg c r) ∗ (BI.emp : sProp 𝕄) ∗ Pipeline.scopedRest (Ix := Unit) (Name := ℕ) (U := UR sig nD τ) (Lvl := ℕ) (Val := Elt F) spec0 c) := by
  have hN : (Fin.last cfg0.N).val = 19 + 1 := by rw [Fin.val_last]; exact N_0
  rw [show (dat0 V c).Φ (Fin.last cfg0.N) = Phi0 V c (Fin.last cfg0.N).val from rfl, hN, Phi0_succ, scopedRest0_split]
  simp only [scM0, scL0, owns_whole]
  iintro ⟨⟨H0, H1⟩, Hr, Hp⟩
  isplitl [Hp]; · iexact Hp
  isplitr; · iempintro
  isplitl [H0 H1]
  · isplitl [H0]; · iexists _; iexact H0
    iexists _; iexact H1
  iexact Hr

/-! ## The body obligation -/

/-- The first test holds at the first point only, the second at the last point only (decided over the grid). -/
theorem hfirst0 : ∀ t : Fin cfg0.N, embFirst (grid0.coords t) ↔ t.val % 20 = 0 :=
  (by decide +kernel : ∀ t : Fin grid0.N, embFirst (grid0.coords t) ↔ t.val % 20 = 0)
theorem hlast0 : ∀ t : Fin cfg0.N, embLast (grid0.coords t) ↔ t.val % 20 = 19 :=
  (by decide +kernel : ∀ t : Fin grid0.N, embLast (grid0.coords t) ↔ t.val % 20 = 19)

/-- The input window is never idle; the output row is idle, and not written back, exactly off the last point. -/
theorem live0_0 : ∀ t : Fin cfg0.N, cfg0.idle 0 (grid0.coords t) = false := by decide +kernel
theorem idle0_1 : ∀ t : Fin cfg0.N, ¬embLast (grid0.coords t) → cfg0.idle 1 (grid0.coords t) = true := by decide +kernel
theorem noFlush0_1 : ∀ t : Fin cfg0.N, ¬embLast (grid0.coords t) → (cfg0.win 1).flush t = false := by decide +kernel
theorem live0_1 : ∀ t : Fin cfg0.N, embLast (grid0.coords t) → cfg0.idle 1 (grid0.coords t) = false := by decide +kernel

theorem Phi0_of_zero (c : Dev nD) (k : ℕ) (hk : k = 0) : Phi0 V c k = iprop(iprop((∃ d, owns (c : Thread nD τ) scM0 fullShare d) ∗ (∃ d, owns (c : Thread nD τ) scL0 fullShare d))
      ∗ restBut0 c ∗ (∃ r, prngReg c r)) := by subst hk; rfl
theorem Phi0_of_pos (c : Dev nD) (k : ℕ) (hk : k ≠ 0) : Phi0 V c k = iprop(iprop(owns (c : Thread nD τ) scM0 fullShare (mAt V c k) ∗ owns (c : Thread nD τ) scL0 fullShare (lAt V c k))
      ∗ restBut0 c ∗ (∃ r, prngReg c r)) := by
  cases k with
  | zero => exact absurd rfl hk
  | succ k => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 1600000 in
/-- The body at any point. The input's buffer holds its block. At the first point the rows are reset and stepped, so the
    invariant's "anything" becomes the rows after one point; at a later point the rows after `t` points become the rows
    after `t + 1`. Off the last point the output row is handed back as found; at the last point it is stored from the
    rows after all 20 points. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [Phi_succ0, Phi0_succ, Phi_castSucc0, mAt_succ, lAt_succ]
  rw [show (dat0 V c).leavesExact 0 t = owns (c : Thread nD τ) (st0_0 t) fullShare ((dat0 V c).after 0 t) from by
    unfold Dat.leavesExact; rw [live0_0 t], after0_0]
  have hN : t.val < 20 := lt_of_lt_of_eq t.isLt (show cfg0.N = 20 from N_0)
  by_cases h1 : t.val % 20 = 19
  · have h0 : ¬t.val % 20 = 0 := by omega
    have hk : t.val ≠ 0 := by omega
    have hc0 : ¬embFirst (grid0.coords t) := fun h => h0 ((hfirst0 t).mp h)
    have hc1 : embLast (grid0.coords t) := (hlast0 t).mpr h1
    rw [show (dat0 V c).leavesExact 1 t = owns (c : Thread nD τ) (st0_1 t) fullShare ((dat0 V c).after 1 t) from by
      unfold Dat.leavesExact; rw [live0_1 t hc1], after0_1]
    have e20 : (20 : ℕ) = t.val + 1 := by omega
    rw [show mAt V c 20 = mAt V c (t.val + 1) from by rw [← e20], show lAt V c 20 = lAt V c (t.val + 1) from by rw [← e20], mAt_succ, lAt_succ]
    rw [Phi0_of_pos V c _ hk]
    iintro ⟨⟨⟨HS0, HS1⟩, Hr, Hg⟩, Ho, ⟨%d0, H0⟩, ⟨%d1, H1⟩⟩
    iapply (emb_run_last c (grid0.coords t) _ _ _ _ _ _ _ _ hc0 hc1 (iblk0 V c 0 t) (mAt V c t.val) (lAt V c t.val) Set.univ _)
    isplitl [H0]; · iexact H0
    isplitl [H1]; · iexists _; iexact H1
    isplitl [HS0]; · iexact HS0
    isplitl [HS1]; · iexact HS1
    iintro ⟨H0, H1, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    iexact H1
  · have hc1 : ¬embLast (grid0.coords t) := fun h => h1 ((hlast0 t).mp h)
    rw [Dat.leavesExact_idle (dat0 V c) 1 t (idle0_1 t hc1) (noFlush0_1 t hc1)]
    by_cases h0 : t.val % 20 = 0
    · have hk : t.val = 0 := by omega
      have hc0 : embFirst (grid0.coords t) := (hfirst0 t).mpr h0
      rw [Phi0_of_zero V c _ hk, show mAt V c t.val = k0_pay1 from by rw [hk]; rfl, show lAt V c t.val = k0_pay2 from by rw [hk]; rfl]
      iintro ⟨⟨⟨HS0, HS1⟩, Hr, Hg⟩, Ho, ⟨%d0, H0⟩, ⟨%d1, H1⟩⟩
      iapply (emb_run_first c (grid0.coords t) _ _ _ _ _ _ _ _ hc0 hc1 (iblk0 V c 0 t) _ Set.univ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      iexists _; iexact H1
    · have hk : t.val ≠ 0 := by omega
      have hc0 : ¬embFirst (grid0.coords t) := fun h => h0 ((hfirst0 t).mp h)
      rw [Phi0_of_pos V c _ hk]
      iintro ⟨⟨⟨HS0, HS1⟩, Hr, Hg⟩, Ho, ⟨%d0, H0⟩, ⟨%d1, H1⟩⟩
      iapply (emb_run_mid c (grid0.coords t) _ _ _ _ _ _ _ _ hc0 hc1 (iblk0 V c 0 t) _ (mAt V c t.val) (lAt V c t.val) Set.univ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Fr

end
-- ==== Proof.KI.Run.lean ====
import proofs.«131809_j79121887527265_1_alg».proof.Proof.Gen.KernelIdeal.Launch
import proofs.«131809_j79121887527265_1_alg».proof.Proof.Gen.KernelIdeal.Skeleton
import proofs.«131809_j79121887527265_1_alg».proof.Proof.Gen.KernelIdeal.Points
import proofs.«131809_j79121887527265_1_alg».proof.Proof.KI.Mlp1
import proofs.«131809_j79121887527265_1_alg».proof.Proof.KI.Mlp2
import proofs.«131809_j79121887527265_1_alg».proof.Proof.KI.Mlp3
import proofs.«131809_j79121887527265_1_alg».proof.Proof.KI.Mlp4
import proofs.«131809_j79121887527265_1_alg».proof.Proof.KI.Mlp5
import proofs.«131809_j79121887527265_1_alg».proof.Proof.KI.Emb
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: six kernel regions among five stretches of host operations

## The buffer contents at each segment boundary, a fold from the launch memory -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves region 0 as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
/-- After the host stretch that follows region 0. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- After the host stretch that follows region 1. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- An input window's array leaves region 2 as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
/-- After the host stretch that follows region 2. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- An input window's array leaves region 3 as it entered. -/
theorem W7_in (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw _).trans (A_eq3 (V6 m ρ) c w))
/-- After the host stretch that follows region 3. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same read at the TensorCore's references. -/
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- An input window's array leaves region 4 as it entered. -/
theorem W9_in (c : Dev nD) (w : Fin cfg4.W) (hw : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hw _).trans (A_eq4 (V8 m ρ) c w))
/-- After the host stretch that follows region 4. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same read at the TensorCore's references. -/
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- An input window's array leaves region 5 as it entered. -/
theorem W11_in (c : Dev nD) (w : Fin cfg5.W) (hw : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hw _).trans (A_eq5 (V10 m ρ) c w))

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V8 m ρ) c
  | ⟨5, _⟩ => fun c => dat5 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch 1 allocates a buffer. -/
theorem hostOps1_fresh : (hostOps1 : List (HloOp τ sig (Elt F))).Forall fun op => op.fresh = ∅ := by
  simp only [List.Forall]; repeat' constructor
/-- No operation of the host stretch 2 allocates a buffer. -/
theorem hostOps2_fresh : (hostOps2 : List (HloOp τ sig (Elt F))).Forall fun op => op.fresh = ∅ := by
  simp only [List.Forall]; repeat' constructor
/-- No operation of the host stretch 3 allocates a buffer. -/
theorem hostOps3_fresh : (hostOps3 : List (HloOp τ sig (Elt F))).Forall fun op => op.fresh = ∅ := by
  simp only [List.Forall]; repeat' constructor
/-- No operation of the host stretch 4 allocates a buffer. -/
theorem hostOps4_fresh : (hostOps4 : List (HloOp τ sig (Elt F))).Forall fun op => op.fresh = ∅ := by
  simp only [List.Forall]; repeat' constructor
set_option maxHeartbeats 4000000 in
/-- No operation of the host stretch 5 allocates a buffer. -/
theorem hostOps5_fresh : (hostOps5 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at W0, left at W1. Its arrays are split out of
    the unscoped buffers and put back at the exit contents; the generator register goes into the invariant and
    comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (V0 m ρ) c _
  hout c := by rw [Pipeline.ownSems0_none]; exact hout0 (V0 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its arrays are split out of
    the unscoped buffers and put back at the exit contents; the generator register goes into the invariant and
    comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W4, left at W5. Its arrays are split out of
    the unscoped buffers and put back at the exit contents; the generator register goes into the invariant and
    comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W6, left at W7. Its arrays are split out of
    the unscoped buffers and put back at the exit contents; the generator register goes into the invariant and
    comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W8, left at W9. Its arrays are split out of
    the unscoped buffers and put back at the exit contents; the generator register goes into the invariant and
    comes out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W10, left at W11. Its arrays are split out of
    the unscoped buffers and put back at the exit contents; the generator register goes into the invariant and
    comes out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in every
    final state each unscoped buffer holds the last boundary's contents `W11`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.Fr

end
-- ==== Proof.KI.Args.lean ====
import proofs.«131809_j79121887527265_1_alg».proof.Proof.Gen.KernelIdeal.Launch
import proofs.«131809_j79121887527265_1_alg».proof.Proof.Gen.KernelIdeal.Skeleton
import proofs.«131809_j79121887527265_1_alg».proof.Proof.Gen.KernelIdeal.Points
import proofs.«131809_j79121887527265_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The argument arrays end as launched

No item of @main changes an argument array: a stretch of host operations writes only its own result buffers, none of
which is an argument, and a kernel region changes only the array of its output window — an argument is either the array
of one of its input windows, which the pipeline hands back as it found it, or none of its windows' arrays. So at every
boundary between items each argument's buffer holds the launch memory's contents (`W1_launch` … `W11_launch`), and the
final state of the run, which has every unscoped buffer at the last boundary's contents, has the arguments as launched:
the frame, at any reading of the floats. -/

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- Region 0 leaves every argument array as it found it: an argument is one of its input windows' arrays or none of its windows'. -/
theorem W1_arg (c : Dev nD) (b : Ref sig .tc) (hb : b ∈ argRefs) : W1 m ρ c (Proc.devRef .tc b) = W0 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W1_of_ne m ρ c _ (by decide)
    | exact W1_in m ρ c 0 rfl

/-- No operation of host stretch 1 writes an argument array. -/
theorem W2_arg (c : Dev nD) (b : Ref sig .tc) (hb : b ∈ argRefs) : W2 m ρ c (Proc.devRef .tc b) = W1 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 1 leaves every argument array as it found it: an argument is one of its input windows' arrays or none of its windows'. -/
theorem W3_arg (c : Dev nD) (b : Ref sig .tc) (hb : b ∈ argRefs) : W3 m ρ c (Proc.devRef .tc b) = W2 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W3_of_ne m ρ c _ (by decide)
    | exact W3_in m ρ c 0 rfl
    | exact W3_in m ρ c 1 rfl
    | exact W3_in m ρ c 2 rfl
    | exact W3_in m ρ c 3 rfl
    | exact W3_in m ρ c 4 rfl

/-- No operation of host stretch 2 writes an argument array. -/
theorem W4_arg (c : Dev nD) (b : Ref sig .tc) (hb : b ∈ argRefs) : W4 m ρ c (Proc.devRef .tc b) = W3 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 2 leaves every argument array as it found it: an argument is one of its input windows' arrays or none of its windows'. -/
theorem W5_arg (c : Dev nD) (b : Ref sig .tc) (hb : b ∈ argRefs) : W5 m ρ c (Proc.devRef .tc b) = W4 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W5_of_ne m ρ c _ (by decide)
    | exact W5_in m ρ c 0 rfl
    | exact W5_in m ρ c 1 rfl
    | exact W5_in m ρ c 2 rfl
    | exact W5_in m ρ c 3 rfl
    | exact W5_in m ρ c 4 rfl

/-- No operation of host stretch 3 writes an argument array. -/
theorem W6_arg (c : Dev nD) (b : Ref sig .tc) (hb : b ∈ argRefs) : W6 m ρ c (Proc.devRef .tc b) = W5 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 3 leaves every argument array as it found it: an argument is one of its input windows' arrays or none of its windows'. -/
theorem W7_arg (c : Dev nD) (b : Ref sig .tc) (hb : b ∈ argRefs) : W7 m ρ c (Proc.devRef .tc b) = W6 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W7_of_ne m ρ c _ (by decide)
    | exact W7_in m ρ c 0 rfl
    | exact W7_in m ρ c 1 rfl
    | exact W7_in m ρ c 2 rfl
    | exact W7_in m ρ c 3 rfl
    | exact W7_in m ρ c 4 rfl

/-- No operation of host stretch 4 writes an argument array. -/
theorem W8_arg (c : Dev nD) (b : Ref sig .tc) (hb : b ∈ argRefs) : W8 m ρ c (Proc.devRef .tc b) = W7 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 4 leaves every argument array as it found it: an argument is one of its input windows' arrays or none of its windows'. -/
theorem W9_arg (c : Dev nD) (b : Ref sig .tc) (hb : b ∈ argRefs) : W9 m ρ c (Proc.devRef .tc b) = W8 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W9_of_ne m ρ c _ (by decide)
    | exact W9_in m ρ c 0 rfl
    | exact W9_in m ρ c 1 rfl
    | exact W9_in m ρ c 2 rfl
    | exact W9_in m ρ c 3 rfl
    | exact W9_in m ρ c 4 rfl

set_option maxHeartbeats 4000000 in
/-- No operation of host stretch 5 writes an argument array. -/
theorem W10_arg (c : Dev nD) (b : Ref sig .tc) (hb : b ∈ argRefs) : W10 m ρ c (Proc.devRef .tc b) = W9 m ρ c (Proc.devRef .tc b) := by
  refine StableHlo.after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals
    simp only [hostOps5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- Region 5 leaves every argument array as it found it: an argument is one of its input windows' arrays or none of its windows'. -/
theorem W11_arg (c : Dev nD) (b : Ref sig .tc) (hb : b ∈ argRefs) : W11 m ρ c (Proc.devRef .tc b) = W10 m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl
  all_goals first
    | exact W11_of_ne m ρ c _ (by decide)
    | exact W11_in m ρ c 0 rfl
    | exact W11_in m ρ c 1 rfl
    | exact W11_in m ρ c 2 rfl
    | exact W11_in m ρ c 3 rfl
    | exact W11_in m ρ c 4 rfl

/-- At every boundary an argument array's buffer is the launch memory's. -/
theorem W1_launch (c : Dev nD) (b : Ref sig .tc) (hb : b ∈ argRefs) : W1 m ρ c (Proc.devRef .tc b) = m ((c : Thread nD τ).loc b) :=
  (W1_arg m ρ c b hb).trans rfl
theorem W2_launch (c : Dev nD) (b : Ref sig .tc) (hb : b ∈ argRefs) : W2 m ρ c (Proc.devRef .tc b) = m ((c : Thread nD τ).loc b) :=
  (W2_arg m ρ c b hb).trans (W1_launch m ρ c b hb)
theorem W3_launch (c : Dev nD) (b : Ref sig .tc) (hb : b ∈ argRefs) : W3 m ρ c (Proc.devRef .tc b) = m ((c : Thread nD τ).loc b) :=
  (W3_arg m ρ c b hb).trans (W2_launch m ρ c b hb)
theorem W4_launch (c : Dev nD) (b : Ref sig .tc) (hb : b ∈ argRefs) : W4 m ρ c (Proc.devRef .tc b) = m ((c : Thread nD τ).loc b) :=
  (W4_arg m ρ c b hb).trans (W3_launch m ρ c b hb)
theorem W5_launch (c : Dev nD) (b : Ref sig .tc) (hb : b ∈ argRefs) : W5 m ρ c (Proc.devRef .tc b) = m ((c : Thread nD τ).loc b) :=
  (W5_arg m ρ c b hb).trans (W4_launch m ρ c b hb)
theorem W6_launch (c : Dev nD) (b : Ref sig .tc) (hb : b ∈ argRefs) : W6 m ρ c (Proc.devRef .tc b) = m ((c : Thread nD τ).loc b) :=
  (W6_arg m ρ c b hb).trans (W5_launch m ρ c b hb)
theorem W7_launch (c : Dev nD) (b : Ref sig .tc) (hb : b ∈ argRefs) : W7 m ρ c (Proc.devRef .tc b) = m ((c : Thread nD τ).loc b) :=
  (W7_arg m ρ c b hb).trans (W6_launch m ρ c b hb)
theorem W8_launch (c : Dev nD) (b : Ref sig .tc) (hb : b ∈ argRefs) : W8 m ρ c (Proc.devRef .tc b) = m ((c : Thread nD τ).loc b) :=
  (W8_arg m ρ c b hb).trans (W7_launch m ρ c b hb)
theorem W9_launch (c : Dev nD) (b : Ref sig .tc) (hb : b ∈ argRefs) : W9 m ρ c (Proc.devRef .tc b) = m ((c : Thread nD τ).loc b) :=
  (W9_arg m ρ c b hb).trans (W8_launch m ρ c b hb)
theorem W10_launch (c : Dev nD) (b : Ref sig .tc) (hb : b ∈ argRefs) : W10 m ρ c (Proc.devRef .tc b) = m ((c : Thread nD τ).loc b) :=
  (W10_arg m ρ c b hb).trans (W9_launch m ρ c b hb)
theorem W11_launch (c : Dev nD) (b : Ref sig .tc) (hb : b ∈ argRefs) : W11 m ρ c (Proc.devRef .tc b) = m ((c : Thread nD τ).loc b) :=
  (W11_arg m ρ c b hb).trans (W10_launch m ρ c b hb)

/-- An argument array's buffer in a final state of the run is the launch memory's. -/
theorem arg_end (mem : (ℓ : Loc nD τ sig) → Buf (Elt F) ℓ)
    (h : ∀ c : Dev nD, ∀ b ∈ Pipeline.ucRefs τ sig, mem (((c : Thread nD τ)).1, b) = W11 m ρ c b)
    (c : Dev nD) (b : Ref sig .tc) (hb : b ∈ argRefs) (hu : ¬ (Proc.devRef .tc b : DevRef τ sig).isScoped) :
    mem ((c.tc : Thread nD τ).loc b) = m ((c.tc : Thread nD τ).loc b) :=
  (h c _ (mem_uc b hu)).trans (W11_launch m ρ c b hb)

/-- The frame at any `F`: every weakly fair execution of @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨arg_end m ρ r.2.mem h c main_arg0 (by decide) (by decide),
     arg_end m ρ r.2.mem h c main_arg1 (by decide) (by decide),
     arg_end m ρ r.2.mem h c main_arg2 (by decide) (by decide),
     arg_end m ρ r.2.mem h c main_arg3 (by decide) (by decide),
     arg_end m ρ r.2.mem h c main_arg4 (by decide) (by decide),
     arg_end m ρ r.2.mem h c main_arg5 (by decide) (by decide),
     arg_end m ρ r.2.mem h c main_arg6 (by decide) (by decide),
     arg_end m ρ r.2.mem h c main_arg7 (by decide) (by decide),
     arg_end m ρ r.2.mem h c main_arg8 (by decide) (by decide),
     arg_end m ρ r.2.mem h c main_arg9 (by decide) (by decide),
     arg_end m ρ r.2.mem h c main_arg10 (by decide) (by decide),
     arg_end m ρ r.2.mem h c main_arg11 (by decide) (by decide),
     arg_end m ρ r.2.mem h c main_arg12 (by decide) (by decide),
     arg_end m ρ r.2.mem h c main_arg13 (by decide) (by decide),
     arg_end m ρ r.2.mem h c main_arg14 (by decide) (by decide),
     arg_end m ρ r.2.mem h c main_arg15 (by decide) (by decide),
     arg_end m ρ r.2.mem h c main_arg16 (by decide) (by decide),
     arg_end m ρ r.2.mem h c main_arg17 (by decide) (by decide),
     arg_end m ρ r.2.mem h c main_arg18 (by decide) (by decide),
     arg_end m ρ r.2.mem h c main_arg19 (by decide) (by decide),
     arg_end m ρ r.2.mem h c main_arg20 (by decide) (by decide),
     arg_end m ρ r.2.mem h c main_arg21 (by decide) (by decide),
     arg_end m ρ r.2.mem h c main_arg22 (by decide) (by decide),
     arg_end m ρ r.2.mem h c main_arg23 (by decide) (by decide),
     arg_end m ρ r.2.mem h c main_arg24 (by decide) (by decide),
     arg_end m ρ r.2.mem h c main_arg25 (by decide) (by decide)⟩) (run m ρ)

end Cert.KernelIdeal.Fr

end
-- ==== Proof.Ref.lean ====
/- The reference program's frame: every weakly fair execution of the plain host program
   terminates without a fault and leaves the argument arrays as it found them.  The
   reference launches no kernel, so this is its run with the statement about the result
   dropped: the run's post is a conjunction per core of "the result buffer holds the
   composed term" and "the arguments are unchanged", and the frame keeps the second half. -/
import proofs.«131809_j79121887527265_1_alg».proof.Defs
import proofs.«131809_j79121887527265_1_alg».proof.Proof.Gen.ReferenceIdeal
import proofs.«131809_j79121887527265_1_alg».proof.Proof.Gen.Pre_finite_inputs
import proofs.«131809_j79121887527265_1_alg».proof.Proof.Gen.ReferenceIdeal.Run

noncomputable section

namespace Cert.ReferenceIdeal.RefValue

open Idealize.ShloMosaic Idealize.SL.Sem

theorem frame_ri : Cert.frame_ReferenceIdeal := fun m ρ _ =>
  (θ_run Cert.ReferenceIdeal.defs _ _).mono (fun _ h c => (h c).2)
    (Cert.ReferenceIdeal.Value.run (F := Ideal) m ρ)

end Cert.ReferenceIdeal.RefValue

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.LibHostAffine.lean ====
/-
  Host (StableHLO) operations read at an index, at exact real arithmetic, for arrays of any extents:
  * a scalar constant broadcast to any shape;
  * a bias vector broadcast first to a [1, N] row (dims [1]) and then down M rows (dims [0, 1]);
  * x @ wᵀ + b: a dot_general of an [M, K] array with the transpose of an [N, K] array (contracting [1] × [0]) plus that
    broadcast bias, at (r, n), is Σ_k x(r,k)·w(n,k) + b(n);
  * the host's sum along axis 1 of an [a, b] array from an initial scalar, at row r, is the initial value plus Σ_d x(r,d).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«131809_j79121887527265_1_alg».proof.Proof.LibHostDot

open scoped BigOperators

noncomputable section

namespace Idealize.ShloMosaic.HostAffine

open Idealize.ShloMosaic Idealize.ShloMosaic.ValueIdx

/-- A scalar constant broadcast to any shape reads, everywhere, as the constant. -/
theorem bcast_const {t : Shape} (dims : Fin 0 → Fin t.rank) (h : (⟨0, ![]⟩ : Shape).BroadcastsInDim t dims) (b : BitVec 32) (j : t.Idx) :
    broadcastInDim t dims h (constant (F := Ideal) ⟨0, ![]⟩ .f32 b) j = Ideal.ofBits .f32 b :=
  (broadcastInDim_apply dims h _ j ix0 (fun a => a.elim0)).trans rfl

/-- A bias vector laid as a row (dims [1]) and repeated down M rows (dims [0, 1]) reads b(n) at (r, n). -/
theorem bias_bcast {M N : ℕ} (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    broadcastInDim ⟨2, ![M, N]⟩ ![0, 1] h2 (broadcastInDim ⟨2, ![1, N]⟩ ![1] h1 b) (ix2 r n) = b (ix1 n) := by
  refine (broadcastInDim_apply _ h2 _ (ix2 r n) (ix2 (0 : Fin 1) n) (fun a => ?_)).trans
    (broadcastInDim_apply _ h1 b (ix2 (0 : Fin 1) n) (ix1 n) (fun a => ?_))
  · match a with
    | ⟨0, _⟩ => rfl
    | ⟨1, _⟩ =>
      show n.val = if N = 1 then 0 else n.val
      split_ifs with hN
      · have := n.isLt; omega
      · rfl
  · match a with
    | ⟨0, _⟩ =>
      show n.val = if N = 1 then 0 else n.val
      split_ifs with hN
      · have := n.isLt; omega
      · rfl

/-- x @ wᵀ + b on the host, at (r, n): Σ_k x(r,k)·w(n,k) + b(n). -/
theorem affine_apply {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    addf (Host.dotGeneral D none X (transpose ⟨2, ![K, N]⟩ [1, 0] w ht))
        (broadcastInDim ⟨2, ![M, N]⟩ ![0, 1] h2 (broadcastInDim ⟨2, ![1, N]⟩ ![1] h1 b)) (ix2 r n)
      = (∑ k : Fin K, X (ix2 r k) * w (ix2 n k)) + b (ix1 n) := by
  show _ + _ = _
  rw [HostDot.dotGeneral_apply D hlc hrc hln hrn hlb hrb, bias_bcast]
  congr 1
  exact Finset.sum_congr rfl fun k _ => congrArg (_ * ·) (transpose_ix2_apply w ht k n)

/-- The host's sum along axis 1 of an [a, b] array from an initial value, at row r. -/
theorem rowsum_apply {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduceAdd x init h' hu (ix1 r) = init (Shape.Idx.first hu) + ∑ d : Fin b, x (ix2 r d) := by
  have h : (⟨2, ![a, b]⟩ : Shape).Reduces [1] ⟨1, ![a]⟩ := let ⟨e, f⟩ := h'; ⟨e, Nat.one_pos, f⟩
  refine (Ideal.hostReduceAdd_single h' h x _ (ix1 r)).trans ?_
  refine congrArg (_ + ·) (Finset.sum_congr rfl fun d _ => congrArg x (funext fun ax => Fin.ext ?_))
  match ax with
  | ⟨0, _⟩ => rfl
  | ⟨1, _⟩ => rfl

end Idealize.ShloMosaic.HostAffine

end
-- ==== Proof.Spec.lean ====
/-
  The two-layer perceptron with a rectifier between the layers, as a function of an index, and the reading of the host
  program's chain of operations for it at an index.

  For x of extent M × K, a first weight matrix W1 of extent K × H with bias b1 of extent H, and a second weight matrix W2
  of extent H × N with bias b2 of extent N, the hidden activation at (i, h) is
      max (Σ_k x(i,k) · W1(k,h) + b1(h), 0)
  and the output at (i, n) is
      Σ_h hidden(i,h) · W2(h,n) + b2(n).
  All arithmetic is that of the extended reals.  The host computes it as: a matrix product contracting the left operand's
  columns with the right operand's rows; the bias laid out as a 1 × H row and repeated down the M rows, added; the maximum
  with the zero constant repeated over the M × H array; a second matrix product; the second bias, repeated the same way,
  added.  Read at (i, n) that chain is the function above: each product is the sum over the contracted coordinate, each
  repeated bias reads the bias entry of the column, and the repeated zero constant reads 0 everywhere.
-/
import Idealize.ShloMosaic.PureOps.Ideal
import Idealize.ShloMosaic.Lib.ValueIdx
import proofs.«131809_j79121887527265_1_alg».proof.Proof.LibHostDot
import proofs.«131809_j79121887527265_1_alg».proof.Proof.LibHostAffine

open scoped BigOperators

noncomputable section

namespace Cert.Spec

open Idealize.ShloMosaic Idealize.ShloMosaic.ValueIdx

/-- One affine layer at (i, h): the dot product of row i of x with column h of W, plus the bias entry h. -/
def affineAt {M K H : ℕ} (x : FVec Ideal ⟨2, ![M, K]⟩ .f32) (W : FVec Ideal ⟨2, ![K, H]⟩ .f32)
    (b : FVec Ideal ⟨1, ![H]⟩ .f32) (i : Fin M) (h : Fin H) : EReal :=
  (∑ k : Fin K, x (ix2 i k) * W (ix2 k h)) + b (ix1 h)

/-- The hidden activation at (i, h): the first affine layer, rectified. -/
def hiddenAt {M K H : ℕ} (x : FVec Ideal ⟨2, ![M, K]⟩ .f32) (W1 : FVec Ideal ⟨2, ![K, H]⟩ .f32)
    (b1 : FVec Ideal ⟨1, ![H]⟩ .f32) (i : Fin M) (h : Fin H) : EReal :=
  max (affineAt x W1 b1 i h) 0

/-- The perceptron's output at (i, n): Σ_h max (Σ_k x(i,k)·W1(k,h) + b1(h), 0) · W2(h,n) + b2(n). -/
def mlpAt {M K H N : ℕ} (x : FVec Ideal ⟨2, ![M, K]⟩ .f32) (W1 : FVec Ideal ⟨2, ![K, H]⟩ .f32)
    (b1 : FVec Ideal ⟨1, ![H]⟩ .f32) (W2 : FVec Ideal ⟨2, ![H, N]⟩ .f32) (b2 : FVec Ideal ⟨1, ![N]⟩ .f32)
    (i : Fin M) (n : Fin N) : EReal :=
  (∑ h : Fin H, hiddenAt x W1 b1 i h * W2 (ix2 h n)) + b2 (ix1 n)

/-- The output written out in full. -/
theorem mlpAt_eq {M K H N : ℕ} (x : FVec Ideal ⟨2, ![M, K]⟩ .f32) (W1 : FVec Ideal ⟨2, ![K, H]⟩ .f32)
    (b1 : FVec Ideal ⟨1, ![H]⟩ .f32) (W2 : FVec Ideal ⟨2, ![H, N]⟩ .f32) (b2 : FVec Ideal ⟨1, ![N]⟩ .f32)
    (i : Fin M) (n : Fin N) :
    mlpAt x W1 b1 W2 b2 i n
      = (∑ h : Fin H, max ((∑ k : Fin K, x (ix2 i k) * W1 (ix2 k h)) + b1 (ix1 h)) 0 * W2 (ix2 h n)) + b2 (ix1 n) := rfl

/-- The output depends on x only through row i. -/
theorem mlpAt_congr {M M' K H N : ℕ} (x : FVec Ideal ⟨2, ![M, K]⟩ .f32) (x' : FVec Ideal ⟨2, ![M', K]⟩ .f32)
    (W1 : FVec Ideal ⟨2, ![K, H]⟩ .f32) (b1 : FVec Ideal ⟨1, ![H]⟩ .f32) (W2 : FVec Ideal ⟨2, ![H, N]⟩ .f32)
    (b2 : FVec Ideal ⟨1, ![N]⟩ .f32) (i : Fin M) (i' : Fin M') (n : Fin N)
    (hx : ∀ k : Fin K, x (ix2 i k) = x' (ix2 i' k)) :
    mlpAt x W1 b1 W2 b2 i n = mlpAt x' W1 b1 W2 b2 i' n := by
  unfold mlpAt hiddenAt affineAt
  simp only [hx]

/-- A host matrix product plus a bias repeated down the rows, at (i, h): one affine layer. -/
theorem host_affine_apply {M K H : ℕ} (D : DotDims ⟨2, ![M, K]⟩ ⟨2, ![K, H]⟩ ⟨2, ![M, H]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![M, K]⟩ .f32) (W : FVec Ideal ⟨2, ![K, H]⟩ .f32) (b : FVec Ideal ⟨1, ![H]⟩ .f32)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2)) (i : Fin M) (h : Fin H) :
    addf (Host.dotGeneral D none x W)
        (broadcastInDim ⟨2, ![M, H]⟩ ![0, 1] h2 (broadcastInDim ⟨2, ![1, H]⟩ ![1] h1 b)) (ix2 i h)
      = affineAt x W b i h := by
  show _ + _ = _
  rw [HostDot.dotGeneral_apply D hlc hrc hln hrn hlb hrb, HostAffine.bias_bcast]
  rfl

/-- The maximum with the zero constant repeated over the array, at an index: the rectifier. -/
theorem host_relu_apply {t : Shape} (dims : Fin 0 → Fin t.rank) (hz : (⟨0, ![]⟩ : Shape).BroadcastsInDim t dims)
    (y : FVec Ideal t .f32) (j : t.Idx) :
    maximumf y (broadcastInDim t dims hz (constant (F := Ideal) ⟨0, ![]⟩ .f32 0x00000000#32)) j = max (y j) 0 := by
  show max _ _ = _
  rw [HostAffine.bcast_const dims hz, Ideal.ofBits_zero_f32]

/-- The host's chain for the perceptron — product, bias, rectifier, product, bias — read at (i, n). -/
theorem host_mlp_apply {M K H N : ℕ}
    (D1 : DotDims ⟨2, ![M, K]⟩ ⟨2, ![K, H]⟩ ⟨2, ![M, H]⟩)
    (hlc1 : D1.lhsContracting = [1]) (hrc1 : D1.rhsContracting = [0]) (hln1 : D1.lhsNonContracting = [0])
    (hrn1 : D1.rhsNonContracting = [1]) (hlb1 : D1.lhsBatch = []) (hrb1 : D1.rhsBatch = [])
    (D2 : DotDims ⟨2, ![M, H]⟩ ⟨2, ![H, N]⟩ ⟨2, ![M, N]⟩)
    (hlc2 : D2.lhsContracting = [1]) (hrc2 : D2.rhsContracting = [0]) (hln2 : D2.lhsNonContracting = [0])
    (hrn2 : D2.rhsNonContracting = [1]) (hlb2 : D2.lhsBatch = []) (hrb2 : D2.rhsBatch = [])
    (x : FVec Ideal ⟨2, ![M, K]⟩ .f32) (W1 : FVec Ideal ⟨2, ![K, H]⟩ .f32) (b1 : FVec Ideal ⟨1, ![H]⟩ .f32)
    (W2 : FVec Ideal ⟨2, ![H, N]⟩ .f32) (b2 : FVec Ideal ⟨1, ![N]⟩ .f32)
    (h1a : (⟨1, ![H]⟩ : Shape).BroadcastsInDim ⟨2, ![1, H]⟩ (![1] : Fin 1 → Fin 2))
    (h1b : (⟨2, ![1, H]⟩ : Shape).BroadcastsInDim ⟨2, ![M, H]⟩ (![0, 1] : Fin 2 → Fin 2))
    (hz : (⟨0, ![]⟩ : Shape).BroadcastsInDim ⟨2, ![M, H]⟩ (![] : Fin 0 → Fin 2))
    (h2a : (⟨1, ![N]⟩ : Shape).BroadcastsInDim ⟨2, ![1, N]⟩ (![1] : Fin 1 → Fin 2))
    (h2b : (⟨2, ![1, N]⟩ : Shape).BroadcastsInDim ⟨2, ![M, N]⟩ (![0, 1] : Fin 2 → Fin 2)) (i : Fin M) (n : Fin N) :
    addf (Host.dotGeneral D2 none
          (maximumf (addf (Host.dotGeneral D1 none x W1)
                          (broadcastInDim ⟨2, ![M, H]⟩ ![0, 1] h1b (broadcastInDim ⟨2, ![1, H]⟩ ![1] h1a b1)))
                    (broadcastInDim ⟨2, ![M, H]⟩ ![] hz (constant (F := Ideal) ⟨0, ![]⟩ .f32 0x00000000#32)))
          W2)
        (broadcastInDim ⟨2, ![M, N]⟩ ![0, 1] h2b (broadcastInDim ⟨2, ![1, N]⟩ ![1] h2a b2)) (ix2 i n)
      = mlpAt x W1 b1 W2 b2 i n := by
  refine (host_affine_apply D2 hlc2 hrc2 hln2 hrn2 hlb2 hrb2 _ W2 b2 h2a h2b i n).trans ?_
  unfold mlpAt affineAt hiddenAt
  refine congrArg (· + b2 (ix1 n)) (Finset.sum_congr rfl fun h _ => congrArg (· * W2 (ix2 h n)) ?_)
  exact (host_relu_apply (t := ⟨2, ![M, H]⟩) ![] hz _ (ix2 i h)).trans
    (congrArg (max · 0) (host_affine_apply D1 hlc1 hrc1 hln1 hrn1 hlb1 hrb1 x W1 b1 h1a h1b i h))

end Cert.Spec

end
-- ==== Proof.KI.MlpPay.lean ====
/-
  The matrix unit's two-layer perceptron read at one entry.

  A block of rows x (M × K) is cast to itself and narrowed; the first layer is the matrix unit's product of x with
  W1 (K × H) into the zero accumulator, plus the bias b1 laid out as a 1 × H row and repeated down the M rows; the
  rectifier is the maximum with the zero scalar repeated over the M × H array; the second layer is the product of the
  narrowed hidden block with W2 (H × N) into the zero accumulator, plus b2 repeated the same way.  At exact arithmetic
  a change of float format is the identity, a product into the zero accumulator is the sum over the contracted
  coordinate, a repeated bias row reads the bias entry of the column and the zero scalar is 0, so entry (i, n) is
      Σ_h max (Σ_k x(i,k)·W1(k,h) + b1(h), 0) · W2(h,n) + b2(n).
  The statement is over any extents and any dimension records whose six lists are the plain product's.
-/
import Idealize.ShloMosaic.PureOps.Ideal
import Idealize.ShloMosaic.Lib.ValueIdx
import Idealize.ShloMosaic.Lib.ValueLayout
import proofs.«131809_j79121887527265_1_alg».proof.Proof.LibPlainMatmul
import proofs.«131809_j79121887527265_1_alg».proof.Proof.Spec

open scoped BigOperators

noncomputable section

namespace Cert.MlpPay

open Idealize.ShloMosaic Idealize.ShloMosaic.ValueIdx

/-- A bias laid out as a 1 × H row and repeated down M rows reads, at (i, h), the bias entry h. -/
theorem bias_rows_apply {M H : ℕ} (b : FVec Ideal ⟨1, ![H]⟩ .f32)
    (hc : (⟨1, ![H]⟩ : Shape).ShapeCasts ⟨2, ![1, H]⟩) (hb : (⟨2, ![1, H]⟩ : Shape).Broadcasts ⟨2, ![M, H]⟩)
    (i : Fin M) (h : Fin H) :
    broadcastTo ⟨2, ![M, H]⟩ (shapeCast ⟨2, ![1, H]⟩ b hc) hb (ix2 i h) = b (ix1 h) :=
  (broadcastTo_1b_ab_apply _ hb i h).trans (shapeCast_a_1a_apply b hc 0 h)

/-- One layer on the matrix unit — the product into the zero accumulator plus the repeated bias — at (i, h):
    the dot product of row i of the left operand with column h of the right one, plus the bias entry h. -/
theorem unit_affine_apply {M K H : ℕ} {φ₁ φ₂ : FTy} (D : DotDims ⟨2, ![M, K]⟩ ⟨2, ![K, H]⟩ ⟨2, ![M, H]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![M, K]⟩ φ₁) (W : FVec Ideal ⟨2, ![K, H]⟩ φ₂) (b : FVec Ideal ⟨1, ![H]⟩ .f32)
    (hc : (⟨1, ![H]⟩ : Shape).ShapeCasts ⟨2, ![1, H]⟩) (hb : (⟨2, ![1, H]⟩ : Shape).Broadcasts ⟨2, ![M, H]⟩)
    (i : Fin M) (h : Fin H) :
    addf (matmul D none x W (constant (F := Ideal) ⟨2, ![M, H]⟩ .f32 0x00000000#32))
        (broadcastTo ⟨2, ![M, H]⟩ (shapeCast ⟨2, ![1, H]⟩ b hc) hb) (ix2 i h)
      = (∑ k : Fin K, x (ix2 i k) * W (ix2 k h)) + b (ix1 h) := by
  show _ + _ = _
  rw [PlainMatmul.matmul_zero_apply D hlc hrc hln hrn hlb hrb, bias_rows_apply]

/-- The whole body's value at (i, n): the perceptron of the five loaded blocks. -/
theorem unit_mlp_apply {M K H N : ℕ}
    (D1 : DotDims ⟨2, ![M, K]⟩ ⟨2, ![K, H]⟩ ⟨2, ![M, H]⟩)
    (hlc1 : D1.lhsContracting = [1]) (hrc1 : D1.rhsContracting = [0]) (hln1 : D1.lhsNonContracting = [0])
    (hrn1 : D1.rhsNonContracting = [1]) (hlb1 : D1.lhsBatch = []) (hrb1 : D1.rhsBatch = [])
    (D2 : DotDims ⟨2, ![M, H]⟩ ⟨2, ![H, N]⟩ ⟨2, ![M, N]⟩)
    (hlc2 : D2.lhsContracting = [1]) (hrc2 : D2.rhsContracting = [0]) (hln2 : D2.lhsNonContracting = [0])
    (hrn2 : D2.rhsNonContracting = [1]) (hlb2 : D2.lhsBatch = []) (hrb2 : D2.rhsBatch = [])
    (x : FVec Ideal ⟨2, ![M, K]⟩ .f32) (W1 : FVec Ideal ⟨2, ![K, H]⟩ .f32) (b1 : FVec Ideal ⟨1, ![H]⟩ .f32)
    (W2 : FVec Ideal ⟨2, ![H, N]⟩ .f32) (b2 : FVec Ideal ⟨1, ![N]⟩ .f32)
    (hxx : (⟨2, ![M, K]⟩ : Shape).ShapeCasts ⟨2, ![M, K]⟩) (hlt : FTy.bits .bf16 < FTy.bits .f32)
    (h1c : (⟨1, ![H]⟩ : Shape).ShapeCasts ⟨2, ![1, H]⟩) (h1b : (⟨2, ![1, H]⟩ : Shape).Broadcasts ⟨2, ![M, H]⟩)
    (h2c : (⟨1, ![N]⟩ : Shape).ShapeCasts ⟨2, ![1, N]⟩) (h2b : (⟨2, ![1, N]⟩ : Shape).Broadcasts ⟨2, ![M, N]⟩)
    (i : Fin M) (n : Fin N) :
    addf (matmul D2 none
            (truncf .bf16
              (maximumf
                (addf (matmul D1 none (truncf .bf16 (shapeCast ⟨2, ![M, K]⟩ x hxx) hlt) (truncf .bf16 W1 hlt)
                        (constant (F := Ideal) ⟨2, ![M, H]⟩ .f32 0x00000000#32))
                      (broadcastTo ⟨2, ![M, H]⟩ (shapeCast ⟨2, ![1, H]⟩ b1 h1c) h1b))
                (broadcast ⟨2, ![M, H]⟩ (Scalar.ofBits (F := Ideal) .f32 0x00000000#32)))
              hlt)
            (truncf .bf16 W2 hlt) (constant (F := Ideal) ⟨2, ![M, N]⟩ .f32 0x00000000#32))
         (broadcastTo ⟨2, ![M, N]⟩ (shapeCast ⟨2, ![1, N]⟩ b2 h2c) h2b) (ix2 i n)
      = Cert.Spec.mlpAt x W1 b1 W2 b2 i n := by
  refine (unit_affine_apply D2 hlc2 hrc2 hln2 hrn2 hlb2 hrb2 _ _ b2 h2c h2b i n).trans ?_
  rw [Cert.Spec.mlpAt_eq]
  refine congrArg (· + b2 (ix1 n)) (Finset.sum_congr rfl fun h _ => congrArg (· * W2 (ix2 h n)) ?_)
  refine (congrArg₂ max (unit_affine_apply D1 hlc1 hrc1 hln1 hrn1 hlb1 hrb1 _ _ b1 h1c h1b i h) Ideal.ofBits_zero_f32).trans ?_
  rw [shapeCast_self]
  rfl

/-- The perceptron's entry (i, n) from other arrays: equal weights and biases, and a features array that agrees on
    row i with row i' of the other. -/
theorem mlpAt_blocks {M M' K H N : ℕ} (x : FVec Ideal ⟨2, ![M, K]⟩ .f32) (x' : FVec Ideal ⟨2, ![M', K]⟩ .f32)
    (W1 W1' : FVec Ideal ⟨2, ![K, H]⟩ .f32) (b1 b1' : FVec Ideal ⟨1, ![H]⟩ .f32)
    (W2 W2' : FVec Ideal ⟨2, ![H, N]⟩ .f32) (b2 b2' : FVec Ideal ⟨1, ![N]⟩ .f32)
    (i : Fin M) (i' : Fin M') (n n' : Fin N)
    (hx : ∀ k : Fin K, x (ix2 i k) = x' (ix2 i' k)) (hW1 : W1 = W1') (hb1 : b1 = b1') (hW2 : W2 = W2') (hb2 : b2 = b2')
    (hn : n = n') :
    Cert.Spec.mlpAt x W1 b1 W2 b2 i n = Cert.Spec.mlpAt x' W1' b1' W2' b2' i' n' := by
  subst hW1 hb1 hW2 hb2 hn
  exact Cert.Spec.mlpAt_congr x x' W1 b1 W2 b2 i i' n hx

/-- The zero offsets of a whole-buffer rectangle, of rank 2 and of rank 1, as constant functions. -/
theorem hz2 : (![0, 0] : Fin 2 → Nat) = fun _ => 0 := funext fun a => by fin_cases a <;> rfl
theorem hz1 : (![0] : Fin 1 → Nat) = fun _ => 0 := funext fun a => by fin_cases a <;> rfl

end Cert.MlpPay

end
-- ==== Proof.KI.MlpVal1.lean ====
/-
  The value of perceptron region 1 at exact arithmetic.

  The region walks the 200000 rows of the features array in 50 blocks of 4000 rows; at each block it reads the two
  weight matrices and the two biases whole, computes relu(x·W1 + b1)·W2 + b2 for the block's rows, and writes the
  result to the same rows of the output array.  Entry (i, n) of the output therefore depends on row i of the features
  only, and the whole output array is, row by row, the perceptron of the features array:
      out(i, n) = Σ_h max (Σ_k x(i,k)·W1(k,h) + b1(h), 0) · W2(h,n) + b2(n).
-/
import proofs.«131809_j79121887527265_1_alg».proof.Proof.KI.Mlp1
import proofs.«131809_j79121887527265_1_alg».proof.Proof.KI.MlpPay
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.MlpPay (hz1 hz2)

-- the TensorCore's buffer contents when the region is entered
variable (V : (c : Dev nD) → (b : Ref sig .tc) → Buf (Elt Ideal) ((c : Thread nD τ).loc b))

/-- The value the body stores, at (p, q), over any five blocks: the perceptron of the blocks. -/
theorem pay1_apply (x0 : Vec Ideal S4000x64 .f32) (x1 : Vec Ideal S64x64 .f32) (x2 : Vec Ideal S64 .f32)
    (x3 : Vec Ideal S64x64 .f32) (x4 : Vec Ideal S64 .f32) (p : Fin 4000) (q : Fin 64) :
    k1_pay1 (F := Ideal) x0 x1 x2 x3 x4 (ix2 p q) = Cert.Spec.mlpAt x0 x1 x2 x3 x4 p q := by
  unfold k1_pay1
  exact Cert.MlpPay.unit_mlp_apply _ rfl rfl rfl rfl rfl rfl _ rfl rfl rfl rfl rfl rfl x0 x1 x2 x3 x4 _ _ _ _ _ _ p q

/-- What the body leaves in the output buffer, at (p, q): its one store is through the whole buffer, of the value above
    of the five whole loads. -/
theorem out1_apply (x0 : Vec Ideal S4000x64 .f32) (x1 : Vec Ideal S64x64 .f32) (x2 : Vec Ideal S64 .f32)
    (x3 : Vec Ideal S64x64 .f32) (x4 : Vec Ideal S64 .f32) (p : Fin 4000) (q : Fin 64) :
    out1_5 x0 x1 x2 x3 x4 (ix2 p q) = Cert.Spec.mlpAt x0 x1 x2 x3 x4 p q := by
  unfold out1_5
  rw [View.canon_unit_zero hz2]
  simp only [View.ld_unit_zero (S := S4000x64) hz2, View.ld_unit_zero (S := S64x64) hz2, View.ld_unit_zero (S := S64) hz1,
    View.ld_unit_zero (S := S64x64) hz2, View.ld_unit_zero (S := S64) hz1]
  exact pay1_apply x0 x1 x2 x3 x4 p q

/-- The output array as one function of the arrays the region finds: row i, column n is the perceptron of row i of the
    features. -/
abbrev G1 (c : Dev nD) : S200000x64.Idx → EReal := fun idx =>
  Cert.Spec.mlpAt (V c main_v8) (V c main_arg6) (V c main_arg7) (V c main_arg8) (V c main_arg9) (idx 0) (idx 1)

/-- The windows' block indices, decided over the 50 points: the features' and the output's blocks are block t of their
    rows and the whole width; the weights' and biases' block is always the whole array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The first weight matrix's block at any point is the whole array. -/
theorem wblk1_1 (c : Dev nD) (t : Fin cfg1.N) : (iblk1 V c 1 t : S64x64.Idx → EReal) = V c main_arg6 := by
  obtain ⟨-, -, e0, e1, -⟩ := idx_facts1 t
  funext y
  show V c main_arg6 (((cfg1.win 1).blk t).view.emb y) = V c main_arg6 y
  refine congrArg (V c main_arg6) (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- The first bias's block at any point is the whole array. -/
theorem wblk1_2 (c : Dev nD) (t : Fin cfg1.N) : (iblk1 V c 2 t : S64.Idx → EReal) = V c main_arg7 := by
  obtain ⟨-, -, -, -, e0, -⟩ := idx_facts1 t
  funext y
  show V c main_arg7 (((cfg1.win 2).blk t).view.emb y) = V c main_arg7 y
  refine congrArg (V c main_arg7) (funext fun a => Fin.ext ?_)
  match a with
  | ⟨0, _⟩ => show win1_2.index t (0 : Fin 1) * 64 + 1 * (y 0).val = (y 0).val; omega

/-- The second weight matrix's block at any point is the whole array. -/
theorem wblk1_3 (c : Dev nD) (t : Fin cfg1.N) : (iblk1 V c 3 t : S64x64.Idx → EReal) = V c main_arg8 := by
  obtain ⟨-, -, -, -, -, e0, e1, -⟩ := idx_facts1 t
  funext y
  show V c main_arg8 (((cfg1.win 3).blk t).view.emb y) = V c main_arg8 y
  refine congrArg (V c main_arg8) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The second bias's block at any point is the whole array. -/
theorem wblk1_4 (c : Dev nD) (t : Fin cfg1.N) : (iblk1 V c 4 t : S64.Idx → EReal) = V c main_arg9 := by
  obtain ⟨-, -, -, -, -, -, -, e0, -⟩ := idx_facts1 t
  funext y
  show V c main_arg9 (((cfg1.win 4).blk t).view.emb y) = V c main_arg9 y
  refine congrArg (V c main_arg9) (funext fun a => Fin.ext ?_)
  match a with
  | ⟨0, _⟩ => show win1_4.index t (0 : Fin 1) * 64 + 1 * (y 0).val = (y 0).val; omega

/-- Row p of the features' block at point t is the features array's row under row p of the output's block there. -/
theorem row_eq1 (c : Dev nD) (t : Fin cfg1.N) (p : Fin 4000) (q : Fin 64) (k : Fin 64) :
    iblk1 V c 0 t (ix2 p k) = V c main_v8 (ix2 ((((cfg1.win 5).blk t).view.emb (ix2 p q)) 0) k) := by
  obtain ⟨e00, e01, -, -, -, -, -, -, e50, e51⟩ := idx_facts1 t
  show V c main_v8 (((cfg1.win 0).blk t).view.emb (ix2 p k)) = _
  refine congrArg (V c main_v8) (funext fun a => Fin.ext ?_)
  match a with
  | ⟨0, _⟩ =>
    show win1_0.index t (0 : Fin 2) * 4000 + 1 * p.val = win1_5.index t (0 : Fin 2) * 4000 + 1 * p.val
    omega
  | ⟨1, _⟩ => show win1_0.index t (1 : Fin 2) * 64 + 1 * k.val = k.val; omega

/-- Column q of the output's block is column q of the output array. -/
theorem col_eq1 (t : Fin cfg1.N) (p : Fin 4000) (q : Fin 64) :
    q = (((cfg1.win 5).blk t).view.emb (ix2 p q)) 1 := by
  obtain ⟨-, -, -, -, -, -, -, -, -, e51⟩ := idx_facts1 t
  refine Fin.ext ?_
  show q.val = win1_5.index t (1 : Fin 2) * 64 + 1 * q.val
  omega

/-- What point t writes back is block t of the function above. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  funext j
  obtain ⟨p, q, rfl⟩ : ∃ (p : Fin 4000) (q : Fin 64), j = ix2 p q := ⟨j 0, j 1, eq_ix2 j⟩
  show out1_5 (iblk1 V c 0 t) (iblk1 V c 1 t) (iblk1 V c 2 t) (iblk1 V c 3 t) (iblk1 V c 4 t) (ix2 p q)
      = Cert.Spec.mlpAt (V c main_v8) (V c main_arg6) (V c main_arg7) (V c main_arg8) (V c main_arg9)
          ((((cfg1.win 5).blk t).view.emb (ix2 p q)) 0) ((((cfg1.win 5).blk t).view.emb (ix2 p q)) 1)
  refine (out1_apply (iblk1 V c 0 t) (iblk1 V c 1 t) (iblk1 V c 2 t) (iblk1 V c 3 t) (iblk1 V c 4 t) p q).trans ?_
  exact Cert.MlpPay.mlpAt_blocks (iblk1 V c 0 t) (V c main_v8) (iblk1 V c 1 t) (V c main_arg6) (iblk1 V c 2 t) (V c main_arg7)
    (iblk1 V c 3 t) (V c main_arg8) (iblk1 V c 4 t) (V c main_arg9) p _ q _
    (fun k => row_eq1 V c t p q k) (wblk1_1 V c t) (wblk1_2 V c t) (wblk1_3 V c t) (wblk1_4 V c t) (col_eq1 t p q)

/-- An index of the output array is in point t's block iff each coordinate is in the block's range on its axis. -/
theorem mem_blk1 (t : Fin cfg1.N) (i : S200000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v9).slice (win1_5.rect t)).set ↔ _
  rw [View.set_slice_whole, Rect.mem_set_unit]
  exact Iff.rfl

/-- Every index of the output array is in some point's block: row r is in block r / 4000. -/
theorem cover1 (i : S200000x64.Idx) :
    ∃ t : Fin cfg1.N, (cfg1.win 5).flush t = true ∧ i ∈ ((cfg1.win 5).blk t).view.set := by
  have hi0 : (i 0).val < 200000 := (i 0).isLt
  have hi1 : (i 1).val < 64 := (i 1).isLt
  obtain ⟨t, ht⟩ : ∃ t : Fin cfg1.N, t.val = (i 0).val / 4000 :=
    ⟨⟨(i 0).val / 4000, by show _ < grid1.N; rw [N_1]; omega⟩, rfl⟩
  obtain ⟨-, -, -, -, -, -, -, -, e50, e51⟩ := idx_facts1 t
  refine ⟨t, flush1_5 t, ?_⟩
  rw [mem_blk1]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 64 ≤ (i 1).val ∧ (i 1).val < win1_5.index t (1 : Fin 2) * 64 + 64
    omega

/-- THE REGION'S VALUE: after the region, entry (i, n) of the output array is the perceptron of row i of the features
    array with the region's weights and biases. -/
theorem out_eq1 (c : Dev nD) (i : Fin 200000) (n : Fin 64) :
    (Cert.KernelIdeal.Fr.dat1 (F := Ideal) V c).arrAt 5 cfg1.N (ValueIdx.ix2 i n)
      = Cert.Spec.mlpAt (V c main_v8) (V c main_arg6) (V c main_arg7) (V c main_arg8) (V c main_arg9) i n :=
  congrFun ((dat1 V c).arrAt_eq_of_cover 5 (G1 V c) (fun t _ => flushed1_eq V c t) (cover1)) (ix2 i n)

end Cert.KernelIdeal.Val

end
-- ==== Proof.KI.MlpVal2.lean ====
/-
  The value of perceptron region 2 at exact arithmetic.

  The region walks the 200000 rows of the features array in 50 blocks of 4000 rows; at each block it reads the two
  weight matrices and the two biases whole, computes relu(x·W1 + b1)·W2 + b2 for the block's rows, and writes the
  result to the same rows of the output array.  Entry (i, n) of the output therefore depends on row i of the features
  only, and the whole output array is, row by row, the perceptron of the features array:
      out(i, n) = Σ_h max (Σ_k x(i,k)·W1(k,h) + b1(h), 0) · W2(h,n) + b2(n).
-/
import proofs.«131809_j79121887527265_1_alg».proof.Proof.KI.Mlp2
import proofs.«131809_j79121887527265_1_alg».proof.Proof.KI.MlpPay
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.MlpPay (hz1 hz2)

-- the TensorCore's buffer contents when the region is entered
variable (V : (c : Dev nD) → (b : Ref sig .tc) → Buf (Elt Ideal) ((c : Thread nD τ).loc b))

/-- The value the body stores, at (p, q), over any five blocks: the perceptron of the blocks. -/
theorem pay2_apply (x0 : Vec Ideal S4000x128 .f32) (x1 : Vec Ideal S128x128 .f32) (x2 : Vec Ideal S128 .f32)
    (x3 : Vec Ideal S128x128 .f32) (x4 : Vec Ideal S128 .f32) (p : Fin 4000) (q : Fin 128) :
    k2_pay1 (F := Ideal) x0 x1 x2 x3 x4 (ix2 p q) = Cert.Spec.mlpAt x0 x1 x2 x3 x4 p q := by
  unfold k2_pay1
  exact Cert.MlpPay.unit_mlp_apply _ rfl rfl rfl rfl rfl rfl _ rfl rfl rfl rfl rfl rfl x0 x1 x2 x3 x4 _ _ _ _ _ _ p q

/-- What the body leaves in the output buffer, at (p, q): its one store is through the whole buffer, of the value above
    of the five whole loads. -/
theorem out2_apply (x0 : Vec Ideal S4000x128 .f32) (x1 : Vec Ideal S128x128 .f32) (x2 : Vec Ideal S128 .f32)
    (x3 : Vec Ideal S128x128 .f32) (x4 : Vec Ideal S128 .f32) (p : Fin 4000) (q : Fin 128) :
    out2_5 x0 x1 x2 x3 x4 (ix2 p q) = Cert.Spec.mlpAt x0 x1 x2 x3 x4 p q := by
  unfold out2_5
  rw [View.canon_unit_zero hz2]
  simp only [View.ld_unit_zero (S := S4000x128) hz2, View.ld_unit_zero (S := S128x128) hz2, View.ld_unit_zero (S := S128) hz1,
    View.ld_unit_zero (S := S128x128) hz2, View.ld_unit_zero (S := S128) hz1]
  exact pay2_apply x0 x1 x2 x3 x4 p q

/-- The output array as one function of the arrays the region finds: row i, column n is the perceptron of row i of the
    features. -/
abbrev G2 (c : Dev nD) : S200000x128.Idx → EReal := fun idx =>
  Cert.Spec.mlpAt (V c main_v17) (V c main_arg10) (V c main_arg11) (V c main_arg12) (V c main_arg13) (idx 0) (idx 1)

/-- The windows' block indices, decided over the 50 points: the features' and the output's blocks are block t of their
    rows and the whole width; the weights' and biases' block is always the whole array. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The first weight matrix's block at any point is the whole array. -/
theorem wblk2_1 (c : Dev nD) (t : Fin cfg2.N) : (iblk2 V c 1 t : S128x128.Idx → EReal) = V c main_arg10 := by
  obtain ⟨-, -, e0, e1, -⟩ := idx_facts2 t
  funext y
  show V c main_arg10 (((cfg2.win 1).blk t).view.emb y) = V c main_arg10 y
  refine congrArg (V c main_arg10) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The first bias's block at any point is the whole array. -/
theorem wblk2_2 (c : Dev nD) (t : Fin cfg2.N) : (iblk2 V c 2 t : S128.Idx → EReal) = V c main_arg11 := by
  obtain ⟨-, -, -, -, e0, -⟩ := idx_facts2 t
  funext y
  show V c main_arg11 (((cfg2.win 2).blk t).view.emb y) = V c main_arg11 y
  refine congrArg (V c main_arg11) (funext fun a => Fin.ext ?_)
  match a with
  | ⟨0, _⟩ => show win2_2.index t (0 : Fin 1) * 128 + 1 * (y 0).val = (y 0).val; omega

/-- The second weight matrix's block at any point is the whole array. -/
theorem wblk2_3 (c : Dev nD) (t : Fin cfg2.N) : (iblk2 V c 3 t : S128x128.Idx → EReal) = V c main_arg12 := by
  obtain ⟨-, -, -, -, -, e0, e1, -⟩ := idx_facts2 t
  funext y
  show V c main_arg12 (((cfg2.win 3).blk t).view.emb y) = V c main_arg12 y
  refine congrArg (V c main_arg12) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The second bias's block at any point is the whole array. -/
theorem wblk2_4 (c : Dev nD) (t : Fin cfg2.N) : (iblk2 V c 4 t : S128.Idx → EReal) = V c main_arg13 := by
  obtain ⟨-, -, -, -, -, -, -, e0, -⟩ := idx_facts2 t
  funext y
  show V c main_arg13 (((cfg2.win 4).blk t).view.emb y) = V c main_arg13 y
  refine congrArg (V c main_arg13) (funext fun a => Fin.ext ?_)
  match a with
  | ⟨0, _⟩ => show win2_4.index t (0 : Fin 1) * 128 + 1 * (y 0).val = (y 0).val; omega

/-- Row p of the features' block at point t is the features array's row under row p of the output's block there. -/
theorem row_eq2 (c : Dev nD) (t : Fin cfg2.N) (p : Fin 4000) (q : Fin 128) (k : Fin 128) :
    iblk2 V c 0 t (ix2 p k) = V c main_v17 (ix2 ((((cfg2.win 5).blk t).view.emb (ix2 p q)) 0) k) := by
  obtain ⟨e00, e01, -, -, -, -, -, -, e50, e51⟩ := idx_facts2 t
  show V c main_v17 (((cfg2.win 0).blk t).view.emb (ix2 p k)) = _
  refine congrArg (V c main_v17) (funext fun a => Fin.ext ?_)
  match a with
  | ⟨0, _⟩ =>
    show win2_0.index t (0 : Fin 2) * 4000 + 1 * p.val = win2_5.index t (0 : Fin 2) * 4000 + 1 * p.val
    omega
  | ⟨1, _⟩ => show win2_0.index t (1 : Fin 2) * 128 + 1 * k.val = k.val; omega

/-- Column q of the output's block is column q of the output array. -/
theorem col_eq2 (t : Fin cfg2.N) (p : Fin 4000) (q : Fin 128) :
    q = (((cfg2.win 5).blk t).view.emb (ix2 p q)) 1 := by
  obtain ⟨-, -, -, -, -, -, -, -, -, e51⟩ := idx_facts2 t
  refine Fin.ext ?_
  show q.val = win2_5.index t (1 : Fin 2) * 128 + 1 * q.val
  omega

/-- What point t writes back is block t of the function above. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  funext j
  obtain ⟨p, q, rfl⟩ : ∃ (p : Fin 4000) (q : Fin 128), j = ix2 p q := ⟨j 0, j 1, eq_ix2 j⟩
  show out2_5 (iblk2 V c 0 t) (iblk2 V c 1 t) (iblk2 V c 2 t) (iblk2 V c 3 t) (iblk2 V c 4 t) (ix2 p q)
      = Cert.Spec.mlpAt (V c main_v17) (V c main_arg10) (V c main_arg11) (V c main_arg12) (V c main_arg13)
          ((((cfg2.win 5).blk t).view.emb (ix2 p q)) 0) ((((cfg2.win 5).blk t).view.emb (ix2 p q)) 1)
  refine (out2_apply (iblk2 V c 0 t) (iblk2 V c 1 t) (iblk2 V c 2 t) (iblk2 V c 3 t) (iblk2 V c 4 t) p q).trans ?_
  exact Cert.MlpPay.mlpAt_blocks (iblk2 V c 0 t) (V c main_v17) (iblk2 V c 1 t) (V c main_arg10) (iblk2 V c 2 t) (V c main_arg11)
    (iblk2 V c 3 t) (V c main_arg12) (iblk2 V c 4 t) (V c main_arg13) p _ q _
    (fun k => row_eq2 V c t p q k) (wblk2_1 V c t) (wblk2_2 V c t) (wblk2_3 V c t) (wblk2_4 V c t) (col_eq2 t p q)

/-- An index of the output array is in point t's block iff each coordinate is in the block's range on its axis. -/
theorem mem_blk2 (t : Fin cfg2.N) (i : S200000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v18).slice (win2_5.rect t)).set ↔ _
  rw [View.set_slice_whole, Rect.mem_set_unit]
  exact Iff.rfl

/-- Every index of the output array is in some point's block: row r is in block r / 4000. -/
theorem cover2 (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  obtain ⟨t, ht⟩ : ∃ t : Fin cfg2.N, t.val = (i 0).val / 4000 :=
    ⟨⟨(i 0).val / 4000, by show _ < grid2.N; rw [N_2]; omega⟩, rfl⟩
  obtain ⟨-, -, -, -, -, -, -, -, e50, e51⟩ := idx_facts2 t
  refine ⟨t, flush2_5 t, ?_⟩
  rw [mem_blk2]
  intro a
  match a with
  | ⟨0, _⟩ =>
    show win2_5.index t (0 : Fin 2) * 4000 ≤ (i 0).val ∧ (i 0).val < win2_5.index t (0 : Fin 2) * 4000 + 4000
    omega
  | ⟨1, _⟩ =>
    show win2_5.index t (1 : Fin 2) * 128 ≤ (i 1).val ∧ (i 1).val < win2_5.index t (1 : Fin 2) * 128 + 128
    omega

/-- THE REGION'S VALUE: after the region, entry (i, n) of the output array is the perceptron of row i of the features
    array with the region's weights and biases. -/
theorem out_eq2 (c : Dev nD) (i : Fin 200000) (n : Fin 128) :
    (Cert.KernelIdeal.Fr.dat2 (F := Ideal) V c).arrAt 5 cfg2.N (ValueIdx.ix2 i n)
      = Cert.Spec.mlpAt (V c main_v17) (V c main_arg10) (V c main_arg11) (V c main_arg12) (V c main_arg13) i n :=
  congrFun ((dat2 V c).arrAt_eq_of_cover 5 (G2 V c) (fun t _ => flushed2_eq V c t) (cover2)) (ix2 i n)

end Cert.KernelIdeal.Val

end
-- ==== Proof.KI.MlpVal3.lean ====
/-
  The value of perceptron region 3 at exact arithmetic.

  The region walks the 200000 rows of the features array in 50 blocks of 4000 rows; at each block it reads the two
  weight matrices and the two biases whole, computes relu(x·W1 + b1)·W2 + b2 for the block's rows, and writes the
  result to the same rows of the output array.  Entry (i, n) of the output therefore depends on row i of the features
  only, and the whole output array is, row by row, the perceptron of the features array:
      out(i, n) = Σ_h max (Σ_k x(i,k)·W1(k,h) + b1(h), 0) · W2(h,n) + b2(n).
-/
import proofs.«131809_j79121887527265_1_alg».proof.Proof.KI.Mlp3
import proofs.«131809_j79121887527265_1_alg».proof.Proof.KI.MlpPay
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.MlpPay (hz1 hz2)

-- the TensorCore's buffer contents when the region is entered
variable (V : (c : Dev nD) → (b : Ref sig .tc) → Buf (Elt Ideal) ((c : Thread nD τ).loc b))

/-- The value the body stores, at (p, q), over any five blocks: the perceptron of the blocks. -/
theorem pay3_apply (x0 : Vec Ideal S4000x128 .f32) (x1 : Vec Ideal S128x128 .f32) (x2 : Vec Ideal S128 .f32)
    (x3 : Vec Ideal S128x128 .f32) (x4 : Vec Ideal S128 .f32) (p : Fin 4000) (q : Fin 128) :
    k3_pay1 (F := Ideal) x0 x1 x2 x3 x4 (ix2 p q) = Cert.Spec.mlpAt x0 x1 x2 x3 x4 p q := by
  unfold k3_pay1
  exact Cert.MlpPay.unit_mlp_apply _ rfl rfl rfl rfl rfl rfl _ rfl rfl rfl rfl rfl rfl x0 x1 x2 x3 x4 _ _ _ _ _ _ p q

/-- What the body leaves in the output buffer, at (p, q): its one store is through the whole buffer, of the value above
    of the five whole loads. -/
theorem out3_apply (x0 : Vec Ideal S4000x128 .f32) (x1 : Vec Ideal S128x128 .f32) (x2 : Vec Ideal S128 .f32)
    (x3 : Vec Ideal S128x128 .f32) (x4 : Vec Ideal S128 .f32) (p : Fin 4000) (q : Fin 128) :
    out3_5 x0 x1 x2 x3 x4 (ix2 p q) = Cert.Spec.mlpAt x0 x1 x2 x3 x4 p q := by
  unfold out3_5
  rw [View.canon_unit_zero hz2]
  simp only [View.ld_unit_zero (S := S4000x128) hz2, View.ld_unit_zero (S := S128x128) hz2, View.ld_unit_zero (S := S128) hz1,
    View.ld_unit_zero (S := S128x128) hz2, View.ld_unit_zero (S := S128) hz1]
  exact pay3_apply x0 x1 x2 x3 x4 p q

/-- The output array as one function of the arrays the region finds: row i, column n is the perceptron of row i of the
    features. -/
abbrev G3 (c : Dev nD) : S200000x128.Idx → EReal := fun idx =>
  Cert.Spec.mlpAt (V c main_v27) (V c main_arg14) (V c main_arg15) (V c main_arg16) (V c main_arg17) (idx 0) (idx 1)

/-- The windows' block indices, decided over the 50 points: the features' and the output's blocks are block t of their
    rows and the whole width; the weights' and biases' block is always the whole array. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- The first weight matrix's block at any point is the whole array. -/
theorem wblk3_1 (c : Dev nD) (t : Fin cfg3.N) : (iblk3 V c 1 t : S128x128.Idx → EReal) = V c main_arg14 := by
  obtain ⟨-, -, e0, e1, -⟩ := idx_facts3 t
  funext y
  show V c main_arg14 (((cfg3.win 1).blk t).view.emb y) = V c main_arg14 y
  refine congrArg (V c main_arg14) (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- The first bias's block at any point is the whole array. -/
theorem wblk3_2 (c : Dev nD) (t : Fin cfg3.N) : (iblk3 V c 2 t : S128.Idx → EReal) = V c main_arg15 := by
  obtain ⟨-, -, -, -, e0, -⟩ := idx_facts3 t
  funext y
  show V c main_arg15 (((cfg3.win 2).blk t).view.emb y) = V c main_arg15 y
  refine congrArg (V c main_arg15) (funext fun a => Fin.ext ?_)
  match a with
  | ⟨0, _⟩ => show win3_2.index t (0 : Fin 1) * 128 + 1 * (y 0).val = (y 0).val; omega

/-- The second weight matrix's block at any point is the whole array. -/
theorem wblk3_3 (c : Dev nD) (t : Fin cfg3.N) : (iblk3 V c 3 t : S128x128.Idx → EReal) = V c main_arg16 := by
  obtain ⟨-, -, -, -, -, e0, e1, -⟩ := idx_facts3 t
  funext y
  show V c main_arg16 (((cfg3.win 3).blk t).view.emb y) = V c main_arg16 y
  refine congrArg (V c main_arg16) (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- The second bias's block at any point is the whole array. -/
theorem wblk3_4 (c : Dev nD) (t : Fin cfg3.N) : (iblk3 V c 4 t : S128.Idx → EReal) = V c main_arg17 := by
  obtain ⟨-, -, -, -, -, -, -, e0, -⟩ := idx_facts3 t
  funext y
  show V c main_arg17 (((cfg3.win 4).blk t).view.emb y) = V c main_arg17 y
  refine congrArg (V c main_arg17) (funext fun a => Fin.ext ?_)
  match a with
  | ⟨0, _⟩ => show win3_4.index t (0 : Fin 1) * 128 + 1 * (y 0).val = (y 0).val; omega

/-- Row p of the features' block at point t is the features array's row under row p of the output's block there. -/
theorem row_eq3 (c : Dev nD) (t : Fin cfg3.N) (p : Fin 4000) (q : Fin 128) (k : Fin 128) :
    iblk3 V c 0 t (ix2 p k) = V c main_v27 (ix2 ((((cfg3.win 5).blk t).view.emb (ix2 p q)) 0) k) := by
  obtain ⟨e00, e01, -, -, -, -, -, -, e50, e51⟩ := idx_facts3 t
  show V c main_v27 (((cfg3.win 0).blk t).view.emb (ix2 p k)) = _
  refine congrArg (V c main_v27) (funext fun a => Fin.ext ?_)
  match a with
  | ⟨0, _⟩ =>
    show win3_0.index t (0 : Fin 2) * 4000 + 1 * p.val = win3_5.index t (0 : Fin 2) * 4000 + 1 * p.val
    omega
  | ⟨1, _⟩ => show win3_0.index t (1 : Fin 2) * 128 + 1 * k.val = k.val; omega

/-- Column q of the output's block is column q of the output array. -/
theorem col_eq3 (t : Fin cfg3.N) (p : Fin 4000) (q : Fin 128) :
    q = (((cfg3.win 5).blk t).view.emb (ix2 p q)) 1 := by
  obtain ⟨-, -, -, -, -, -, -, -, -, e51⟩ := idx_facts3 t
  refine Fin.ext ?_
  show q.val = win3_5.index t (1 : Fin 2) * 128 + 1 * q.val
  omega

/-- What point t writes back is block t of the function above. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  funext j
  obtain ⟨p, q, rfl⟩ : ∃ (p : Fin 4000) (q : Fin 128), j = ix2 p q := ⟨j 0, j 1, eq_ix2 j⟩
  show out3_5 (iblk3 V c 0 t) (iblk3 V c 1 t) (iblk3 V c 2 t) (iblk3 V c 3 t) (iblk3 V c 4 t) (ix2 p q)
      = Cert.Spec.mlpAt (V c main_v27) (V c main_arg14) (V c main_arg15) (V c main_arg16) (V c main_arg17)
          ((((cfg3.win 5).blk t).view.emb (ix2 p q)) 0) ((((cfg3.win 5).blk t).view.emb (ix2 p q)) 1)
  refine (out3_apply (iblk3 V c 0 t) (iblk3 V c 1 t) (iblk3 V c 2 t) (iblk3 V c 3 t) (iblk3 V c 4 t) p q).trans ?_
  exact Cert.MlpPay.mlpAt_blocks (iblk3 V c 0 t) (V c main_v27) (iblk3 V c 1 t) (V c main_arg14) (iblk3 V c 2 t) (V c main_arg15)
    (iblk3 V c 3 t) (V c main_arg16) (iblk3 V c 4 t) (V c main_arg17) p _ q _
    (fun k => row_eq3 V c t p q k) (wblk3_1 V c t) (wblk3_2 V c t) (wblk3_3 V c t) (wblk3_4 V c t) (col_eq3 t p q)

/-- An index of the output array is in point t's block iff each coordinate is in the block's range on its axis. -/
theorem mem_blk3 (t : Fin cfg3.N) (i : S200000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v28).slice (win3_5.rect t)).set ↔ _
  rw [View.set_slice_whole, Rect.mem_set_unit]
  exact Iff.rfl

/-- Every index of the output array is in some point's block: row r is in block r / 4000. -/
theorem cover3 (i : S200000x128.Idx) :
    ∃ t : Fin cfg3.N, (cfg3.win 5).flush t = true ∧ i ∈ ((cfg3.win 5).blk t).view.set := by
  have hi0 : (i 0).val < 200000 := (i 0).isLt
  have hi1 : (i 1).val < 128 := (i 1).isLt
  obtain ⟨t, ht⟩ : ∃ t : Fin cfg3.N, t.val = (i 0).val / 4000 :=
    ⟨⟨(i 0).val / 4000, by show _ < grid3.N; rw [N_3]; omega⟩, rfl⟩
  obtain ⟨-, -, -, -, -, -, -, -, e50, e51⟩ := idx_facts3 t
  refine ⟨t, flush3_5 t, ?_⟩
  rw [mem_blk3]
  intro a
  match a with
  | ⟨0, _⟩ =>
    show win3_5.index t (0 : Fin 2) * 4000 ≤ (i 0).val ∧ (i 0).val < win3_5.index t (0 : Fin 2) * 4000 + 4000
    omega
  | ⟨1, _⟩ =>
    show win3_5.index t (1 : Fin 2) * 128 ≤ (i 1).val ∧ (i 1).val < win3_5.index t (1 : Fin 2) * 128 + 128
    omega

/-- THE REGION'S VALUE: after the region, entry (i, n) of the output array is the perceptron of row i of the features
    array with the region's weights and biases. -/
theorem out_eq3 (c : Dev nD) (i : Fin 200000) (n : Fin 128) :
    (Cert.KernelIdeal.Fr.dat3 (F := Ideal) V c).arrAt 5 cfg3.N (ValueIdx.ix2 i n)
      = Cert.Spec.mlpAt (V c main_v27) (V c main_arg14) (V c main_arg15) (V c main_arg16) (V c main_arg17) i n :=
  congrFun ((dat3 V c).arrAt_eq_of_cover 5 (G3 V c) (fun t _ => flushed3_eq V c t) (cover3)) (ix2 i n)

end Cert.KernelIdeal.Val

end
-- ==== Proof.KI.MlpVal4.lean ====
/-
  The value of perceptron region 4 at exact arithmetic.

  The region walks the 200000 rows of the features array in 50 blocks of 4000 rows; at each block it reads the two
  weight matrices and the two biases whole, computes relu(x·W1 + b1)·W2 + b2 for the block's rows, and writes the
  result to the same rows of the output array.  Entry (i, n) of the output therefore depends on row i of the features
  only, and the whole output array is, row by row, the perceptron of the features array:
      out(i, n) = Σ_h max (Σ_k x(i,k)·W1(k,h) + b1(h), 0) · W2(h,n) + b2(n).
-/
import proofs.«131809_j79121887527265_1_alg».proof.Proof.KI.Mlp4
import proofs.«131809_j79121887527265_1_alg».proof.Proof.KI.MlpPay
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.MlpPay (hz1 hz2)

-- the TensorCore's buffer contents when the region is entered
variable (V : (c : Dev nD) → (b : Ref sig .tc) → Buf (Elt Ideal) ((c : Thread nD τ).loc b))

/-- The value the body stores, at (p, q), over any five blocks: the perceptron of the blocks. -/
theorem pay4_apply (x0 : Vec Ideal S4000x192 .f32) (x1 : Vec Ideal S192x192 .f32) (x2 : Vec Ideal S192 .f32)
    (x3 : Vec Ideal S192x192 .f32) (x4 : Vec Ideal S192 .f32) (p : Fin 4000) (q : Fin 192) :
    k4_pay1 (F := Ideal) x0 x1 x2 x3 x4 (ix2 p q) = Cert.Spec.mlpAt x0 x1 x2 x3 x4 p q := by
  unfold k4_pay1
  exact Cert.MlpPay.unit_mlp_apply _ rfl rfl rfl rfl rfl rfl _ rfl rfl rfl rfl rfl rfl x0 x1 x2 x3 x4 _ _ _ _ _ _ p q

/-- What the body leaves in the output buffer, at (p, q): its one store is through the whole buffer, of the value above
    of the five whole loads. -/
theorem out4_apply (x0 : Vec Ideal S4000x192 .f32) (x1 : Vec Ideal S192x192 .f32) (x2 : Vec Ideal S192 .f32)
    (x3 : Vec Ideal S192x192 .f32) (x4 : Vec Ideal S192 .f32) (p : Fin 4000) (q : Fin 192) :
    out4_5 x0 x1 x2 x3 x4 (ix2 p q) = Cert.Spec.mlpAt x0 x1 x2 x3 x4 p q := by
  unfold out4_5
  rw [View.canon_unit_zero hz2]
  simp only [View.ld_unit_zero (S := S4000x192) hz2, View.ld_unit_zero (S := S192x192) hz2, View.ld_unit_zero (S := S192) hz1,
    View.ld_unit_zero (S := S192x192) hz2, View.ld_unit_zero (S := S192) hz1]
  exact pay4_apply x0 x1 x2 x3 x4 p q

/-- The output array as one function of the arrays the region finds: row i, column n is the perceptron of row i of the
    features. -/
abbrev G4 (c : Dev nD) : S200000x192.Idx → EReal := fun idx =>
  Cert.Spec.mlpAt (V c main_v37) (V c main_arg18) (V c main_arg19) (V c main_arg20) (V c main_arg21) (idx 0) (idx 1)

/-- The windows' block indices, decided over the 50 points: the features' and the output's blocks are block t of their
    rows and the whole width; the weights' and biases' block is always the whole array. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- The first weight matrix's block at any point is the whole array. -/
theorem wblk4_1 (c : Dev nD) (t : Fin cfg4.N) : (iblk4 V c 1 t : S192x192.Idx → EReal) = V c main_arg18 := by
  obtain ⟨-, -, e0, e1, -⟩ := idx_facts4 t
  funext y
  show V c main_arg18 (((cfg4.win 1).blk t).view.emb y) = V c main_arg18 y
  refine congrArg (V c main_arg18) (funext fun a => Fin.ext ?_)
  match a with
  | ⟨0, _⟩ => show win4_1.index t (0 : Fin 2) * 192 + 1 * (y 0).val = (y 0).val; omega
  | ⟨1, _⟩ => show win4_1.index t (1 : Fin 2) * 192 + 1 * (y 1).val = (y 1).val; omega

/-- The first bias's block at any point is the whole array. -/
theorem wblk4_2 (c : Dev nD) (t : Fin cfg4.N) : (iblk4 V c 2 t : S192.Idx → EReal) = V c main_arg19 := by
  obtain ⟨-, -, -, -, e0, -⟩ := idx_facts4 t
  funext y
  show V c main_arg19 (((cfg4.win 2).blk t).view.emb y) = V c main_arg19 y
  refine congrArg (V c main_arg19) (funext fun a => Fin.ext ?_)
  match a with
  | ⟨0, _⟩ => show win4_2.index t (0 : Fin 1) * 192 + 1 * (y 0).val = (y 0).val; omega

/-- The second weight matrix's block at any point is the whole array. -/
theorem wblk4_3 (c : Dev nD) (t : Fin cfg4.N) : (iblk4 V c 3 t : S192x192.Idx → EReal) = V c main_arg20 := by
  obtain ⟨-, -, -, -, -, e0, e1, -⟩ := idx_facts4 t
  funext y
  show V c main_arg20 (((cfg4.win 3).blk t).view.emb y) = V c main_arg20 y
  refine congrArg (V c main_arg20) (funext fun a => Fin.ext ?_)
  match a with
  | ⟨0, _⟩ => show win4_3.index t (0 : Fin 2) * 192 + 1 * (y 0).val = (y 0).val; omega
  | ⟨1, _⟩ => show win4_3.index t (1 : Fin 2) * 192 + 1 * (y 1).val = (y 1).val; omega

/-- The second bias's block at any point is the whole array. -/
theorem wblk4_4 (c : Dev nD) (t : Fin cfg4.N) : (iblk4 V c 4 t : S192.Idx → EReal) = V c main_arg21 := by
  obtain ⟨-, -, -, -, -, -, -, e0, -⟩ := idx_facts4 t
  funext y
  show V c main_arg21 (((cfg4.win 4).blk t).view.emb y) = V c main_arg21 y
  refine congrArg (V c main_arg21) (funext fun a => Fin.ext ?_)
  match a with
  | ⟨0, _⟩ => show win4_4.index t (0 : Fin 1) * 192 + 1 * (y 0).val = (y 0).val; omega

/-- Row p of the features' block at point t is the features array's row under row p of the output's block there. -/
theorem row_eq4 (c : Dev nD) (t : Fin cfg4.N) (p : Fin 4000) (q : Fin 192) (k : Fin 192) :
    iblk4 V c 0 t (ix2 p k) = V c main_v37 (ix2 ((((cfg4.win 5).blk t).view.emb (ix2 p q)) 0) k) := by
  obtain ⟨e00, e01, -, -, -, -, -, -, e50, e51⟩ := idx_facts4 t
  show V c main_v37 (((cfg4.win 0).blk t).view.emb (ix2 p k)) = _
  refine congrArg (V c main_v37) (funext fun a => Fin.ext ?_)
  match a with
  | ⟨0, _⟩ =>
    show win4_0.index t (0 : Fin 2) * 4000 + 1 * p.val = win4_5.index t (0 : Fin 2) * 4000 + 1 * p.val
    omega
  | ⟨1, _⟩ => show win4_0.index t (1 : Fin 2) * 192 + 1 * k.val = k.val; omega

/-- Column q of the output's block is column q of the output array. -/
theorem col_eq4 (t : Fin cfg4.N) (p : Fin 4000) (q : Fin 192) :
    q = (((cfg4.win 5).blk t).view.emb (ix2 p q)) 1 := by
  obtain ⟨-, -, -, -, -, -, -, -, -, e51⟩ := idx_facts4 t
  refine Fin.ext ?_
  show q.val = win4_5.index t (1 : Fin 2) * 192 + 1 * q.val
  omega

/-- What point t writes back is block t of the function above. -/
theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  funext j
  obtain ⟨p, q, rfl⟩ : ∃ (p : Fin 4000) (q : Fin 192), j = ix2 p q := ⟨j 0, j 1, eq_ix2 j⟩
  show out4_5 (iblk4 V c 0 t) (iblk4 V c 1 t) (iblk4 V c 2 t) (iblk4 V c 3 t) (iblk4 V c 4 t) (ix2 p q)
      = Cert.Spec.mlpAt (V c main_v37) (V c main_arg18) (V c main_arg19) (V c main_arg20) (V c main_arg21)
          ((((cfg4.win 5).blk t).view.emb (ix2 p q)) 0) ((((cfg4.win 5).blk t).view.emb (ix2 p q)) 1)
  refine (out4_apply (iblk4 V c 0 t) (iblk4 V c 1 t) (iblk4 V c 2 t) (iblk4 V c 3 t) (iblk4 V c 4 t) p q).trans ?_
  exact Cert.MlpPay.mlpAt_blocks (iblk4 V c 0 t) (V c main_v37) (iblk4 V c 1 t) (V c main_arg18) (iblk4 V c 2 t) (V c main_arg19)
    (iblk4 V c 3 t) (V c main_arg20) (iblk4 V c 4 t) (V c main_arg21) p _ q _
    (fun k => row_eq4 V c t p q k) (wblk4_1 V c t) (wblk4_2 V c t) (wblk4_3 V c t) (wblk4_4 V c t) (col_eq4 t p q)

/-- An index of the output array is in point t's block iff each coordinate is in the block's range on its axis. -/
theorem mem_blk4 (t : Fin cfg4.N) (i : S200000x192.Idx) :
    i ∈ ((cfg4.win 5).blk t).view.set ↔ ∀ a : Fin 2, win4_5.index t a * S4000x192.size a ≤ (i a).val
      ∧ (i a).val < win4_5.index t a * S4000x192.size a + S4000x192.size a := by
  show i ∈ ((View.whole main_v38).slice (win4_5.rect t)).set ↔ _
  rw [View.set_slice_whole, Rect.mem_set_unit]
  exact Iff.rfl

/-- Every index of the output array is in some point's block: row r is in block r / 4000. -/
theorem cover4 (i : S200000x192.Idx) :
    ∃ t : Fin cfg4.N, (cfg4.win 5).flush t = true ∧ i ∈ ((cfg4.win 5).blk t).view.set := by
  have hi0 : (i 0).val < 200000 := (i 0).isLt
  have hi1 : (i 1).val < 192 := (i 1).isLt
  obtain ⟨t, ht⟩ : ∃ t : Fin cfg4.N, t.val = (i 0).val / 4000 :=
    ⟨⟨(i 0).val / 4000, by show _ < grid4.N; rw [N_4]; omega⟩, rfl⟩
  obtain ⟨-, -, -, -, -, -, -, -, e50, e51⟩ := idx_facts4 t
  refine ⟨t, flush4_5 t, ?_⟩
  rw [mem_blk4]
  intro a
  match a with
  | ⟨0, _⟩ =>
    show win4_5.index t (0 : Fin 2) * 4000 ≤ (i 0).val ∧ (i 0).val < win4_5.index t (0 : Fin 2) * 4000 + 4000
    omega
  | ⟨1, _⟩ =>
    show win4_5.index t (1 : Fin 2) * 192 ≤ (i 1).val ∧ (i 1).val < win4_5.index t (1 : Fin 2) * 192 + 192
    omega

/-- THE REGION'S VALUE: after the region, entry (i, n) of the output array is the perceptron of row i of the features
    array with the region's weights and biases. -/
theorem out_eq4 (c : Dev nD) (i : Fin 200000) (n : Fin 192) :
    (Cert.KernelIdeal.Fr.dat4 (F := Ideal) V c).arrAt 5 cfg4.N (ValueIdx.ix2 i n)
      = Cert.Spec.mlpAt (V c main_v37) (V c main_arg18) (V c main_arg19) (V c main_arg20) (V c main_arg21) i n :=
  congrFun ((dat4 V c).arrAt_eq_of_cover 5 (G4 V c) (fun t _ => flushed4_eq V c t) (cover4)) (ix2 i n)

end Cert.KernelIdeal.Val

end
-- ==== Proof.KI.MlpVal5.lean ====
/-
  The value of perceptron region 5 at exact arithmetic.

  The region walks the 200000 rows of the features array in 50 blocks of 4000 rows; at each block it reads the two
  weight matrices and the two biases whole, computes relu(x·W1 + b1)·W2 + b2 for the block's rows, and writes the
  result to the same rows of the output array.  Entry (i, n) of the output therefore depends on row i of the features
  only, and the whole output array is, row by row, the perceptron of the features array:
      out(i, n) = Σ_h max (Σ_k x(i,k)·W1(k,h) + b1(h), 0) · W2(h,n) + b2(n).
-/
import proofs.«131809_j79121887527265_1_alg».proof.Proof.KI.Mlp5
import proofs.«131809_j79121887527265_1_alg».proof.Proof.KI.MlpPay
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.MlpPay (hz1 hz2)

-- the TensorCore's buffer contents when the region is entered
variable (V : (c : Dev nD) → (b : Ref sig .tc) → Buf (Elt Ideal) ((c : Thread nD τ).loc b))

/-- The value the body stores, at (p, q), over any five blocks: the perceptron of the blocks. -/
theorem pay5_apply (x0 : Vec Ideal S4000x224 .f32) (x1 : Vec Ideal S224x128 .f32) (x2 : Vec Ideal S128 .f32)
    (x3 : Vec Ideal S128x64 .f32) (x4 : Vec Ideal S64 .f32) (p : Fin 4000) (q : Fin 64) :
    k5_pay1 (F := Ideal) x0 x1 x2 x3 x4 (ix2 p q) = Cert.Spec.mlpAt x0 x1 x2 x3 x4 p q := by
  unfold k5_pay1
  exact Cert.MlpPay.unit_mlp_apply _ rfl rfl rfl rfl rfl rfl _ rfl rfl rfl rfl rfl rfl x0 x1 x2 x3 x4 _ _ _ _ _ _ p q

/-- What the body leaves in the output buffer, at (p, q): its one store is through the whole buffer, of the value above
    of the five whole loads. -/
theorem out5_apply (x0 : Vec Ideal S4000x224 .f32) (x1 : Vec Ideal S224x128 .f32) (x2 : Vec Ideal S128 .f32)
    (x3 : Vec Ideal S128x64 .f32) (x4 : Vec Ideal S64 .f32) (p : Fin 4000) (q : Fin 64) :
    out5_5 x0 x1 x2 x3 x4 (ix2 p q) = Cert.Spec.mlpAt x0 x1 x2 x3 x4 p q := by
  unfold out5_5
  rw [View.canon_unit_zero hz2]
  simp only [View.ld_unit_zero (S := S4000x224) hz2, View.ld_unit_zero (S := S224x128) hz2, View.ld_unit_zero (S := S128) hz1,
    View.ld_unit_zero (S := S128x64) hz2, View.ld_unit_zero (S := S64) hz1]
  exact pay5_apply x0 x1 x2 x3 x4 p q

/-- The output array as one function of the arrays the region finds: row i, column n is the perceptron of row i of the
    features. -/
abbrev G5 (c : Dev nD) : S200000x64.Idx → EReal := fun idx =>
  Cert.Spec.mlpAt (V c main_v106) (V c main_arg22) (V c main_arg23) (V c main_arg24) (V c main_arg25) (idx 0) (idx 1)

/-- The windows' block indices, decided over the 50 points: the features' and the output's blocks are block t of their
    rows and the whole width; the weights' and biases' block is always the whole array. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- The first weight matrix's block at any point is the whole array. -/
theorem wblk5_1 (c : Dev nD) (t : Fin cfg5.N) : (iblk5 V c 1 t : S224x128.Idx → EReal) = V c main_arg22 := by
  obtain ⟨-, -, e0, e1, -⟩ := idx_facts5 t
  funext y
  show V c main_arg22 (((cfg5.win 1).blk t).view.emb y) = V c main_arg22 y
  refine congrArg (V c main_arg22) (funext fun a => Fin.ext ?_)
  match a with
  | ⟨0, _⟩ => show win5_1.index t (0 : Fin 2) * 224 + 1 * (y 0).val = (y 0).val; omega
  | ⟨1, _⟩ => show win5_1.index t (1 : Fin 2) * 128 + 1 * (y 1).val = (y 1).val; omega

/-- The first bias's block at any point is the whole array. -/
theorem wblk5_2 (c : Dev nD) (t : Fin cfg5.N) : (iblk5 V c 2 t : S128.Idx → EReal) = V c main_arg23 := by
  obtain ⟨-, -, -, -, e0, -⟩ := idx_facts5 t
  funext y
  show V c main_arg23 (((cfg5.win 2).blk t).view.emb y) = V c main_arg23 y
  refine congrArg (V c main_arg23) (funext fun a => Fin.ext ?_)
  match a with
  | ⟨0, _⟩ => show win5_2.index t (0 : Fin 1) * 128 + 1 * (y 0).val = (y 0).val; omega

/-- The second weight matrix's block at any point is the whole array. -/
theorem wblk5_3 (c : Dev nD) (t : Fin cfg5.N) : (iblk5 V c 3 t : S128x64.Idx → EReal) = V c main_arg24 := by
  obtain ⟨-, -, -, -, -, e0, e1, -⟩ := idx_facts5 t
  funext y
  show V c main_arg24 (((cfg5.win 3).blk t).view.emb y) = V c main_arg24 y
  refine congrArg (V c main_arg24) (funext fun a => Fin.ext ?_)
  match a with
  | ⟨0, _⟩ => show win5_3.index t (0 : Fin 2) * 128 + 1 * (y 0).val = (y 0).val; omega
  | ⟨1, _⟩ => show win5_3.index t (1 : Fin 2) * 64 + 1 * (y 1).val = (y 1).val; omega

/-- The second bias's block at any point is the whole array. -/
theorem wblk5_4 (c : Dev nD) (t : Fin cfg5.N) : (iblk5 V c 4 t : S64.Idx → EReal) = V c main_arg25 := by
  obtain ⟨-, -, -, -, -, -, -, e0, -⟩ := idx_facts5 t
  funext y
  show V c main_arg25 (((cfg5.win 4).blk t).view.emb y) = V c main_arg25 y
  refine congrArg (V c main_arg25) (funext fun a => Fin.ext ?_)
  match a with
  | ⟨0, _⟩ => show win5_4.index t (0 : Fin 1) * 64 + 1 * (y 0).val = (y 0).val; omega

/-- Row p of the features' block at point t is the features array's row under row p of the output's block there. -/
theorem row_eq5 (c : Dev nD) (t : Fin cfg5.N) (p : Fin 4000) (q : Fin 64) (k : Fin 224) :
    iblk5 V c 0 t (ix2 p k) = V c main_v106 (ix2 ((((cfg5.win 5).blk t).view.emb (ix2 p q)) 0) k) := by
  obtain ⟨e00, e01, -, -, -, -, -, -, e50, e51⟩ := idx_facts5 t
  show V c main_v106 (((cfg5.win 0).blk t).view.emb (ix2 p k)) = _
  refine congrArg (V c main_v106) (funext fun a => Fin.ext ?_)
  match a with
  | ⟨0, _⟩ =>
    show win5_0.index t (0 : Fin 2) * 4000 + 1 * p.val = win5_5.index t (0 : Fin 2) * 4000 + 1 * p.val
    omega
  | ⟨1, _⟩ => show win5_0.index t (1 : Fin 2) * 224 + 1 * k.val = k.val; omega

/-- Column q of the output's block is column q of the output array. -/
theorem col_eq5 (t : Fin cfg5.N) (p : Fin 4000) (q : Fin 64) :
    q = (((cfg5.win 5).blk t).view.emb (ix2 p q)) 1 := by
  obtain ⟨-, -, -, -, -, -, -, -, -, e51⟩ := idx_facts5 t
  refine Fin.ext ?_
  show q.val = win5_5.index t (1 : Fin 2) * 64 + 1 * q.val
  omega

/-- What point t writes back is block t of the function above. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  funext j
  obtain ⟨p, q, rfl⟩ : ∃ (p : Fin 4000) (q : Fin 64), j = ix2 p q := ⟨j 0, j 1, eq_ix2 j⟩
  show out5_5 (iblk5 V c 0 t) (iblk5 V c 1 t) (iblk5 V c 2 t) (iblk5 V c 3 t) (iblk5 V c 4 t) (ix2 p q)
      = Cert.Spec.mlpAt (V c main_v106) (V c main_arg22) (V c main_arg23) (V c main_arg24) (V c main_arg25)
          ((((cfg5.win 5).blk t).view.emb (ix2 p q)) 0) ((((cfg5.win 5).blk t).view.emb (ix2 p q)) 1)
  refine (out5_apply (iblk5 V c 0 t) (iblk5 V c 1 t) (iblk5 V c 2 t) (iblk5 V c 3 t) (iblk5 V c 4 t) p q).trans ?_
  exact Cert.MlpPay.mlpAt_blocks (iblk5 V c 0 t) (V c main_v106) (iblk5 V c 1 t) (V c main_arg22) (iblk5 V c 2 t) (V c main_arg23)
    (iblk5 V c 3 t) (V c main_arg24) (iblk5 V c 4 t) (V c main_arg25) p _ q _
    (fun k => row_eq5 V c t p q k) (wblk5_1 V c t) (wblk5_2 V c t) (wblk5_3 V c t) (wblk5_4 V c t) (col_eq5 t p q)

/-- An index of the output array is in point t's block iff each coordinate is in the block's range on its axis. -/
theorem mem_blk5 (t : Fin cfg5.N) (i : S200000x64.Idx) :
    i ∈ ((cfg5.win 5).blk t).view.set ↔ ∀ a : Fin 2, win5_5.index t a * S4000x64.size a ≤ (i a).val
      ∧ (i a).val < win5_5.index t a * S4000x64.size a + S4000x64.size a := by
  show i ∈ ((View.whole main_v107).slice (win5_5.rect t)).set ↔ _
  rw [View.set_slice_whole, Rect.mem_set_unit]
  exact Iff.rfl

/-- Every index of the output array is in some point's block: row r is in block r / 4000. -/
theorem cover5 (i : S200000x64.Idx) :
    ∃ t : Fin cfg5.N, (cfg5.win 5).flush t = true ∧ i ∈ ((cfg5.win 5).blk t).view.set := by
  have hi0 : (i 0).val < 200000 := (i 0).isLt
  have hi1 : (i 1).val < 64 := (i 1).isLt
  obtain ⟨t, ht⟩ : ∃ t : Fin cfg5.N, t.val = (i 0).val / 4000 :=
    ⟨⟨(i 0).val / 4000, by show _ < grid5.N; rw [N_5]; omega⟩, rfl⟩
  obtain ⟨-, -, -, -, -, -, -, -, e50, e51⟩ := idx_facts5 t
  refine ⟨t, flush5_5 t, ?_⟩
  rw [mem_blk5]
  intro a
  match a with
  | ⟨0, _⟩ =>
    show win5_5.index t (0 : Fin 2) * 4000 ≤ (i 0).val ∧ (i 0).val < win5_5.index t (0 : Fin 2) * 4000 + 4000
    omega
  | ⟨1, _⟩ =>
    show win5_5.index t (1 : Fin 2) * 64 ≤ (i 1).val ∧ (i 1).val < win5_5.index t (1 : Fin 2) * 64 + 64
    omega

/-- THE REGION'S VALUE: after the region, entry (i, n) of the output array is the perceptron of row i of the features
    array with the region's weights and biases. -/
theorem out_eq5 (c : Dev nD) (i : Fin 200000) (n : Fin 64) :
    (Cert.KernelIdeal.Fr.dat5 (F := Ideal) V c).arrAt 5 cfg5.N (ValueIdx.ix2 i n)
      = Cert.Spec.mlpAt (V c main_v106) (V c main_arg22) (V c main_arg23) (V c main_arg24) (V c main_arg25) i n :=
  congrFun ((dat5 V c).arrAt_eq_of_cover 5 (G5 V c) (fun t _ => flushed5_eq V c t) (cover5)) (ix2 i n)

end Cert.KernelIdeal.Val

end
-- ==== Proof.RefRead.lean ====
/-
  The reference program's result read at an index.

  The reference computes, on the host: the graph embedding emb(j) = log(Σ_i exp((x(i,j) − off(j))·8))/8 + off(j) with
  off(j) the column maximum of the node states x; for each of the four relations the rows of x gathered by the relation's
  index (a negative index wrapped by adding the number of nodes), laid out as one row per tuple, put through that
  relation's two-layer perceptron; the overall maximum of the four perceptron outputs; the four outputs, shifted by that
  maximum, scaled by 8 and exponentiated, scatter-added by the same indices into an array filled with a tiny positive
  constant; the logarithm of that over 8 plus the maximum; then the concatenation, along the feature axis, of the extra
  state vector repeated on every row, the embedding repeated on every row, the aggregated messages and the node states;
  and finally the update perceptron applied to that feature array.

  Here the pieces are named as functions of the arrays they read — the gathered inputs, and the feature array as ONE
  function of the embedding, the four perceptron outputs and the arguments — and the reference's result and its four
  relation outputs are read at an index as the perceptron function of the specification applied to those pieces.  The
  feature array's function is never opened: whoever produces the same embedding and the same four outputs gets the same
  features.
-/
import proofs.«131809_j79121887527265_1_alg».proof.Proof.Gen.ReferenceIdeal.Run
import proofs.«131809_j79121887527265_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-! ## The gathered inputs of the four relation perceptrons -/

/-- Relation 0: row t is the node-state row named by entry t of the index (wrapped when negative). -/
def gIn0 (ns : (⟨S200000x64, .f32⟩ : BufTy).Contents (Elt F)) (idx : (⟨S200000, .i32⟩ : BufTy).Contents (Elt F)) : (⟨S200000x64, .f32⟩ : BufTy).Contents (Elt F) :=
  Host.gather gather_S200000x64_S200000x1_S200000x64_1_0_n_n_0_1_164 ns (broadcastInDim S200000x1 ![0] bcast_S200000_S200000x1_0 (select (cmpi .slt idx (broadcastInDim S200000 ![] bcast_S_S200000 (constantI S_ 32 0#32))) (addi idx (broadcastInDim S200000 ![] bcast_S_S200000 (constantI S_ 32 200000#32))) idx))

/-- Relations 1 and 2 (two nodes per tuple): the 400000 gathered rows laid out as 200000 rows of 128. -/
def gIn1 (ns : (⟨S200000x64, .f32⟩ : BufTy).Contents (Elt F)) (idx : (⟨S400000, .i32⟩ : BufTy).Contents (Elt F)) : (⟨S200000x128, .f32⟩ : BufTy).Contents (Elt F) :=
  shapeCast S200000x128 (Host.gather gather_S200000x64_S400000x1_S400000x64_1_0_n_n_0_1_164 ns (broadcastInDim S400000x1 ![0] bcast_S400000_S400000x1_0 (select (cmpi .slt idx (broadcastInDim S400000 ![] bcast_S_S400000 (constantI S_ 32 0#32))) (addi idx (broadcastInDim S400000 ![] bcast_S_S400000 (constantI S_ 32 200000#32))) idx))) shapeCasts_S400000x64_S200000x128

/-- Relation 2 has relation 1's extents: the same function of its own index. -/
def gIn2 (ns : (⟨S200000x64, .f32⟩ : BufTy).Contents (Elt F)) (idx : (⟨S400000, .i32⟩ : BufTy).Contents (Elt F)) : (⟨S200000x128, .f32⟩ : BufTy).Contents (Elt F) :=
  shapeCast S200000x128 (Host.gather gather_S200000x64_S400000x1_S400000x64_1_0_n_n_0_1_164 ns (broadcastInDim S400000x1 ![0] bcast_S400000_S400000x1_0 (select (cmpi .slt idx (broadcastInDim S400000 ![] bcast_S_S400000 (constantI S_ 32 0#32))) (addi idx (broadcastInDim S400000 ![] bcast_S_S400000 (constantI S_ 32 200000#32))) idx))) shapeCasts_S400000x64_S200000x128

/-- Relation 3 (three nodes per tuple): the 600000 gathered rows laid out as 200000 rows of 192. -/
def gIn3 (ns : (⟨S200000x64, .f32⟩ : BufTy).Contents (Elt F)) (idx : (⟨S600000, .i32⟩ : BufTy).Contents (Elt F)) : (⟨S200000x192, .f32⟩ : BufTy).Contents (Elt F) :=
  shapeCast S200000x192 (Host.gather gather_S200000x64_S600000x1_S600000x64_1_0_n_n_0_1_164 ns (broadcastInDim S600000x1 ![0] bcast_S600000_S600000x1_0 (select (cmpi .slt idx (broadcastInDim S600000 ![] bcast_S_S600000 (constantI S_ 32 0#32))) (addi idx (broadcastInDim S600000 ![] bcast_S_S600000 (constantI S_ 32 200000#32))) idx))) shapeCasts_S600000x64_S200000x192

/-! ## The reference's own embedding and relation outputs, as it computes them -/

/-- The reference's graph embedding, an array of extent 64. -/
def refEmb (V0 : Valuation τ sig (Elt F)) : (⟨S64, .f32⟩ : BufTy).Contents (Elt F) :=
  addf (Host.divf (Host.log (Host.reduceAdd (Host.exp (mulf (subf (V0 (Proc.devRef .tc main_arg0)) (broadcastInDim S200000x64 ![0, 1] bcast_S1x64_S200000x64_0_1 (broadcastInDim S1x64 ![1] bcast_S64_S1x64_1 (Value.res_main_v0 V0)))) (broadcastInDim S200000x64 ![] bcast_S_S200000x64 (constant S_ .f32 0x41000000#32)))) (constant S_ .f32 0x00000000#32) reducesTo_S200000x64_S64_d0 h_S_)) (broadcastInDim S64 ![] bcast_S_S64 (constant S_ .f32 0x41000000#32))) (Value.res_main_v0 V0)

/-- The reference's output of relation 0's perceptron, one row per tuple. -/
def refOut1 (V0 : Valuation τ sig (Elt F)) : (⟨S200000x64, .f32⟩ : BufTy).Contents (Elt F) := Value.res_main_v28 V0

/-- The reference's output of relation 1's perceptron, one row of 128 per tuple (before it is laid out again as rows of 64). -/
def refOut2 (V0 : Valuation τ sig (Elt F)) : (⟨S200000x128, .f32⟩ : BufTy).Contents (Elt F) :=
  addf (Host.dotGeneral dot_S200000x128_S128x128_S200000x128_1_0_0_1_n_n none (maximumf (addf (Host.dotGeneral dot_S200000x128_S128x128_S200000x128_1_0_0_1_n_n none (shapeCast _ (Host.gather gather_S200000x64_S400000x1_S400000x64_1_0_n_n_0_1_164 (V0 (Proc.devRef .tc main_arg0)) (broadcastInDim S400000x1 ![0] bcast_S400000_S400000x1_0 (select (cmpi .slt (V0 (Proc.devRef .tc main_arg3)) (broadcastInDim S400000 ![] bcast_S_S400000 (constantI S_ 32 0#32))) (addi (V0 (Proc.devRef .tc main_arg3)) (broadcastInDim S400000 ![] bcast_S_S400000 (constantI S_ 32 200000#32))) (V0 (Proc.devRef .tc main_arg3))))) shapeCasts_S400000x64_S200000x128) (V0 (Proc.devRef .tc main_arg10))) (broadcastInDim S200000x128 ![0, 1] bcast_S1x128_S200000x128_0_1 (broadcastInDim S1x128 ![1] bcast_S128_S1x128_1 (V0 (Proc.devRef .tc main_arg11))))) (broadcastInDim S200000x128 ![] bcast_S_S200000x128 (constant S_ .f32 0x00000000#32))) (V0 (Proc.devRef .tc main_arg12))) (broadcastInDim S200000x128 ![0, 1] bcast_S1x128_S200000x128_0_1 (broadcastInDim S1x128 ![1] bcast_S128_S1x128_1 (V0 (Proc.devRef .tc main_arg13))))

/-- The reference's output of relation 2's perceptron, one row of 128 per tuple. -/
def refOut3 (V0 : Valuation τ sig (Elt F)) : (⟨S200000x128, .f32⟩ : BufTy).Contents (Elt F) :=
  addf (Host.dotGeneral dot_S200000x128_S128x128_S200000x128_1_0_0_1_n_n none (maximumf (addf (Host.dotGeneral dot_S200000x128_S128x128_S200000x128_1_0_0_1_n_n none (shapeCast _ (Host.gather gather_S200000x64_S400000x1_S400000x64_1_0_n_n_0_1_164 (V0 (Proc.devRef .tc main_arg0)) (broadcastInDim S400000x1 ![0] bcast_S400000_S400000x1_0 (select (cmpi .slt (V0 (Proc.devRef .tc main_arg4)) (broadcastInDim S400000 ![] bcast_S_S400000 (constantI S_ 32 0#32))) (addi (V0 (Proc.devRef .tc main_arg4)) (broadcastInDim S400000 ![] bcast_S_S400000 (constantI S_ 32 200000#32))) (V0 (Proc.devRef .tc main_arg4))))) shapeCasts_S400000x64_S200000x128) (V0 (Proc.devRef .tc main_arg14))) (broadcastInDim S200000x128 ![0, 1] bcast_S1x128_S200000x128_0_1 (broadcastInDim S1x128 ![1] bcast_S128_S1x128_1 (V0 (Proc.devRef .tc main_arg15))))) (broadcastInDim S200000x128 ![] bcast_S_S200000x128 (constant S_ .f32 0x00000000#32))) (V0 (Proc.devRef .tc main_arg16))) (broadcastInDim S200000x128 ![0, 1] bcast_S1x128_S200000x128_0_1 (broadcastInDim S1x128 ![1] bcast_S128_S1x128_1 (V0 (Proc.devRef .tc main_arg17))))

/-- The reference's output of relation 3's perceptron, one row of 192 per tuple. -/
def refOut4 (V0 : Valuation τ sig (Elt F)) : (⟨S200000x192, .f32⟩ : BufTy).Contents (Elt F) :=
  addf (Host.dotGeneral dot_S200000x192_S192x192_S200000x192_1_0_0_1_n_n none (maximumf (addf (Host.dotGeneral dot_S200000x192_S192x192_S200000x192_1_0_0_1_n_n none (shapeCast _ (Host.gather gather_S200000x64_S600000x1_S600000x64_1_0_n_n_0_1_164 (V0 (Proc.devRef .tc main_arg0)) (broadcastInDim S600000x1 ![0] bcast_S600000_S600000x1_0 (select (cmpi .slt (V0 (Proc.devRef .tc main_arg5)) (broadcastInDim S600000 ![] bcast_S_S600000 (constantI S_ 32 0#32))) (addi (V0 (Proc.devRef .tc main_arg5)) (broadcastInDim S600000 ![] bcast_S_S600000 (constantI S_ 32 200000#32))) (V0 (Proc.devRef .tc main_arg5))))) shapeCasts_S600000x64_S200000x192) (V0 (Proc.devRef .tc main_arg18))) (broadcastInDim S200000x192 ![0, 1] bcast_S1x192_S200000x192_0_1 (broadcastInDim S1x192 ![1] bcast_S192_S1x192_1 (V0 (Proc.devRef .tc main_arg19))))) (broadcastInDim S200000x192 ![] bcast_S_S200000x192 (constant S_ .f32 0x00000000#32))) (V0 (Proc.devRef .tc main_arg20))) (broadcastInDim S200000x192 ![0, 1] bcast_S1x192_S200000x192_0_1 (broadcastInDim S1x192 ![1] bcast_S192_S1x192_1 (V0 (Proc.devRef .tc main_arg21))))

theorem res_main_v47_eq (V0 : Valuation τ sig (Elt Ideal)) :
    Value.res_main_v47 V0 = shapeCast S400000x64 (refOut2 V0) shapeCasts_S200000x128_S400000x64 := rfl
theorem res_main_v66_eq (V0 : Valuation τ sig (Elt Ideal)) :
    Value.res_main_v66 V0 = shapeCast S400000x64 (refOut3 V0) shapeCasts_S200000x128_S400000x64 := rfl
theorem res_main_v85_eq (V0 : Valuation τ sig (Elt Ideal)) :
    Value.res_main_v85 V0 = shapeCast S600000x64 (refOut4 V0) shapeCasts_S200000x192_S600000x64 := rfl

/-! ## Each relation output at an index: the perceptron of the gathered input -/

theorem refOut1_apply (V0 : Valuation τ sig (Elt Ideal)) (i : Fin 200000) (n : Fin 64) :
    refOut1 V0 (ix2 i n) = Cert.Spec.mlpAt (gIn0 (V0 (Proc.devRef .tc main_arg0)) (V0 (Proc.devRef .tc main_arg2))) (V0 (Proc.devRef .tc main_arg6)) (V0 (Proc.devRef .tc main_arg7)) (V0 (Proc.devRef .tc main_arg8)) (V0 (Proc.devRef .tc main_arg9)) i n := by
  unfold refOut1 Value.res_main_v28
  exact Cert.Spec.host_mlp_apply dot_S200000x64_S64x64_S200000x64_1_0_0_1_n_n rfl rfl rfl rfl rfl rfl dot_S200000x64_S64x64_S200000x64_1_0_0_1_n_n rfl rfl rfl rfl rfl rfl
    (gIn0 (V0 (Proc.devRef .tc main_arg0)) (V0 (Proc.devRef .tc main_arg2))) (V0 (Proc.devRef .tc main_arg6)) (V0 (Proc.devRef .tc main_arg7)) (V0 (Proc.devRef .tc main_arg8)) (V0 (Proc.devRef .tc main_arg9))
    bcast_S64_S1x64_1 bcast_S1x64_S200000x64_0_1 bcast_S_S200000x64 bcast_S64_S1x64_1 bcast_S1x64_S200000x64_0_1 i n

theorem refOut2_apply (V0 : Valuation τ sig (Elt Ideal)) (i : Fin 200000) (n : Fin 128) :
    refOut2 V0 (ix2 i n) = Cert.Spec.mlpAt (gIn1 (V0 (Proc.devRef .tc main_arg0)) (V0 (Proc.devRef .tc main_arg3))) (V0 (Proc.devRef .tc main_arg10)) (V0 (Proc.devRef .tc main_arg11)) (V0 (Proc.devRef .tc main_arg12)) (V0 (Proc.devRef .tc main_arg13)) i n := by
  unfold refOut2
  exact Cert.Spec.host_mlp_apply dot_S200000x128_S128x128_S200000x128_1_0_0_1_n_n rfl rfl rfl rfl rfl rfl dot_S200000x128_S128x128_S200000x128_1_0_0_1_n_n rfl rfl rfl rfl rfl rfl
    (gIn1 (V0 (Proc.devRef .tc main_arg0)) (V0 (Proc.devRef .tc main_arg3))) (V0 (Proc.devRef .tc main_arg10)) (V0 (Proc.devRef .tc main_arg11)) (V0 (Proc.devRef .tc main_arg12)) (V0 (Proc.devRef .tc main_arg13))
    bcast_S128_S1x128_1 bcast_S1x128_S200000x128_0_1 bcast_S_S200000x128 bcast_S128_S1x128_1 bcast_S1x128_S200000x128_0_1 i n

theorem refOut3_apply (V0 : Valuation τ sig (Elt Ideal)) (i : Fin 200000) (n : Fin 128) :
    refOut3 V0 (ix2 i n) = Cert.Spec.mlpAt (gIn2 (V0 (Proc.devRef .tc main_arg0)) (V0 (Proc.devRef .tc main_arg4))) (V0 (Proc.devRef .tc main_arg14)) (V0 (Proc.devRef .tc main_arg15)) (V0 (Proc.devRef .tc main_arg16)) (V0 (Proc.devRef .tc main_arg17)) i n := by
  unfold refOut3
  exact Cert.Spec.host_mlp_apply dot_S200000x128_S128x128_S200000x128_1_0_0_1_n_n rfl rfl rfl rfl rfl rfl dot_S200000x128_S128x128_S200000x128_1_0_0_1_n_n rfl rfl rfl rfl rfl rfl
    (gIn2 (V0 (Proc.devRef .tc main_arg0)) (V0 (Proc.devRef .tc main_arg4))) (V0 (Proc.devRef .tc main_arg14)) (V0 (Proc.devRef .tc main_arg15)) (V0 (Proc.devRef .tc main_arg16)) (V0 (Proc.devRef .tc main_arg17))
    bcast_S128_S1x128_1 bcast_S1x128_S200000x128_0_1 bcast_S_S200000x128 bcast_S128_S1x128_1 bcast_S1x128_S200000x128_0_1 i n

theorem refOut4_apply (V0 : Valuation τ sig (Elt Ideal)) (i : Fin 200000) (n : Fin 192) :
    refOut4 V0 (ix2 i n) = Cert.Spec.mlpAt (gIn3 (V0 (Proc.devRef .tc main_arg0)) (V0 (Proc.devRef .tc main_arg5))) (V0 (Proc.devRef .tc main_arg18)) (V0 (Proc.devRef .tc main_arg19)) (V0 (Proc.devRef .tc main_arg20)) (V0 (Proc.devRef .tc main_arg21)) i n := by
  unfold refOut4
  exact Cert.Spec.host_mlp_apply dot_S200000x192_S192x192_S200000x192_1_0_0_1_n_n rfl rfl rfl rfl rfl rfl dot_S200000x192_S192x192_S200000x192_1_0_0_1_n_n rfl rfl rfl rfl rfl rfl
    (gIn3 (V0 (Proc.devRef .tc main_arg0)) (V0 (Proc.devRef .tc main_arg5))) (V0 (Proc.devRef .tc main_arg18)) (V0 (Proc.devRef .tc main_arg19)) (V0 (Proc.devRef .tc main_arg20)) (V0 (Proc.devRef .tc main_arg21))
    bcast_S192_S1x192_1 bcast_S1x192_S200000x192_0_1 bcast_S_S200000x192 bcast_S192_S1x192_1 bcast_S1x192_S200000x192_0_1 i n

/-! ## The feature array as one function of the embedding, the four outputs and the arguments -/

/-- The overall maximum of the four relation outputs (each laid out as rows of 64), from −∞. -/
def gmaxOf (o1 : (⟨S200000x64, .f32⟩ : BufTy).Contents (Elt F)) (o2 o3 : (⟨S200000x128, .f32⟩ : BufTy).Contents (Elt F)) (o4 : (⟨S200000x192, .f32⟩ : BufTy).Contents (Elt F)) : (⟨S_, .f32⟩ : BufTy).Contents (Elt F) :=
  Host.reduce FloatOps.maximumf (concatenate S4 0 [⟨S1, (broadcastInDim S1 ![] bcast_S_S1 (Host.reduce FloatOps.maximumf o1 (constant S_ .f32 0xFF800000#32) reducesTo_S200000x64_S_d0_1 h_S_))⟩, ⟨S1, (broadcastInDim S1 ![] bcast_S_S1 (Host.reduce FloatOps.maximumf (shapeCast S400000x64 o2 shapeCasts_S200000x128_S400000x64) (constant S_ .f32 0xFF800000#32) reducesTo_S400000x64_S_d0_1 h_S_))⟩, ⟨S1, (broadcastInDim S1 ![] bcast_S_S1 (Host.reduce FloatOps.maximumf (shapeCast S400000x64 o3 shapeCasts_S200000x128_S400000x64) (constant S_ .f32 0xFF800000#32) reducesTo_S400000x64_S_d0_1 h_S_))⟩, ⟨S1, (broadcastInDim S1 ![] bcast_S_S1 (Host.reduce FloatOps.maximumf (shapeCast S600000x64 o4 shapeCasts_S200000x192_S600000x64) (constant S_ .f32 0xFF800000#32) reducesTo_S600000x64_S_d0_1 h_S_))⟩] concatenates_S1_S1_S1_S1_S4_d0) (constant S_ .f32 0xFF800000#32) reducesTo_S4_S_d0 h_S_

/-- The update perceptron's input: on every row the extra state vector, the embedding, the aggregated messages and the
    node states, side by side (32 + 64 + 64 + 64 = 224 columns).  The aggregated messages are the logarithm, over 8, plus
    the overall maximum, of the tiny constant plus the scatter-added exponentials of 8·(output − maximum). -/
def featOf (emb : (⟨S64, .f32⟩ : BufTy).Contents (Elt F)) (o1 : (⟨S200000x64, .f32⟩ : BufTy).Contents (Elt F)) (o2 o3 : (⟨S200000x128, .f32⟩ : BufTy).Contents (Elt F)) (o4 : (⟨S200000x192, .f32⟩ : BufTy).Contents (Elt F))
    (ns : (⟨S200000x64, .f32⟩ : BufTy).Contents (Elt F)) (extra : (⟨S32, .f32⟩ : BufTy).Contents (Elt F)) (i0 : (⟨S200000, .i32⟩ : BufTy).Contents (Elt F)) (i1 i2 : (⟨S400000, .i32⟩ : BufTy).Contents (Elt F))
    (i3 : (⟨S600000, .i32⟩ : BufTy).Contents (Elt F)) : (⟨S200000x224, .f32⟩ : BufTy).Contents (Elt F) :=
  concatenate S200000x224 1 [⟨S200000x32, (broadcastInDim S200000x32 ![1] bcast_S32_S200000x32_1 extra)⟩, ⟨S200000x64, (broadcastInDim S200000x64 ![1] bcast_S64_S200000x64_1 emb)⟩, ⟨S200000x64, (addf (Host.divf (Host.log (Host.scatterAdd scatter_S200000x64_S600000x1_S600000x64_1_0_0_1 (Host.scatterAdd scatter_S200000x64_S400000x1_S400000x64_1_0_0_1 (Host.scatterAdd scatter_S200000x64_S400000x1_S400000x64_1_0_0_1 (Host.scatterAdd scatter_S200000x64_S200000x1_S200000x64_1_0_0_1 (broadcastInDim S200000x64 ![] bcast_S_S200000x64 (constant S_ .f32 0x24E69595#32)) (broadcastInDim S200000x1 ![0] bcast_S200000_S200000x1_0 (select (cmpi .slt i0 (broadcastInDim S200000 ![] bcast_S_S200000 (constantI S_ 32 0#32))) (addi i0 (broadcastInDim S200000 ![] bcast_S_S200000 (constantI S_ 32 200000#32))) i0)) (Host.exp (mulf (broadcastInDim S200000x64 ![] bcast_S_S200000x64 (constant S_ .f32 0x41000000#32)) (subf o1 (broadcastInDim S200000x64 ![] bcast_S_S200000x64 (gmaxOf o1 o2 o3 o4)))))) (broadcastInDim S400000x1 ![0] bcast_S400000_S400000x1_0 (select (cmpi .slt i1 (broadcastInDim S400000 ![] bcast_S_S400000 (constantI S_ 32 0#32))) (addi i1 (broadcastInDim S400000 ![] bcast_S_S400000 (constantI S_ 32 200000#32))) i1)) (Host.exp (mulf (broadcastInDim S400000x64 ![] bcast_S_S400000x64 (constant S_ .f32 0x41000000#32)) (subf (shapeCast S400000x64 o2 shapeCasts_S200000x128_S400000x64) (broadcastInDim S400000x64 ![] bcast_S_S400000x64 (gmaxOf o1 o2 o3 o4)))))) (broadcastInDim S400000x1 ![0] bcast_S400000_S400000x1_0 (select (cmpi .slt i2 (broadcastInDim S400000 ![] bcast_S_S400000 (constantI S_ 32 0#32))) (addi i2 (broadcastInDim S400000 ![] bcast_S_S400000 (constantI S_ 32 200000#32))) i2)) (Host.exp (mulf (broadcastInDim S400000x64 ![] bcast_S_S400000x64 (constant S_ .f32 0x41000000#32)) (subf (shapeCast S400000x64 o3 shapeCasts_S200000x128_S400000x64) (broadcastInDim S400000x64 ![] bcast_S_S400000x64 (gmaxOf o1 o2 o3 o4)))))) (broadcastInDim S600000x1 ![0] bcast_S600000_S600000x1_0 (select (cmpi .slt i3 (broadcastInDim S600000 ![] bcast_S_S600000 (constantI S_ 32 0#32))) (addi i3 (broadcastInDim S600000 ![] bcast_S_S600000 (constantI S_ 32 200000#32))) i3)) (Host.exp (mulf (broadcastInDim S600000x64 ![] bcast_S_S600000x64 (constant S_ .f32 0x41000000#32)) (subf (shapeCast S600000x64 o4 shapeCasts_S200000x192_S600000x64) (broadcastInDim S600000x64 ![] bcast_S_S600000x64 (gmaxOf o1 o2 o3 o4))))))) (broadcastInDim S200000x64 ![] bcast_S_S200000x64 (constant S_ .f32 0x41000000#32))) (broadcastInDim S200000x64 ![] bcast_S_S200000x64 (gmaxOf o1 o2 o3 o4)))⟩, ⟨S200000x64, ns⟩] concatenates_S200000x32_S200000x64_S200000x64_S200000x64_S200000x224_d1

/-- The reference's feature array is that function of its own embedding and outputs. -/
def refFeat (V0 : Valuation τ sig (Elt F)) : (⟨S200000x224, .f32⟩ : BufTy).Contents (Elt F) :=
  featOf (refEmb V0) (refOut1 V0) (refOut2 V0) (refOut3 V0) (refOut4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))

set_option maxHeartbeats 1000000 in
/-- The reference's result is the host's perceptron chain applied to the feature array. -/
theorem res_main_v162_eq (V0 : Valuation τ sig (Elt F)) :
    Value.res_main_v162 V0 =
      addf (Host.dotGeneral dot_S200000x128_S128x64_S200000x64_1_0_0_1_n_n none
            (maximumf (addf (Host.dotGeneral dot_S200000x224_S224x128_S200000x128_1_0_0_1_n_n none (refFeat V0) (V0 (Proc.devRef .tc main_arg22)))
                            (broadcastInDim S200000x128 ![0, 1] bcast_S1x128_S200000x128_0_1 (broadcastInDim S1x128 ![1] bcast_S128_S1x128_1 (V0 (Proc.devRef .tc main_arg23)))))
                      (broadcastInDim S200000x128 ![] bcast_S_S200000x128 (constant S_ .f32 0x00000000#32)))
            (V0 (Proc.devRef .tc main_arg24)))
          (broadcastInDim S200000x64 ![0, 1] bcast_S1x64_S200000x64_0_1 (broadcastInDim S1x64 ![1] bcast_S64_S1x64_1 (V0 (Proc.devRef .tc main_arg25)))) := rfl

/-- The reference's result at (i, n): the update perceptron of the feature array. -/
theorem res_main_v162_apply (V0 : Valuation τ sig (Elt Ideal)) (i : Fin 200000) (n : Fin 64) :
    Value.res_main_v162 V0 (ix2 i n)
      = Cert.Spec.mlpAt (refFeat V0) (V0 (Proc.devRef .tc main_arg22)) (V0 (Proc.devRef .tc main_arg23)) (V0 (Proc.devRef .tc main_arg24)) (V0 (Proc.devRef .tc main_arg25)) i n := by
  refine (congrFun (res_main_v162_eq V0) (ix2 i n)).trans ?_
  exact Cert.Spec.host_mlp_apply dot_S200000x224_S224x128_S200000x128_1_0_0_1_n_n rfl rfl rfl rfl rfl rfl dot_S200000x128_S128x64_S200000x64_1_0_0_1_n_n rfl rfl rfl rfl rfl rfl
    (refFeat V0) (V0 (Proc.devRef .tc main_arg22)) (V0 (Proc.devRef .tc main_arg23)) (V0 (Proc.devRef .tc main_arg24)) (V0 (Proc.devRef .tc main_arg25))
    bcast_S128_S1x128_1 bcast_S1x128_S200000x128_0_1 bcast_S_S200000x128 bcast_S64_S1x64_1 bcast_S1x64_S200000x64_0_1 i n

end Cert.ReferenceIdeal.RefValue

end
-- ==== Proof.Bridge.lean ====
import proofs.«131809_j79121887527265_1_alg».proof.Proof.KI.Args
import proofs.«131809_j79121887527265_1_alg».proof.Proof.KI.MlpVal1
import proofs.«131809_j79121887527265_1_alg».proof.Proof.KI.MlpVal2
import proofs.«131809_j79121887527265_1_alg».proof.Proof.KI.MlpVal3
import proofs.«131809_j79121887527265_1_alg».proof.Proof.KI.MlpVal4
import proofs.«131809_j79121887527265_1_alg».proof.Proof.KI.MlpVal5
import proofs.«131809_j79121887527265_1_alg».proof.Proof.RefRead
import proofs.«131809_j79121887527265_1_alg».proof.Proof.Spec
import Idealize.ShloMosaic.Lib.StableHlo.Run
import Idealize.ShloMosaic.Lib.ValueIdx

set_option maxRecDepth 16384

noncomputable section

/-! # The idealized kernel's result is the reference's

Both programs apply the same host operations (the wrap of negative indices, the row gathers, the four maxima, the
exponentials of the shifted messages, the four scatter-adds into the constant array, the logarithm, the concatenation of
the features). They differ in how six intermediate arrays are produced: the graph embedding (an online log-sum-exp over
twenty blocks of rows against one log-sum-exp over all rows) and five two-layer perceptrons (blocks of 4000 rows through
the matrix unit against one matrix product over all rows). This module walks the kernel's buffers from the launch to the
result, names each of those six arrays by the reference's own term, and carries the shared host operations unopened. -/

namespace Cert.Bridge

open Idealize.ShloMosaic Idealize.ShloMosaic.TcCoe Idealize.SL.Sem
open Cert.KernelIdeal Cert.KernelIdeal.Gen Cert.KernelIdeal.Fr
open Idealize.ShloMosaic.StableHlo
open Cert.ReferenceIdeal.RefValue (gIn0 gIn1 gIn2 gIn3 refEmb refOut1 refOut2 refOut3 refOut4 featOf refFeat)

variable (m : (ℓ : Loc nD τ sig) → Buf (Elt Ideal) ℓ) (ρ : Dev nD → PrngReg) (c : Dev nD)

/-! ## The gathered rows each perceptron reads -/

set_option maxHeartbeats 2000000 in
theorem gathered0 : W2 (F := Ideal) m ρ c (Proc.devRef .tc main_v8) = gIn0 (F := Ideal) (m ((c : Thread nD τ).loc main_arg0)) (m ((c : Thread nD τ).loc main_arg2)) := by
  rw [← W1_launch m ρ c main_arg0 (by decide), ← W1_launch m ρ c main_arg2 (by decide)]
  show StableHlo.after (hostOps1 (F := Ideal)) (W1 (F := Ideal) m ρ c) (Proc.devRef .tc main_v8) = _
  after_results
  rfl
set_option maxHeartbeats 2000000 in
theorem gathered1 : W4 (F := Ideal) m ρ c (Proc.devRef .tc main_v17) = gIn1 (F := Ideal) (m ((c : Thread nD τ).loc main_arg0)) (m ((c : Thread nD τ).loc main_arg3)) := by
  rw [← W3_launch m ρ c main_arg0 (by decide), ← W3_launch m ρ c main_arg3 (by decide)]
  show StableHlo.after (hostOps2 (F := Ideal)) (W3 (F := Ideal) m ρ c) (Proc.devRef .tc main_v17) = _
  after_results
  rfl
set_option maxHeartbeats 2000000 in
theorem gathered2 : W6 (F := Ideal) m ρ c (Proc.devRef .tc main_v27) = gIn2 (F := Ideal) (m ((c : Thread nD τ).loc main_arg0)) (m ((c : Thread nD τ).loc main_arg4)) := by
  rw [← W5_launch m ρ c main_arg0 (by decide), ← W5_launch m ρ c main_arg4 (by decide)]
  show StableHlo.after (hostOps3 (F := Ideal)) (W5 (F := Ideal) m ρ c) (Proc.devRef .tc main_v27) = _
  after_results
  rfl
set_option maxHeartbeats 2000000 in
theorem gathered3 : W8 (F := Ideal) m ρ c (Proc.devRef .tc main_v37) = gIn3 (F := Ideal) (m ((c : Thread nD τ).loc main_arg0)) (m ((c : Thread nD τ).loc main_arg5)) := by
  rw [← W7_launch m ρ c main_arg0 (by decide), ← W7_launch m ρ c main_arg5 (by decide)]
  show StableHlo.after (hostOps4 (F := Ideal)) (W7 (F := Ideal) m ρ c) (Proc.devRef .tc main_v37) = _
  after_results
  rfl

/-! ## Buffers written once and read by the last host stretch stay as written -/

theorem W3_main_v1 : W3 (F := Ideal) m ρ c (Proc.devRef .tc main_v1) = W2 (F := Ideal) m ρ c (Proc.devRef .tc main_v1) := W3_of_ne m ρ c main_v1 (by decide)
theorem W4_main_v1 : W4 (F := Ideal) m ρ c (Proc.devRef .tc main_v1) = W3 (F := Ideal) m ρ c (Proc.devRef .tc main_v1) := by
  show StableHlo.after (hostOps2 (F := Ideal)) (W3 (F := Ideal) m ρ c) (Proc.devRef .tc main_v1) = _
  after_results
theorem W5_main_v1 : W5 (F := Ideal) m ρ c (Proc.devRef .tc main_v1) = W4 (F := Ideal) m ρ c (Proc.devRef .tc main_v1) := W5_of_ne m ρ c main_v1 (by decide)
theorem W6_main_v1 : W6 (F := Ideal) m ρ c (Proc.devRef .tc main_v1) = W5 (F := Ideal) m ρ c (Proc.devRef .tc main_v1) := by
  show StableHlo.after (hostOps3 (F := Ideal)) (W5 (F := Ideal) m ρ c) (Proc.devRef .tc main_v1) = _
  after_results
theorem W7_main_v1 : W7 (F := Ideal) m ρ c (Proc.devRef .tc main_v1) = W6 (F := Ideal) m ρ c (Proc.devRef .tc main_v1) := W7_of_ne m ρ c main_v1 (by decide)
theorem W8_main_v1 : W8 (F := Ideal) m ρ c (Proc.devRef .tc main_v1) = W7 (F := Ideal) m ρ c (Proc.devRef .tc main_v1) := by
  show StableHlo.after (hostOps4 (F := Ideal)) (W7 (F := Ideal) m ρ c) (Proc.devRef .tc main_v1) = _
  after_results
theorem W9_main_v1 : W9 (F := Ideal) m ρ c (Proc.devRef .tc main_v1) = W8 (F := Ideal) m ρ c (Proc.devRef .tc main_v1) := W9_of_ne m ρ c main_v1 (by decide)
theorem W9_main_v1_eq : W9 (F := Ideal) m ρ c (Proc.devRef .tc main_v1) = W2 (F := Ideal) m ρ c (Proc.devRef .tc main_v1) := ((((((W9_main_v1 m ρ c).trans (W8_main_v1 m ρ c)).trans (W7_main_v1 m ρ c)).trans (W6_main_v1 m ρ c)).trans (W5_main_v1 m ρ c)).trans (W4_main_v1 m ρ c)).trans (W3_main_v1 m ρ c)

theorem W4_main_v9 : W4 (F := Ideal) m ρ c (Proc.devRef .tc main_v9) = W3 (F := Ideal) m ρ c (Proc.devRef .tc main_v9) := by
  show StableHlo.after (hostOps2 (F := Ideal)) (W3 (F := Ideal) m ρ c) (Proc.devRef .tc main_v9) = _
  after_results
theorem W5_main_v9 : W5 (F := Ideal) m ρ c (Proc.devRef .tc main_v9) = W4 (F := Ideal) m ρ c (Proc.devRef .tc main_v9) := W5_of_ne m ρ c main_v9 (by decide)
theorem W6_main_v9 : W6 (F := Ideal) m ρ c (Proc.devRef .tc main_v9) = W5 (F := Ideal) m ρ c (Proc.devRef .tc main_v9) := by
  show StableHlo.after (hostOps3 (F := Ideal)) (W5 (F := Ideal) m ρ c) (Proc.devRef .tc main_v9) = _
  after_results
theorem W7_main_v9 : W7 (F := Ideal) m ρ c (Proc.devRef .tc main_v9) = W6 (F := Ideal) m ρ c (Proc.devRef .tc main_v9) := W7_of_ne m ρ c main_v9 (by decide)
theorem W8_main_v9 : W8 (F := Ideal) m ρ c (Proc.devRef .tc main_v9) = W7 (F := Ideal) m ρ c (Proc.devRef .tc main_v9) := by
  show StableHlo.after (hostOps4 (F := Ideal)) (W7 (F := Ideal) m ρ c) (Proc.devRef .tc main_v9) = _
  after_results
theorem W9_main_v9 : W9 (F := Ideal) m ρ c (Proc.devRef .tc main_v9) = W8 (F := Ideal) m ρ c (Proc.devRef .tc main_v9) := W9_of_ne m ρ c main_v9 (by decide)
theorem W9_main_v9_eq : W9 (F := Ideal) m ρ c (Proc.devRef .tc main_v9) = W3 (F := Ideal) m ρ c (Proc.devRef .tc main_v9) := (((((W9_main_v9 m ρ c).trans (W8_main_v9 m ρ c)).trans (W7_main_v9 m ρ c)).trans (W6_main_v9 m ρ c)).trans (W5_main_v9 m ρ c)).trans (W4_main_v9 m ρ c)

theorem W7_main_v19 : W7 (F := Ideal) m ρ c (Proc.devRef .tc main_v19) = W6 (F := Ideal) m ρ c (Proc.devRef .tc main_v19) := W7_of_ne m ρ c main_v19 (by decide)
theorem W8_main_v19 : W8 (F := Ideal) m ρ c (Proc.devRef .tc main_v19) = W7 (F := Ideal) m ρ c (Proc.devRef .tc main_v19) := by
  show StableHlo.after (hostOps4 (F := Ideal)) (W7 (F := Ideal) m ρ c) (Proc.devRef .tc main_v19) = _
  after_results
theorem W9_main_v19 : W9 (F := Ideal) m ρ c (Proc.devRef .tc main_v19) = W8 (F := Ideal) m ρ c (Proc.devRef .tc main_v19) := W9_of_ne m ρ c main_v19 (by decide)
theorem W9_main_v19_eq : W9 (F := Ideal) m ρ c (Proc.devRef .tc main_v19) = W6 (F := Ideal) m ρ c (Proc.devRef .tc main_v19) := ((W9_main_v19 m ρ c).trans (W8_main_v19 m ρ c)).trans (W7_main_v19 m ρ c)

theorem W9_main_v29 : W9 (F := Ideal) m ρ c (Proc.devRef .tc main_v29) = W8 (F := Ideal) m ρ c (Proc.devRef .tc main_v29) := W9_of_ne m ρ c main_v29 (by decide)
theorem W9_main_v29_eq : W9 (F := Ideal) m ρ c (Proc.devRef .tc main_v29) = W8 (F := Ideal) m ρ c (Proc.devRef .tc main_v29) := W9_main_v29 m ρ c

/-- The second and third perceptrons' outputs are re-laid as [400000, 64] by the stretch that follows them. -/
theorem relaid2 : W6 (F := Ideal) m ρ c (Proc.devRef .tc main_v19) = shapeCast S400000x64 (W5 (F := Ideal) m ρ c (Proc.devRef .tc main_v18)) shapeCasts_S200000x128_S400000x64 := by
  show StableHlo.after (hostOps3 (F := Ideal)) (W5 (F := Ideal) m ρ c) (Proc.devRef .tc main_v19) = _
  after_results
  rfl
theorem relaid3 : W8 (F := Ideal) m ρ c (Proc.devRef .tc main_v29) = shapeCast S400000x64 (W7 (F := Ideal) m ρ c (Proc.devRef .tc main_v28)) shapeCasts_S200000x128_S400000x64 := by
  show StableHlo.after (hostOps4 (F := Ideal)) (W7 (F := Ideal) m ρ c) (Proc.devRef .tc main_v29) = _
  after_results
  rfl

/-! ## The reference's launch contents agree with the kernel's on the arguments -/

variable (V0' : Valuation Cert.ReferenceIdeal.τ Cert.ReferenceIdeal.sig (Elt Ideal))

set_option maxHeartbeats 8000000 in
/-- The reference is launched on the same argument arrays. -/
structure Agree : Prop where
  a0 : V0' (Proc.devRef .tc Cert.ReferenceIdeal.main_arg0) = m ((c : Thread nD τ).loc main_arg0)
  a1 : V0' (Proc.devRef .tc Cert.ReferenceIdeal.main_arg1) = m ((c : Thread nD τ).loc main_arg1)
  a2 : V0' (Proc.devRef .tc Cert.ReferenceIdeal.main_arg2) = m ((c : Thread nD τ).loc main_arg2)
  a3 : V0' (Proc.devRef .tc Cert.ReferenceIdeal.main_arg3) = m ((c : Thread nD τ).loc main_arg3)
  a4 : V0' (Proc.devRef .tc Cert.ReferenceIdeal.main_arg4) = m ((c : Thread nD τ).loc main_arg4)
  a5 : V0' (Proc.devRef .tc Cert.ReferenceIdeal.main_arg5) = m ((c : Thread nD τ).loc main_arg5)
  a6 : V0' (Proc.devRef .tc Cert.ReferenceIdeal.main_arg6) = m ((c : Thread nD τ).loc main_arg6)
  a7 : V0' (Proc.devRef .tc Cert.ReferenceIdeal.main_arg7) = m ((c : Thread nD τ).loc main_arg7)
  a8 : V0' (Proc.devRef .tc Cert.ReferenceIdeal.main_arg8) = m ((c : Thread nD τ).loc main_arg8)
  a9 : V0' (Proc.devRef .tc Cert.ReferenceIdeal.main_arg9) = m ((c : Thread nD τ).loc main_arg9)
  a10 : V0' (Proc.devRef .tc Cert.ReferenceIdeal.main_arg10) = m ((c : Thread nD τ).loc main_arg10)
  a11 : V0' (Proc.devRef .tc Cert.ReferenceIdeal.main_arg11) = m ((c : Thread nD τ).loc main_arg11)
  a12 : V0' (Proc.devRef .tc Cert.ReferenceIdeal.main_arg12) = m ((c : Thread nD τ).loc main_arg12)
  a13 : V0' (Proc.devRef .tc Cert.ReferenceIdeal.main_arg13) = m ((c : Thread nD τ).loc main_arg13)
  a14 : V0' (Proc.devRef .tc Cert.ReferenceIdeal.main_arg14) = m ((c : Thread nD τ).loc main_arg14)
  a15 : V0' (Proc.devRef .tc Cert.ReferenceIdeal.main_arg15) = m ((c : Thread nD τ).loc main_arg15)
  a16 : V0' (Proc.devRef .tc Cert.ReferenceIdeal.main_arg16) = m ((c : Thread nD τ).loc main_arg16)
  a17 : V0' (Proc.devRef .tc Cert.ReferenceIdeal.main_arg17) = m ((c : Thread nD τ).loc main_arg17)
  a18 : V0' (Proc.devRef .tc Cert.ReferenceIdeal.main_arg18) = m ((c : Thread nD τ).loc main_arg18)
  a19 : V0' (Proc.devRef .tc Cert.ReferenceIdeal.main_arg19) = m ((c : Thread nD τ).loc main_arg19)
  a20 : V0' (Proc.devRef .tc Cert.ReferenceIdeal.main_arg20) = m ((c : Thread nD τ).loc main_arg20)
  a21 : V0' (Proc.devRef .tc Cert.ReferenceIdeal.main_arg21) = m ((c : Thread nD τ).loc main_arg21)
  a22 : V0' (Proc.devRef .tc Cert.ReferenceIdeal.main_arg22) = m ((c : Thread nD τ).loc main_arg22)
  a23 : V0' (Proc.devRef .tc Cert.ReferenceIdeal.main_arg23) = m ((c : Thread nD τ).loc main_arg23)
  a24 : V0' (Proc.devRef .tc Cert.ReferenceIdeal.main_arg24) = m ((c : Thread nD τ).loc main_arg24)
  a25 : V0' (Proc.devRef .tc Cert.ReferenceIdeal.main_arg25) = m ((c : Thread nD τ).loc main_arg25)

/-! ## The four relation perceptrons -/

set_option maxHeartbeats 4000000 in
/-- Relation 0's perceptron output is the reference's: the same gathered rows through the same perceptron. -/
theorem out1 (A : Agree m c V0') : W3 (F := Ideal) m ρ c (Proc.devRef .tc main_v9) = refOut1 (F := Ideal) V0' := by
  funext idx
  obtain ⟨i, n, rfl⟩ : ∃ (i : Fin 200000) (n : Fin 64), idx = ValueIdx.ix2 i n := ⟨idx 0, idx 1, ValueIdx.eq_ix2 idx⟩
  rw [Cert.ReferenceIdeal.RefValue.refOut1_apply V0' i n, A.a0, A.a2, A.a6, A.a7, A.a8, A.a9]
  refine ((congrFun (W3_arr m ρ c 5) _).trans (Cert.KernelIdeal.Val.out_eq1 (V2 m ρ) c i n)).trans ?_
  show Cert.Spec.mlpAt (W2 (F := Ideal) m ρ c (Proc.devRef .tc main_v8)) (W2 (F := Ideal) m ρ c (Proc.devRef .tc main_arg6)) (W2 (F := Ideal) m ρ c (Proc.devRef .tc main_arg7)) (W2 (F := Ideal) m ρ c (Proc.devRef .tc main_arg8)) (W2 (F := Ideal) m ρ c (Proc.devRef .tc main_arg9)) i n = _
  rw [gathered0 m ρ c, W2_launch m ρ c main_arg6 (by decide), W2_launch m ρ c main_arg7 (by decide), W2_launch m ρ c main_arg8 (by decide), W2_launch m ρ c main_arg9 (by decide)]

set_option maxHeartbeats 4000000 in
/-- Relation 1's perceptron output is the reference's: the same gathered rows through the same perceptron. -/
theorem out2 (A : Agree m c V0') : W5 (F := Ideal) m ρ c (Proc.devRef .tc main_v18) = refOut2 (F := Ideal) V0' := by
  funext idx
  obtain ⟨i, n, rfl⟩ : ∃ (i : Fin 200000) (n : Fin 128), idx = ValueIdx.ix2 i n := ⟨idx 0, idx 1, ValueIdx.eq_ix2 idx⟩
  rw [Cert.ReferenceIdeal.RefValue.refOut2_apply V0' i n, A.a0, A.a3, A.a10, A.a11, A.a12, A.a13]
  refine ((congrFun (W5_arr m ρ c 5) _).trans (Cert.KernelIdeal.Val.out_eq2 (V4 m ρ) c i n)).trans ?_
  show Cert.Spec.mlpAt (W4 (F := Ideal) m ρ c (Proc.devRef .tc main_v17)) (W4 (F := Ideal) m ρ c (Proc.devRef .tc main_arg10)) (W4 (F := Ideal) m ρ c (Proc.devRef .tc main_arg11)) (W4 (F := Ideal) m ρ c (Proc.devRef .tc main_arg12)) (W4 (F := Ideal) m ρ c (Proc.devRef .tc main_arg13)) i n = _
  rw [gathered1 m ρ c, W4_launch m ρ c main_arg10 (by decide), W4_launch m ρ c main_arg11 (by decide), W4_launch m ρ c main_arg12 (by decide), W4_launch m ρ c main_arg13 (by decide)]

set_option maxHeartbeats 4000000 in
/-- Relation 2's perceptron output is the reference's: the same gathered rows through the same perceptron. -/
theorem out3 (A : Agree m c V0') : W7 (F := Ideal) m ρ c (Proc.devRef .tc main_v28) = refOut3 (F := Ideal) V0' := by
  funext idx
  obtain ⟨i, n, rfl⟩ : ∃ (i : Fin 200000) (n : Fin 128), idx = ValueIdx.ix2 i n := ⟨idx 0, idx 1, ValueIdx.eq_ix2 idx⟩
  rw [Cert.ReferenceIdeal.RefValue.refOut3_apply V0' i n, A.a0, A.a4, A.a14, A.a15, A.a16, A.a17]
  refine ((congrFun (W7_arr m ρ c 5) _).trans (Cert.KernelIdeal.Val.out_eq3 (V6 m ρ) c i n)).trans ?_
  show Cert.Spec.mlpAt (W6 (F := Ideal) m ρ c (Proc.devRef .tc main_v27)) (W6 (F := Ideal) m ρ c (Proc.devRef .tc main_arg14)) (W6 (F := Ideal) m ρ c (Proc.devRef .tc main_arg15)) (W6 (F := Ideal) m ρ c (Proc.devRef .tc main_arg16)) (W6 (F := Ideal) m ρ c (Proc.devRef .tc main_arg17)) i n = _
  rw [gathered2 m ρ c, W6_launch m ρ c main_arg14 (by decide), W6_launch m ρ c main_arg15 (by decide), W6_launch m ρ c main_arg16 (by decide), W6_launch m ρ c main_arg17 (by decide)]

set_option maxHeartbeats 4000000 in
/-- Relation 3's perceptron output is the reference's: the same gathered rows through the same perceptron. -/
theorem out4 (A : Agree m c V0') : W9 (F := Ideal) m ρ c (Proc.devRef .tc main_v38) = refOut4 (F := Ideal) V0' := by
  funext idx
  obtain ⟨i, n, rfl⟩ : ∃ (i : Fin 200000) (n : Fin 192), idx = ValueIdx.ix2 i n := ⟨idx 0, idx 1, ValueIdx.eq_ix2 idx⟩
  rw [Cert.ReferenceIdeal.RefValue.refOut4_apply V0' i n, A.a0, A.a5, A.a18, A.a19, A.a20, A.a21]
  refine ((congrFun (W9_arr m ρ c 5) _).trans (Cert.KernelIdeal.Val.out_eq4 (V8 m ρ) c i n)).trans ?_
  show Cert.Spec.mlpAt (W8 (F := Ideal) m ρ c (Proc.devRef .tc main_v37)) (W8 (F := Ideal) m ρ c (Proc.devRef .tc main_arg18)) (W8 (F := Ideal) m ρ c (Proc.devRef .tc main_arg19)) (W8 (F := Ideal) m ρ c (Proc.devRef .tc main_arg20)) (W8 (F := Ideal) m ρ c (Proc.devRef .tc main_arg21)) i n = _
  rw [gathered3 m ρ c, W8_launch m ρ c main_arg18 (by decide), W8_launch m ρ c main_arg19 (by decide), W8_launch m ρ c main_arg20 (by decide), W8_launch m ρ c main_arg21 (by decide)]

end Cert.Bridge

end
-- ==== Proof.FeatPieces.lean ====
/-
  The last host stretch, read piece by piece.

  Between the fourth relation perceptron and the update perceptron the host runs 87 operations: the overall maximum g of
  the four relation outputs; for each relation the exponentials exp (8·(output − g)) scatter-added, by the relation's
  wrapped node indices, into an array filled with a tiny constant; the logarithm of the result over 8, plus g; and the
  concatenation, along the feature axis, of the extra state vector and the graph embedding (each repeated on every row),
  those aggregated messages, and the node states.  The stretch is cut at three places: a head of 13 operations (the
  fourth output laid out as rows of 64 and the four outputs' maxima), a middle of 60 (g, the four exponentials, the
  first three scatter-adds, the fourth index test), and a tail of 14 (the last scatter-add, the logarithm, the
  concatenation).  For each piece, over ANY buffer contents V it starts from, each buffer a later piece reads is given
  as a term over V: either what the piece computes into it, or V's own contents when the piece does not write it.
  Composing the three readings, the feature buffer after the stretch is the reference's feature function of the arrays
  the stretch finds — the embedding, the four relation outputs and the argument arrays.
-/
import proofs.«131809_j79121887527265_1_alg».proof.Proof.Gen.KernelIdeal.Launch
import proofs.«131809_j79121887527265_1_alg».proof.Proof.RefRead
import Idealize.ShloMosaic.Lib.StableHlo.Run

set_option maxRecDepth 16384

noncomputable section

namespace Cert.FeatPieces

open Idealize.ShloMosaic Idealize.ShloMosaic.TcCoe Idealize.SL.Sem
open Cert.KernelIdeal Cert.KernelIdeal.Gen
open Idealize.ShloMosaic.StableHlo
open Cert.ReferenceIdeal.RefValue (featOf gmaxOf)

/-- Buffer contents of one core at exact arithmetic. -/
abbrev Vl := Valuation τ sig (Elt Ideal)

/-- The contents after two lines run one after the other. -/
theorem after_append (l₁ l₂ : List (HloOp τ sig (Elt Ideal))) (V : Vl) :
    StableHlo.after (l₁ ++ l₂) V = StableHlo.after l₂ (StableHlo.after l₁ V) := by
  induction l₁ generalizing V with
  | nil => rfl
  | cons op l ih => simp only [List.cons_append, after_cons, ih]

/-! ## The tail: 14 operations

The feature buffer after the tail, from the contents the tail finds: the last scatter-add into the running array, its
logarithm over 8 plus the overall maximum, between the repeated extra state, the repeated embedding and the node states. -/

set_option maxHeartbeats 400000 in
theorem part2_v106 (V : Vl) :
    StableHlo.after (main_part2_ops0 (F := Ideal)) V (Proc.devRef .tc main_v106)
      = concatenate S200000x224 1
          [⟨S200000x32, broadcastInDim S200000x32 ![1] bcast_S32_S200000x32_1 (V (Proc.devRef .tc main_arg1))⟩,
           ⟨S200000x64, broadcastInDim S200000x64 ![1] bcast_S64_S200000x64_1 (V (Proc.devRef .tc main_v1))⟩,
           ⟨S200000x64, addf (Host.divf (Host.log (Host.scatterAdd scatter_S200000x64_S600000x1_S600000x64_1_0_0_1
                (V (Proc.devRef .tc main_v86))
                (broadcastInDim S600000x1 ![0] bcast_S600000_S600000x1_0
                  (select (V (Proc.devRef .tc main_v93))
                    (addi (V (Proc.devRef .tc main_arg5)) (broadcastInDim S600000 ![] bcast_S_S600000 (V (Proc.devRef .tc main_c_23))))
                    (V (Proc.devRef .tc main_arg5))))
                (V (Proc.devRef .tc main_v91))))
              (broadcastInDim S200000x64 ![] bcast_S_S200000x64 (constant (F := Ideal) S_ .f32 0x41000000#32)))
              (broadcastInDim S200000x64 ![] bcast_S_S200000x64 (V (Proc.devRef .tc main_v49)))⟩,
           ⟨S200000x64, (V (Proc.devRef .tc main_arg0))⟩]
          concatenates_S200000x32_S200000x64_S200000x64_S200000x64_S200000x224_d1 := by
  dsimp only [main_part2_ops0]
  after_results_simp
  try rfl

/-! ## The middle: 60 operations

What the middle leaves in the five buffers the tail reads of it — the running array after three scatter-adds, the fourth
relation's exponentials, the fourth index's sign test, the node count, the overall maximum — and the four buffers it
passes through unwritten. -/

set_option maxHeartbeats 400000 in
theorem part1_v86 (V : Vl) :
    StableHlo.after (main_part1_ops0 (F := Ideal)) V (Proc.devRef .tc main_v86)
      = (Host.scatterAdd scatter_S200000x64_S400000x1_S400000x64_1_0_0_1 (Host.scatterAdd scatter_S200000x64_S400000x1_S400000x64_1_0_0_1 (Host.scatterAdd scatter_S200000x64_S200000x1_S200000x64_1_0_0_1 (broadcastInDim S200000x64 ![] bcast_S_S200000x64 (constant (F := Ideal) S_ .f32 0x24E69595#32)) (broadcastInDim S200000x1 ![0] bcast_S200000_S200000x1_0 (select (cmpi .slt (V (Proc.devRef .tc main_arg2)) (broadcastInDim S200000 ![] bcast_S_S200000 (constantI S_ 32 0#32))) (addi (V (Proc.devRef .tc main_arg2)) (broadcastInDim S200000 ![] bcast_S_S200000 (constantI S_ 32 200000#32))) (V (Proc.devRef .tc main_arg2)))) (Host.exp (mulf (broadcastInDim S200000x64 ![] bcast_S_S200000x64 (constant (F := Ideal) S_ .f32 0x41000000#32)) (subf (V (Proc.devRef .tc main_v9)) (broadcastInDim S200000x64 ![] bcast_S_S200000x64 (Host.reduce FloatOps.maximumf (concatenate S4 0 [⟨S1, (V (Proc.devRef .tc main_v44))⟩, ⟨S1, (V (Proc.devRef .tc main_v45))⟩, ⟨S1, (V (Proc.devRef .tc main_v46))⟩, ⟨S1, (V (Proc.devRef .tc main_v47))⟩] concatenates_S1_S1_S1_S1_S4_d0) (constant (F := Ideal) S_ .f32 0xFF800000#32) reducesTo_S4_S_d0 h_S_)))))) (broadcastInDim S400000x1 ![0] bcast_S400000_S400000x1_0 (select (cmpi .slt (V (Proc.devRef .tc main_arg3)) (broadcastInDim S400000 ![] bcast_S_S400000 (constantI S_ 32 0#32))) (addi (V (Proc.devRef .tc main_arg3)) (broadcastInDim S400000 ![] bcast_S_S400000 (constantI S_ 32 200000#32))) (V (Proc.devRef .tc main_arg3)))) (Host.exp (mulf (broadcastInDim S400000x64 ![] bcast_S_S400000x64 (constant (F := Ideal) S_ .f32 0x41000000#32)) (subf (V (Proc.devRef .tc main_v19)) (broadcastInDim S400000x64 ![] bcast_S_S400000x64 (Host.reduce FloatOps.maximumf (concatenate S4 0 [⟨S1, (V (Proc.devRef .tc main_v44))⟩, ⟨S1, (V (Proc.devRef .tc main_v45))⟩, ⟨S1, (V (Proc.devRef .tc main_v46))⟩, ⟨S1, (V (Proc.devRef .tc main_v47))⟩] concatenates_S1_S1_S1_S1_S4_d0) (constant (F := Ideal) S_ .f32 0xFF800000#32) reducesTo_S4_S_d0 h_S_)))))) (broadcastInDim S400000x1 ![0] bcast_S400000_S400000x1_0 (select (cmpi .slt (V (Proc.devRef .tc main_arg4)) (broadcastInDim S400000 ![] bcast_S_S400000 (constantI S_ 32 0#32))) (addi (V (Proc.devRef .tc main_arg4)) (broadcastInDim S400000 ![] bcast_S_S400000 (constantI S_ 32 200000#32))) (V (Proc.devRef .tc main_arg4)))) (Host.exp (mulf (broadcastInDim S400000x64 ![] bcast_S_S400000x64 (constant (F := Ideal) S_ .f32 0x41000000#32)) (subf (V (Proc.devRef .tc main_v29)) (broadcastInDim S400000x64 ![] bcast_S_S400000x64 (Host.reduce FloatOps.maximumf (concatenate S4 0 [⟨S1, (V (Proc.devRef .tc main_v44))⟩, ⟨S1, (V (Proc.devRef .tc main_v45))⟩, ⟨S1, (V (Proc.devRef .tc main_v46))⟩, ⟨S1, (V (Proc.devRef .tc main_v47))⟩] concatenates_S1_S1_S1_S1_S4_d0) (constant (F := Ideal) S_ .f32 0xFF800000#32) reducesTo_S4_S_d0 h_S_)))))) := by
  dsimp only [main_part1_ops0]
  after_results_simp
  try rfl

set_option maxHeartbeats 400000 in
theorem part1_v91 (V : Vl) :
    StableHlo.after (main_part1_ops0 (F := Ideal)) V (Proc.devRef .tc main_v91)
      = (Host.exp (mulf (broadcastInDim S600000x64 ![] bcast_S_S600000x64 (constant (F := Ideal) S_ .f32 0x41000000#32)) (subf (V (Proc.devRef .tc main_v39)) (broadcastInDim S600000x64 ![] bcast_S_S600000x64 (Host.reduce FloatOps.maximumf (concatenate S4 0 [⟨S1, (V (Proc.devRef .tc main_v44))⟩, ⟨S1, (V (Proc.devRef .tc main_v45))⟩, ⟨S1, (V (Proc.devRef .tc main_v46))⟩, ⟨S1, (V (Proc.devRef .tc main_v47))⟩] concatenates_S1_S1_S1_S1_S4_d0) (constant (F := Ideal) S_ .f32 0xFF800000#32) reducesTo_S4_S_d0 h_S_))))) := by
  dsimp only [main_part1_ops0]
  after_results_simp
  try rfl

set_option maxHeartbeats 400000 in
theorem part1_v93 (V : Vl) :
    StableHlo.after (main_part1_ops0 (F := Ideal)) V (Proc.devRef .tc main_v93)
      = cmpi .slt (V (Proc.devRef .tc main_arg5)) (broadcastInDim S600000 ![] bcast_S_S600000 (constantI S_ 32 0#32)) := by
  dsimp only [main_part1_ops0]
  after_results_simp
  try rfl

set_option maxHeartbeats 400000 in
theorem part1_c23 (V : Vl) :
    StableHlo.after (main_part1_ops0 (F := Ideal)) V (Proc.devRef .tc main_c_23)
      = constantI S_ 32 200000#32 := by
  dsimp only [main_part1_ops0]
  after_results_simp
  try rfl

set_option maxHeartbeats 400000 in
theorem part1_v49 (V : Vl) :
    StableHlo.after (main_part1_ops0 (F := Ideal)) V (Proc.devRef .tc main_v49)
      = (Host.reduce FloatOps.maximumf (concatenate S4 0 [⟨S1, (V (Proc.devRef .tc main_v44))⟩, ⟨S1, (V (Proc.devRef .tc main_v45))⟩, ⟨S1, (V (Proc.devRef .tc main_v46))⟩, ⟨S1, (V (Proc.devRef .tc main_v47))⟩] concatenates_S1_S1_S1_S1_S4_d0) (constant (F := Ideal) S_ .f32 0xFF800000#32) reducesTo_S4_S_d0 h_S_) := by
  dsimp only [main_part1_ops0]
  after_results_simp
  try rfl

set_option maxHeartbeats 400000 in
theorem part1_arg0 (V : Vl) :
    StableHlo.after (main_part1_ops0 (F := Ideal)) V (Proc.devRef .tc main_arg0)
      = V (Proc.devRef .tc main_arg0) := by
  dsimp only [main_part1_ops0]
  after_results_simp
  try rfl

set_option maxHeartbeats 400000 in
theorem part1_arg1 (V : Vl) :
    StableHlo.after (main_part1_ops0 (F := Ideal)) V (Proc.devRef .tc main_arg1)
      = V (Proc.devRef .tc main_arg1) := by
  dsimp only [main_part1_ops0]
  after_results_simp
  try rfl

set_option maxHeartbeats 400000 in
theorem part1_arg5 (V : Vl) :
    StableHlo.after (main_part1_ops0 (F := Ideal)) V (Proc.devRef .tc main_arg5)
      = V (Proc.devRef .tc main_arg5) := by
  dsimp only [main_part1_ops0]
  after_results_simp
  try rfl

set_option maxHeartbeats 400000 in
theorem part1_v1 (V : Vl) :
    StableHlo.after (main_part1_ops0 (F := Ideal)) V (Proc.devRef .tc main_v1)
      = V (Proc.devRef .tc main_v1) := by
  dsimp only [main_part1_ops0]
  after_results_simp
  try rfl

/-! ## The head: 13 operations

What the head leaves in the five buffers the middle reads of it — the fourth output as rows of 64 and the four outputs'
maxima — and the ten buffers it passes through unwritten. -/

set_option maxHeartbeats 400000 in
theorem part0_v39 (V : Vl) :
    StableHlo.after (main_part0_ops4 (F := Ideal)) V (Proc.devRef .tc main_v39)
      = (shapeCast S600000x64 (V (Proc.devRef .tc main_v38)) shapeCasts_S200000x192_S600000x64) := by
  dsimp only [main_part0_ops4]
  after_results_simp
  try rfl

set_option maxHeartbeats 400000 in
theorem part0_v44 (V : Vl) :
    StableHlo.after (main_part0_ops4 (F := Ideal)) V (Proc.devRef .tc main_v44)
      = broadcastInDim S1 ![] bcast_S_S1 (Host.reduce FloatOps.maximumf (V (Proc.devRef .tc main_v9)) (constant (F := Ideal) S_ .f32 0xFF800000#32) reducesTo_S200000x64_S_d0_1 h_S_) := by
  dsimp only [main_part0_ops4]
  after_results_simp
  try rfl

set_option maxHeartbeats 400000 in
theorem part0_v45 (V : Vl) :
    StableHlo.after (main_part0_ops4 (F := Ideal)) V (Proc.devRef .tc main_v45)
      = broadcastInDim S1 ![] bcast_S_S1 (Host.reduce FloatOps.maximumf (V (Proc.devRef .tc main_v19)) (constant (F := Ideal) S_ .f32 0xFF800000#32) reducesTo_S400000x64_S_d0_1 h_S_) := by
  dsimp only [main_part0_ops4]
  after_results_simp
  try rfl

set_option maxHeartbeats 400000 in
theorem part0_v46 (V : Vl) :
    StableHlo.after (main_part0_ops4 (F := Ideal)) V (Proc.devRef .tc main_v46)
      = broadcastInDim S1 ![] bcast_S_S1 (Host.reduce FloatOps.maximumf (V (Proc.devRef .tc main_v29)) (constant (F := Ideal) S_ .f32 0xFF800000#32) reducesTo_S400000x64_S_d0_1 h_S_) := by
  dsimp only [main_part0_ops4]
  after_results_simp
  try rfl

set_option maxHeartbeats 400000 in
theorem part0_v47 (V : Vl) :
    StableHlo.after (main_part0_ops4 (F := Ideal)) V (Proc.devRef .tc main_v47)
      = broadcastInDim S1 ![] bcast_S_S1 (Host.reduce FloatOps.maximumf (shapeCast S600000x64 (V (Proc.devRef .tc main_v38)) shapeCasts_S200000x192_S600000x64) (constant (F := Ideal) S_ .f32 0xFF800000#32) reducesTo_S600000x64_S_d0_1 h_S_) := by
  dsimp only [main_part0_ops4]
  after_results_simp
  try rfl

set_option maxHeartbeats 400000 in
theorem part0_arg0 (V : Vl) :
    StableHlo.after (main_part0_ops4 (F := Ideal)) V (Proc.devRef .tc main_arg0)
      = V (Proc.devRef .tc main_arg0) := by
  dsimp only [main_part0_ops4]
  after_results_simp
  try rfl

set_option maxHeartbeats 400000 in
theorem part0_arg1 (V : Vl) :
    StableHlo.after (main_part0_ops4 (F := Ideal)) V (Proc.devRef .tc main_arg1)
      = V (Proc.devRef .tc main_arg1) := by
  dsimp only [main_part0_ops4]
  after_results_simp
  try rfl

set_option maxHeartbeats 400000 in
theorem part0_arg2 (V : Vl) :
    StableHlo.after (main_part0_ops4 (F := Ideal)) V (Proc.devRef .tc main_arg2)
      = V (Proc.devRef .tc main_arg2) := by
  dsimp only [main_part0_ops4]
  after_results_simp
  try rfl

set_option maxHeartbeats 400000 in
theorem part0_arg3 (V : Vl) :
    StableHlo.after (main_part0_ops4 (F := Ideal)) V (Proc.devRef .tc main_arg3)
      = V (Proc.devRef .tc main_arg3) := by
  dsimp only [main_part0_ops4]
  after_results_simp
  try rfl

set_option maxHeartbeats 400000 in
theorem part0_arg4 (V : Vl) :
    StableHlo.after (main_part0_ops4 (F := Ideal)) V (Proc.devRef .tc main_arg4)
      = V (Proc.devRef .tc main_arg4) := by
  dsimp only [main_part0_ops4]
  after_results_simp
  try rfl

set_option maxHeartbeats 400000 in
theorem part0_arg5 (V : Vl) :
    StableHlo.after (main_part0_ops4 (F := Ideal)) V (Proc.devRef .tc main_arg5)
      = V (Proc.devRef .tc main_arg5) := by
  dsimp only [main_part0_ops4]
  after_results_simp
  try rfl

set_option maxHeartbeats 400000 in
theorem part0_v1 (V : Vl) :
    StableHlo.after (main_part0_ops4 (F := Ideal)) V (Proc.devRef .tc main_v1)
      = V (Proc.devRef .tc main_v1) := by
  dsimp only [main_part0_ops4]
  after_results_simp
  try rfl

set_option maxHeartbeats 400000 in
theorem part0_v9 (V : Vl) :
    StableHlo.after (main_part0_ops4 (F := Ideal)) V (Proc.devRef .tc main_v9)
      = V (Proc.devRef .tc main_v9) := by
  dsimp only [main_part0_ops4]
  after_results_simp
  try rfl

set_option maxHeartbeats 400000 in
theorem part0_v19 (V : Vl) :
    StableHlo.after (main_part0_ops4 (F := Ideal)) V (Proc.devRef .tc main_v19)
      = V (Proc.devRef .tc main_v19) := by
  dsimp only [main_part0_ops4]
  after_results_simp
  try rfl

set_option maxHeartbeats 400000 in
theorem part0_v29 (V : Vl) :
    StableHlo.after (main_part0_ops4 (F := Ideal)) V (Proc.devRef .tc main_v29)
      = V (Proc.devRef .tc main_v29) := by
  dsimp only [main_part0_ops4]
  after_results_simp
  try rfl

/-! ## The whole stretch

The stretch is its three pieces one after the other; the readings compose. -/

theorem hostOps5_split : hostOps5 (F := Ideal) = main_part0_ops4 ++ (main_part1_ops0 ++ main_part2_ops0) := rfl

set_option maxHeartbeats 1000000 in
/-- The feature array after the last host stretch, as the reference's feature function of the buffers the stretch finds. -/
theorem feat_read (Wv : Valuation τ sig (Elt Ideal)) (o2 o3 : (⟨S200000x128, .f32⟩ : BufTy).Contents (Elt Ideal))
    (h19 : Wv (Proc.devRef .tc main_v19) = shapeCast S400000x64 o2 shapeCasts_S200000x128_S400000x64)
    (h29 : Wv (Proc.devRef .tc main_v29) = shapeCast S400000x64 o3 shapeCasts_S200000x128_S400000x64) :
    StableHlo.after (hostOps5 (F := Ideal)) Wv (Proc.devRef .tc main_v106)
      = Cert.ReferenceIdeal.RefValue.featOf (F := Ideal) (Wv (Proc.devRef .tc main_v1)) (Wv (Proc.devRef .tc main_v9)) o2 o3
          (Wv (Proc.devRef .tc main_v38)) (Wv (Proc.devRef .tc main_arg0)) (Wv (Proc.devRef .tc main_arg1))
          (Wv (Proc.devRef .tc main_arg2)) (Wv (Proc.devRef .tc main_arg3)) (Wv (Proc.devRef .tc main_arg4))
          (Wv (Proc.devRef .tc main_arg5)) := by
  rw [hostOps5_split, after_append, after_append, part2_v106]
  rw [part1_v86, part1_v91, part1_v93, part1_c23, part1_v49, part1_arg0, part1_arg1, part1_arg5, part1_v1]
  rw [part0_v39, part0_v44, part0_v45, part0_v46, part0_v47, part0_arg0, part0_arg1, part0_arg2, part0_arg3, part0_arg4,
    part0_arg5, part0_v1, part0_v9, part0_v19, part0_v29]
  rw [h19, h29]
  rfl

end Cert.FeatPieces

end
-- ==== Proof.BridgeFeat.lean ====
import proofs.«131809_j79121887527265_1_alg».proof.Proof.Bridge
import proofs.«131809_j79121887527265_1_alg».proof.Proof.FeatPieces

set_option maxRecDepth 16384

noncomputable section

/-! # The feature array and the result

The last host stretch computes the feature array from the embedding, the four relation outputs and the arguments by the
same operations as the reference; with those five arrays the reference's, the feature array is the reference's, and
the update perceptron over it gives the reference's result. -/

namespace Cert.Bridge

open Idealize.ShloMosaic Idealize.ShloMosaic.TcCoe Idealize.SL.Sem
open Cert.KernelIdeal Cert.KernelIdeal.Gen Cert.KernelIdeal.Fr
open Idealize.ShloMosaic.StableHlo
open Cert.ReferenceIdeal.RefValue (gIn0 gIn1 gIn2 gIn3 refEmb refOut1 refOut2 refOut3 refOut4 featOf refFeat)

variable (m : (ℓ : Loc nD τ sig) → Buf (Elt Ideal) ℓ) (ρ : Dev nD → PrngReg) (c : Dev nD)
variable (V0' : Valuation Cert.ReferenceIdeal.τ Cert.ReferenceIdeal.sig (Elt Ideal))

/-! ## The feature array: the shared host operations, unopened -/

set_option maxHeartbeats 200000000 in
/-- What the last host stretch leaves in the feature buffer: the reference's feature function of the embedding, the four
    perceptron outputs and the arguments as the stretch finds them. -/
theorem feat_fold : W10 (F := Ideal) m ρ c (Proc.devRef .tc main_v106)
    = featOf (F := Ideal) (W9 (F := Ideal) m ρ c (Proc.devRef .tc main_v1)) (W9 (F := Ideal) m ρ c (Proc.devRef .tc main_v9)) (W5 (F := Ideal) m ρ c (Proc.devRef .tc main_v18)) (W7 (F := Ideal) m ρ c (Proc.devRef .tc main_v28)) (W9 (F := Ideal) m ρ c (Proc.devRef .tc main_v38))
        (W9 (F := Ideal) m ρ c (Proc.devRef .tc main_arg0)) (W9 (F := Ideal) m ρ c (Proc.devRef .tc main_arg1)) (W9 (F := Ideal) m ρ c (Proc.devRef .tc main_arg2)) (W9 (F := Ideal) m ρ c (Proc.devRef .tc main_arg3)) (W9 (F := Ideal) m ρ c (Proc.devRef .tc main_arg4)) (W9 (F := Ideal) m ρ c (Proc.devRef .tc main_arg5)) := by
  exact Cert.FeatPieces.feat_read (W9 (F := Ideal) m ρ c) _ _
    ((W9_main_v19_eq m ρ c).trans (relaid2 m ρ c)) ((W9_main_v29_eq m ρ c).trans (relaid3 m ρ c))

/-- With the embedding the reference's, the feature array is the reference's. -/
theorem feat (A : Agree m c V0') (hemb : W2 (F := Ideal) m ρ c (Proc.devRef .tc main_v1) = refEmb (F := Ideal) V0') :
    W10 (F := Ideal) m ρ c (Proc.devRef .tc main_v106) = refFeat (F := Ideal) V0' := by
  rw [feat_fold m ρ c, W9_main_v1_eq m ρ c, hemb, W9_main_v9_eq m ρ c, out1 m ρ c V0' A, out2 m ρ c V0' A, out3 m ρ c V0' A, out4 m ρ c V0' A,
    W9_launch m ρ c main_arg0 (by decide), W9_launch m ρ c main_arg1 (by decide), W9_launch m ρ c main_arg2 (by decide),
    W9_launch m ρ c main_arg3 (by decide), W9_launch m ρ c main_arg4 (by decide), W9_launch m ρ c main_arg5 (by decide),
    ← A.a0, ← A.a1, ← A.a2, ← A.a3, ← A.a4, ← A.a5]
  rfl

/-! ## The result -/

set_option maxHeartbeats 4000000 in
/-- The kernel's result array is the reference's, element by element. -/
theorem result (A : Agree m c V0') (hemb : W2 (F := Ideal) m ρ c (Proc.devRef .tc main_v1) = refEmb (F := Ideal) V0') :
    W11 (F := Ideal) m ρ c (Proc.devRef .tc main_v107) = Cert.ReferenceIdeal.Value.res_main_v162 (F := Ideal) V0' := by
  funext idx
  obtain ⟨i, n, rfl⟩ : ∃ (i : Fin 200000) (n : Fin 64), idx = ValueIdx.ix2 i n := ⟨idx 0, idx 1, ValueIdx.eq_ix2 idx⟩
  rw [Cert.ReferenceIdeal.RefValue.res_main_v162_apply V0' i n, A.a22, A.a23, A.a24, A.a25, ← feat m ρ c V0' A hemb]
  refine ((congrFun (W11_arr m ρ c 5) _).trans (Cert.KernelIdeal.Val.out_eq5 (V10 m ρ) c i n)).trans ?_
  show Cert.Spec.mlpAt (W10 (F := Ideal) m ρ c (Proc.devRef .tc main_v106)) (W10 (F := Ideal) m ρ c (Proc.devRef .tc main_arg22)) (W10 (F := Ideal) m ρ c (Proc.devRef .tc main_arg23)) (W10 (F := Ideal) m ρ c (Proc.devRef .tc main_arg24)) (W10 (F := Ideal) m ρ c (Proc.devRef .tc main_arg25)) i n = _
  rw [W10_launch m ρ c main_arg22 (by decide), W10_launch m ρ c main_arg23 (by decide), W10_launch m ρ c main_arg24 (by decide), W10_launch m ρ c main_arg25 (by decide)]

end Cert.Bridge

end
-- ==== Proof.LibOnlineLse.lean ====
/-
  The online log-sum-exp over row blocks, on the extended reals.

  A column of real numbers is cut into N blocks of R rows. Walking the blocks, one keeps a running maximum m and a
  running sum l, from m = −∞ and l = 0:
      m' = max (m, the block's maximum),        l' = exp (α (m − m')) · l + Σ_{rows of the block} exp (α (x − m')).
  After all blocks m is the column's maximum and l = Σ_{all rows} exp (α (x − m)): at the first block the old sum
  is 0, so the (infinite) exponent in front of it does not matter; afterwards every quantity is a real number and
  exp (α (m − m')) · exp (α (x − m)) = exp (α (x − m')) term by term.
-/
import Idealize.ShloMosaic.PureOps.Ideal
import Mathlib.Data.Finset.Fold
import Mathlib.Order.Lattice

open scoped BigOperators

noncomputable section

namespace Cert.Lse

open Idealize.ShloMosaic

/-- A finite sum of real numbers read in the extended reals. -/
theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The exponential of a scaled difference of reals is the real exponential. -/
theorem exp_scaled (α u v : ℝ) :
    Ideal.exp ((α : EReal) * ((u : EReal) - (v : EReal))) = ((Real.exp (α * (u - v)) : ℝ) : EReal) := by
  rw [← EReal.coe_sub, ← EReal.coe_mul]; rfl

/-- The maximum, from −∞, of a nonempty finite family of reals is a real. -/
theorem fold_max_coe {ι : Type*} (s : Finset ι) (hs : s.Nonempty) (a : ι → ℝ) :
    ∃ r : ℝ, s.fold max (⊥ : EReal) (fun i => (a i : EReal)) = (r : EReal) := by
  obtain ⟨i0, hi0⟩ := hs
  have hlt : s.fold max (⊥ : EReal) (fun i => (a i : EReal)) < ⊤ :=
    (Finset.fold_max_lt _).mpr ⟨bot_lt_top, fun i _ => EReal.coe_lt_top _⟩
  have hge : ((a i0 : ℝ) : EReal) ≤ s.fold max (⊥ : EReal) (fun i => (a i : EReal)) :=
    (Finset.le_fold_max _).mpr (Or.inr ⟨i0, hi0, le_rfl⟩)
  have hne : s.fold max (⊥ : EReal) (fun i => (a i : EReal)) ≠ ⊥ := fun h => by
    rw [h] at hge; exact absurd hge (not_le.mpr (EReal.bot_lt_coe _))
  exact ⟨_, (EReal.coe_toReal hlt.ne hne).symm⟩

section Walk

variable {R : ℕ} (α : ℝ) (bv : ℕ → Fin R → ℝ) (m l : ℕ → EReal)

/-- The state after n blocks: m n is the least upper bound of the rows seen, and once a block has been seen m n is a
    real M and l n is the real sum of exp (α (x − M)) over the rows seen. -/
theorem walk (hR : 0 < R) (N : ℕ) (m0 : m 0 = ⊥) (l0 : l 0 = 0)
    (mS : ∀ t, t < N → m (t + 1) = max (m t) ((Finset.univ : Finset (Fin R)).fold max ⊥ (fun k => (bv t k : EReal))))
    (lS : ∀ t, t < N → l (t + 1) = Ideal.exp ((α : EReal) * (m t - m (t + 1))) * l t
        + ∑ k : Fin R, Ideal.exp ((α : EReal) * ((bv t k : EReal) - m (t + 1)))) :
    ∀ n, n ≤ N → (∀ c : EReal, m n ≤ c ↔ ∀ t, t < n → ∀ k, (bv t k : EReal) ≤ c)
      ∧ (n = 0 ∨ ∃ M : ℝ, m n = (M : EReal)
          ∧ l n = ((∑ t ∈ Finset.range n, ∑ k : Fin R, Real.exp (α * (bv t k - M)) : ℝ) : EReal)) := by
  intro n
  induction n with
  | zero =>
    intro _
    refine ⟨fun c => ?_, Or.inl rfl⟩
    rw [m0]; exact ⟨fun _ t ht => absurd ht (Nat.not_lt_zero t), fun _ => bot_le⟩
  | succ n ih =>
    intro hn
    have hlt : n < N := hn
    obtain ⟨ih1, ih2⟩ := ih (Nat.le_of_lt hlt)
    have hne : (Finset.univ : Finset (Fin R)).Nonempty := ⟨⟨0, hR⟩, Finset.mem_univ _⟩
    obtain ⟨B, hB⟩ := fold_max_coe Finset.univ hne (bv n)
    refine ⟨fun c => ?_, Or.inr ?_⟩
    · rw [mS n hlt, max_le_iff, ih1 c, Finset.fold_max_le]
      constructor
      · rintro ⟨h1, -, h2⟩ t ht k
        rcases Nat.lt_succ_iff_lt_or_eq.mp ht with h | rfl
        · exact h1 t h k
        · exact h2 k (Finset.mem_univ k)
      · intro h
        exact ⟨fun t ht k => h t (Nat.lt_succ_of_lt ht) k, bot_le, fun k _ => h n (Nat.lt_succ_self n) k⟩
    · rcases ih2 with rfl | ⟨M, hM, hL⟩
      · refine ⟨B, ?_, ?_⟩
        · rw [mS 0 hlt, m0, hB]; exact max_eq_right bot_le
        · have hm1 : m (0 + 1) = (B : EReal) := by rw [mS 0 hlt, m0, hB]; exact max_eq_right bot_le
          rw [lS 0 hlt, l0, mul_zero, zero_add, hm1, Finset.sum_range_one]
          simp only [exp_scaled]
          exact coe_sum _ _
      · have hm1 : m (n + 1) = ((max M B : ℝ) : EReal) := by rw [mS n hlt, hM, hB]; exact (EReal.coe_strictMono.monotone.map_max).symm
        refine ⟨max M B, hm1, ?_⟩
        rw [lS n hlt, hL, hm1, hM, Finset.sum_range_succ]
        simp only [exp_scaled]
        rw [coe_sum, ← EReal.coe_mul, ← EReal.coe_add]
        refine congrArg _ (congrArg (· + _) ?_)
        rw [Finset.mul_sum]
        refine Finset.sum_congr rfl fun t _ => ?_
        rw [Finset.mul_sum]
        refine Finset.sum_congr rfl fun k _ => ?_
        rw [← Real.exp_add]
        congr 1; ring

end Walk

/-- THE ONLINE LOG-SUM-EXP. The rows i of a real column x are the pairs (block t, row k of the block) through a
    bijection e. If m and l start from −∞ and 0 and follow the recurrence block by block, then after the N blocks m is
    the column's maximum and l is the sum over all rows of exp ((x − m) · α). -/
theorem online {N R Mr : ℕ} (hR : 0 < R) (α : ℝ) (e : Fin N × Fin R ≃ Fin Mr) (x : Fin Mr → ℝ)
    (m l : ℕ → EReal) (m0 : m 0 = ⊥) (l0 : l 0 = 0)
    (mS : ∀ t : Fin N, m (t.val + 1)
        = max (m t.val) ((Finset.univ : Finset (Fin R)).fold max ⊥ (fun k => (x (e (t, k)) : EReal))))
    (lS : ∀ t : Fin N, l (t.val + 1) = Ideal.exp ((α : EReal) * (m t.val - m (t.val + 1))) * l t.val
        + ∑ k : Fin R, Ideal.exp ((α : EReal) * ((x (e (t, k)) : EReal) - m (t.val + 1))))
    (hN : 0 < N) :
    m N = (Finset.univ : Finset (Fin Mr)).fold max ⊥ (fun i => (x i : EReal))
      ∧ l N = ∑ i : Fin Mr, Ideal.exp (((x i : EReal) - m N) * (α : EReal)) := by
  let bv : ℕ → Fin R → ℝ := fun t k => if h : t < N then x (e (⟨t, h⟩, k)) else 0
  have hbv : ∀ (t : Fin N) (k : Fin R), bv t.val k = x (e (t, k)) := fun t k => dif_pos t.isLt
  obtain ⟨h1, h2⟩ := walk α bv m l hR N m0 l0
    (fun t ht => by rw [mS ⟨t, ht⟩]; simp only [← hbv ⟨t, ht⟩])
    (fun t ht => by rw [lS ⟨t, ht⟩]; simp only [← hbv ⟨t, ht⟩]) N le_rfl
  have hmax : m N = (Finset.univ : Finset (Fin Mr)).fold max ⊥ (fun i => (x i : EReal)) := by
    refine eq_of_forall_ge_iff fun c => ?_
    rw [h1 c, Finset.fold_max_le]
    constructor
    · intro h
      refine ⟨bot_le, fun i _ => ?_⟩
      have := h (e.symm i).1.val (e.symm i).1.isLt (e.symm i).2
      rwa [hbv, Prod.mk.eta, Equiv.apply_symm_apply] at this
    · rintro ⟨-, h⟩ t ht k
      have := h (e (⟨t, ht⟩, k)) (Finset.mem_univ _)
      rwa [← hbv ⟨t, ht⟩ k] at this
  refine ⟨hmax, ?_⟩
  rcases h2 with h0 | ⟨M, hM, hL⟩
  · exact absurd h0 (Nat.pos_iff_ne_zero.mp hN)
  · rw [hL, hM]
    have hterm : ∀ i : Fin Mr, Ideal.exp (((x i : EReal) - (M : EReal)) * (α : EReal)) = ((Real.exp (α * (x i - M)) : ℝ) : EReal) := by
      intro i; rw [mul_comm]; exact exp_scaled α (x i) M
    simp only [hterm]
    rw [coe_sum]
    refine congrArg _ ?_
    rw [Finset.sum_range, ← Equiv.sum_comp e, Fintype.sum_prod_type]
    refine Finset.sum_congr rfl fun t _ => Finset.sum_congr rfl fun k _ => ?_
    rw [hbv]

end Cert.Lse

end
-- ==== Proof.SpecEmb.lean ====
/-
  The smooth maximum of each column of an array, and the host program's computation of it read at an index.

  For x of extent M × N and the scale c = 8 (the float word 0x41000000), the column maximum is
      off(j) = max over i of x(i,j), taken from −∞,
  and the smooth maximum (a log-sum-exp with temperature c) of column j is
      emb(j) = log (Σ_i exp ((x(i,j) − off(j)) · c)) / c + off(j).
  The host computes exactly this: a maximum-reduction over the rows from the −∞ constant; that row vector repeated down
  the rows and subtracted; the product with the repeated constant c; the exponential; a sum-reduction over the rows from
  the zero constant; the logarithm; the quotient by the repeated constant c; plus the column maximum.  Read at column j
  each reduction over the rows is the fold, or the sum, over the row coordinate i of the entries (i, j).
-/
import Idealize.ShloMosaic.PureOps.Ideal
import Idealize.ShloMosaic.Lib.ValueIdx
import Idealize.ShloMosaic.Lib.IdealHost
import proofs.«131809_j79121887527265_1_alg».proof.Proof.LibHostAffine

open scoped BigOperators

noncomputable section

namespace Cert.Spec

open Idealize.ShloMosaic Idealize.ShloMosaic.ValueIdx

/-- The scale of the smooth maximum: the float 8. -/
def c8 : EReal := Ideal.ofBits .f32 0x41000000#32

/-- The value every maximum starts from: the float −∞. -/
def negInf : EReal := Ideal.ofBits .f32 0xFF800000#32

/-- The float −∞ is the bottom of the extended reals. -/
theorem negInf_eq_bot : negInf = ⊥ := by simp [negInf, Ideal.ofBits, Ideal.ieee]

/-- The maximum of column j, from −∞. -/
def colMax {M N : ℕ} (x : FVec Ideal ⟨2, ![M, N]⟩ .f32) (j : Fin N) : EReal :=
  (Finset.univ : Finset (Fin M)).fold max negInf (fun i => x (ix2 i j))

/-- The smooth maximum of column j: log (Σ_i exp ((x(i,j) − off(j)) · 8)) / 8 + off(j). -/
def lseAt {M N : ℕ} (x : FVec Ideal ⟨2, ![M, N]⟩ .f32) (j : Fin N) : EReal :=
  Ideal.div (Ideal.log (∑ i : Fin M, Ideal.exp ((x (ix2 i j) - colMax x j) * c8))) c8 + colMax x j

/-- A reduced index j with the row coordinate k put back is (k, j). -/
theorem lift_rows {M N : ℕ} (h : (⟨2, ![M, N]⟩ : Shape).Reduces [0] (⟨1, ![N]⟩ : Shape)) (j : Fin N)
    (k : Fin ((⟨2, ![M, N]⟩ : Shape).size 0)) : h.lift (ix1 j) k = ix2 (⟨k.val, k.isLt⟩ : Fin M) j := by
  funext c; apply Fin.ext
  fin_cases c <;> rfl

/-- The host's maximum-reduction over the rows, from −∞, at column j. -/
theorem host_colmax_apply {M N : ℕ} (x : FVec Ideal ⟨2, ![M, N]⟩ .f32)
    (h' : (⟨2, ![M, N]⟩ : Shape).ReducesTo [0] (⟨1, ![N]⟩ : Shape)) (hu : 0 < (⟨0, ![]⟩ : Shape).numel) (j : Fin N) :
    Host.reduce FloatOps.maximumf x (constant (F := Ideal) (⟨0, ![]⟩ : Shape) .f32 0xFF800000#32) h' hu (ix1 j)
      = colMax x j := by
  have h : (⟨2, ![M, N]⟩ : Shape).Reduces [0] (⟨1, ![N]⟩ : Shape) := let ⟨e, f⟩ := h'; ⟨e, Nat.one_pos, f⟩
  rw [Host.reduce_eq_fold_single FloatOps.maximumf x _ h' h hu]
  have hf : (x ∘ h.lift (ix1 j)) = fun k : Fin M => x (ix2 k j) := funext fun k => congrArg x (lift_rows h j k)
  exact congrArg (fun f => Finset.fold max (Ideal.ofBits .f32 0xFF800000#32) f (Finset.univ : Finset (Fin M))) hf

/-- The host's sum-reduction over the rows, from the zero constant, at column j. -/
theorem host_colsum_apply {M N : ℕ} (y : FVec Ideal ⟨2, ![M, N]⟩ .f32)
    (h' : (⟨2, ![M, N]⟩ : Shape).ReducesTo [0] (⟨1, ![N]⟩ : Shape)) (hu : 0 < (⟨0, ![]⟩ : Shape).numel) (j : Fin N) :
    Host.reduceAdd y (constant (F := Ideal) (⟨0, ![]⟩ : Shape) .f32 0x00000000#32) h' hu (ix1 j)
      = ∑ i : Fin M, y (ix2 i j) := by
  have h : (⟨2, ![M, N]⟩ : Shape).Reduces [0] (⟨1, ![N]⟩ : Shape) := let ⟨e, f⟩ := h'; ⟨e, Nat.one_pos, f⟩
  refine (Ideal.hostReduceAdd_single h' h y _ (ix1 j)).trans ?_
  have h0 : (constant (F := Ideal) (⟨0, ![]⟩ : Shape) .f32 0x00000000#32) (Shape.Idx.first hu) = 0 := Ideal.ofBits_zero_f32
  rw [h0, zero_add]
  exact Finset.sum_congr rfl fun k _ => congrArg y (lift_rows h j k)

/-- The host's chain for the smooth column maximum, read at column j. -/
theorem host_emb_apply {M N : ℕ} (x : FVec Ideal ⟨2, ![M, N]⟩ .f32)
    (h' : (⟨2, ![M, N]⟩ : Shape).ReducesTo [0] (⟨1, ![N]⟩ : Shape)) (hu : 0 < (⟨0, ![]⟩ : Shape).numel)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨0, ![]⟩ : Shape).BroadcastsInDim ⟨2, ![M, N]⟩ (![] : Fin 0 → Fin 2))
    (hc' : (⟨0, ![]⟩ : Shape).BroadcastsInDim ⟨1, ![N]⟩ (![] : Fin 0 → Fin 1)) (j : Fin N) :
    addf (Host.divf
          (Host.log (Host.reduceAdd
            (Host.exp (mulf (subf x (broadcastInDim ⟨2, ![M, N]⟩ ![0, 1] h2 (broadcastInDim ⟨2, ![1, N]⟩ ![1] h1
                                (Host.reduce FloatOps.maximumf x (constant (F := Ideal) (⟨0, ![]⟩ : Shape) .f32 0xFF800000#32) h' hu))))
                            (broadcastInDim ⟨2, ![M, N]⟩ ![] hc (constant (F := Ideal) (⟨0, ![]⟩ : Shape) .f32 0x41000000#32))))
            (constant (F := Ideal) (⟨0, ![]⟩ : Shape) .f32 0x00000000#32) h' hu))
          (broadcastInDim ⟨1, ![N]⟩ ![] hc' (constant (F := Ideal) (⟨0, ![]⟩ : Shape) .f32 0x41000000#32)))
        (Host.reduce FloatOps.maximumf x (constant (F := Ideal) (⟨0, ![]⟩ : Shape) .f32 0xFF800000#32) h' hu) (ix1 j)
      = lseAt x j := by
  have e8' : broadcastInDim (⟨1, ![N]⟩ : Shape) ![] hc' (constant (F := Ideal) (⟨0, ![]⟩ : Shape) .f32 0x41000000#32) (ix1 j)
      = Ideal.ofBits .f32 0x41000000#32 := HostAffine.bcast_const (t := ⟨1, ![N]⟩) ![] hc' _ (ix1 j)
  have e8 : ∀ i : Fin M, broadcastInDim (⟨2, ![M, N]⟩ : Shape) ![] hc (constant (F := Ideal) (⟨0, ![]⟩ : Shape) .f32 0x41000000#32) (ix2 i j)
      = Ideal.ofBits .f32 0x41000000#32 := fun i => HostAffine.bcast_const (t := ⟨2, ![M, N]⟩) ![] hc _ (ix2 i j)
  have eoff : ∀ i : Fin M, broadcastInDim (⟨2, ![M, N]⟩ : Shape) ![0, 1] h2 (broadcastInDim (⟨2, ![1, N]⟩ : Shape) ![1] h1
        (Host.reduce FloatOps.maximumf x (constant (F := Ideal) (⟨0, ![]⟩ : Shape) .f32 0xFF800000#32) h' hu)) (ix2 i j)
      = colMax x j := fun i => (HostAffine.bias_bcast _ h1 h2 i j).trans (host_colmax_apply x h' hu j)
  show Ideal.div (Ideal.log (Host.reduceAdd (F := Ideal) (φ := .f32) _ _ h' hu (ix1 j))) _ + _ = _
  rw [host_colsum_apply _ h' hu j, e8', host_colmax_apply x h' hu j]
  unfold lseAt c8
  refine congrArg (fun s => Ideal.div (Ideal.log s) (Ideal.ofBits .f32 0x41000000#32) + colMax x j)
    (Finset.sum_congr rfl fun i _ => ?_)
  show Ideal.exp ((x (ix2 i j) - _) * _) = _
  rw [eoff i, e8 i]

end Cert.Spec

end
-- ==== Proof.KI.EmbPay.lean ====
/-
  The graph-embedding region's stored values read at one lane, at exact arithmetic.

  The region keeps, per lane j of 64, a running maximum m and a running sum l over the rows seen so far.  At each block
  of 10000 rows x it forms the new maximum m' = max (m, max_r x(r, j)), rescales the old sum and adds the block's terms,
      l' = exp (8·(m − m'))·l + Σ_r exp (8·(x(r, j) − m')),
  and at the last block writes log (l) / 8 + m.  It starts from m = −inf and l = 0.  Here each stored value is read at
  lane j: a maximum along the rows is the fold of max from −inf, a sum along the rows is the sum over the 10000 rows, a
  row repeated down the block reads the row, a 64-vector laid out as a 1 × 64 row reads the vector; the literal 8 is kept
  as its float word.
-/
import proofs.«131809_j79121887527265_1_alg».proof.Proof.Gen.KernelIdeal.Skeleton
import Idealize.ShloMosaic.Lib.ValueIdx
import Idealize.ShloMosaic.Lib.ValueLayout
import Idealize.ShloMosaic.PureOps.Ideal.Laws

open scoped BigOperators

noncomputable section

namespace Cert.EmbPay

open Cert.KernelIdeal Cert.KernelIdeal.Gen Idealize.ShloMosaic Idealize.ShloMosaic.ValueIdx

/-- The literal 8.0, as its float word. -/
abbrev c8 : EReal := Ideal.ofBits .f32 0x41000000#32

/-- The word 0x41000000 is the real number 8. -/
theorem c8_eq : (c8 : EReal) = ((8 : ℝ) : EReal) := by
  simp [c8, Ideal.ofBits, Ideal.ieee, -EReal.coe_mul]
  norm_num

/-- The maximum of column j of a block, from −inf. -/
def blkMax (x : Vec Ideal S10000x64 .f32) (j : Fin 64) : EReal :=
  (Finset.univ : Finset (Fin 10000)).fold max ⊥ (fun r => x (ix2 r j))

/-- The float word 0xFF800000 is −inf. -/
theorem neg_inf_f32 : Ideal.ofBits .f32 0xFF800000#32 = (⊥ : EReal) := by simp [Ideal.ofBits, Ideal.ieee]

/-- A sum along the rows of an R × C array, at column j: the sum over the R rows. -/
theorem colsum_apply {R C : ℕ} (src : FVec Ideal ⟨2, ![R, C]⟩ .f32) (h : (⟨2, ![R, C]⟩ : Shape).Reduces [0] ⟨1, ![C]⟩)
    (hφ : FKind.Formats .f32) (hacc : (0x00000000#32 : BitVec 32) = FKind.add.neutral .f32 hφ) (j : Fin C) :
    multiReduction .add [0] ⟨1, ![C]⟩ src 0x00000000#32 h hφ hacc (ix1 j) = ∑ r : Fin R, src (ix2 r j) := by
  refine (Ideal.multiReduction_add_single src _ h hφ hacc (ix1 j)).trans ?_
  show ∑ r : Fin R, src (h.lift (ix1 j) r) = _
  refine Finset.sum_congr rfl fun r _ => congrArg src (funext fun a => Fin.ext ?_)
  match a with
  | ⟨0, _⟩ => rfl
  | ⟨1, _⟩ => rfl

/-- A maximum along the rows of an R × C array, at column j: the fold of max over the R rows from −inf. -/
theorem colmax_apply {R C : ℕ} (src : FVec Ideal ⟨2, ![R, C]⟩ .f32) (h : (⟨2, ![R, C]⟩ : Shape).Reduces [0] ⟨1, ![C]⟩)
    (hφ : FKind.Formats .f32) (hacc : (0xFF800000#32 : BitVec 32) = FKind.maximumf.neutral .f32 hφ) (j : Fin C) :
    multiReduction .maximumf [0] ⟨1, ![C]⟩ src 0xFF800000#32 h hφ hacc (ix1 j)
      = (Finset.univ : Finset (Fin R)).fold max ⊥ (fun r => src (ix2 r j)) := by
  refine (Ideal.multiReduction_maximumf_single src _ h hφ hacc (ix1 j)).trans ?_
  show (Finset.univ : Finset (Fin R)).fold max (Ideal.ofBits .f32 0xFF800000#32) (fun r => src (h.lift (ix1 j) r)) = _
  rw [neg_inf_f32]
  refine congrArg (fun f => (Finset.univ : Finset (Fin R)).fold max ⊥ f) (funext fun r => congrArg src (funext fun a => Fin.ext ?_))
  match a with
  | ⟨0, _⟩ => rfl
  | ⟨1, _⟩ => rfl

/-- The value the first point stores in the running maximum: −inf. -/
theorem pay1_apply (j : Fin 64) : k0_pay1 (F := Ideal) (ix2 (0 : Fin 1) j) = ⊥ := by
  unfold k0_pay1
  rw [shapeCast_self]
  exact neg_inf_f32

/-- The value the first point stores in the running sum: 0. -/
theorem pay2_apply (j : Fin 64) : k0_pay2 (F := Ideal) (ix2 (0 : Fin 1) j) = 0 := by
  unfold k0_pay2
  rw [shapeCast_self]
  exact Ideal.ofBits_zero_f32

/-- The new running maximum at lane j: the old one against the block's column maximum. -/
theorem pay3_apply (v3 : Vec Ideal S10000x64 .f32) (v6 : Vec Ideal S1x64 .f32) (j : Fin 64) :
    k0_pay3 v3 v6 (ix2 (0 : Fin 1) j) = max (v6 (ix2 0 j)) (blkMax v3 j) := by
  unfold k0_pay3
  refine congrArg (max (v6 (ix2 0 j))) ?_
  refine (shapeCast_a_1a_apply _ _ 0 j).trans ?_
  exact colmax_apply v3 _ _ _ j

/-- The value stored in the running maximum at lane j: the new running maximum. -/
theorem pay5_apply (v3 : Vec Ideal S10000x64 .f32) (v6 : Vec Ideal S1x64 .f32) (j : Fin 64) :
    k0_pay5 v3 v6 (ix2 (0 : Fin 1) j) = max (v6 (ix2 0 j)) (blkMax v3 j) := by
  unfold k0_pay5
  rw [shapeCast_self]
  exact pay3_apply v3 v6 j

/-- The value stored in the running sum at lane j: the old sum rescaled to the new maximum plus the block's terms. -/
theorem pay4_apply (v3 : Vec Ideal S10000x64 .f32) (v6 v8 v18 : Vec Ideal S1x64 .f32) (j : Fin 64) :
    k0_pay4 v3 v6 v8 v18 (ix2 (0 : Fin 1) j)
      = Ideal.exp (c8 * (v8 (ix2 0 j) - max (v6 (ix2 0 j)) (blkMax v3 j))) * v18 (ix2 0 j)
        + ∑ r : Fin 10000, Ideal.exp (c8 * (v3 (ix2 r j) - max (v6 (ix2 0 j)) (blkMax v3 j))) := by
  unfold k0_pay4
  rw [shapeCast_self]
  refine congrArg₂ (· + ·) ?_ ?_
  · show Ideal.exp (c8 * (v8 (ix2 0 j) - k0_pay3 v3 v6 (ix2 0 j))) * v18 (ix2 0 j) = _
    rw [pay3_apply]
  · refine (shapeCast_a_1a_apply _ _ 0 j).trans ?_
    refine (colsum_apply _ _ _ _ j).trans ?_
    refine Finset.sum_congr rfl fun r _ => ?_
    show Ideal.exp (c8 * (v3 (ix2 r j) - broadcastTo S10000x64 (k0_pay3 v3 v6) broadcasts_S1x64_S10000x64 (ix2 r j))) = _
    rw [broadcastTo_1b_ab_apply, pay3_apply]

/-- The value the last point writes out at lane j: log of the running sum over 8, plus the running maximum. -/
theorem pay6_apply (v32 v36 : Vec Ideal S1x64 .f32) (j : Fin 64) :
    k0_pay6 v32 v36 (ix2 (0 : Fin 1) j) = Ideal.div (Ideal.log (v32 (ix2 0 j))) c8 + v36 (ix2 0 j) := by
  unfold k0_pay6
  rfl

end Cert.EmbPay

end
-- ==== Proof.KI.EmbVal.lean ====
import proofs.«131809_j79121887527265_1_alg».proof.Proof.KI.Emb
import proofs.«131809_j79121887527265_1_alg».proof.Proof.LibOnlineLse
import proofs.«131809_j79121887527265_1_alg».proof.Proof.SpecEmb
import proofs.«131809_j79121887527265_1_alg».proof.Proof.KI.EmbPay
import Idealize.ShloMosaic.Lib.Pipeline.Value

set_option maxRecDepth 16384

open scoped BigOperators

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # Region 0's value: the output row is the smooth column maximum of the node states -/

/-! ## The output row after the run -/

/-- The last grid point. -/
abbrev t19 : Fin cfg0.N := ⟨19, by rw [show cfg0.N = 20 from N_0]; decide⟩

/-- What the last point stores: `log l / 8 + m` of the rows after all 20 points. -/
abbrev embOut (c : Dev nD) : Buf (Elt Ideal) ((c : Thread nD τ).loc main_v0) := k0_pay6 (lAt V c 20) (mAt V c 20)

/-- The one write-back, at the last point, writes it: the output window's one block is its whole array. -/
theorem flushed_eq0 (c : Dev nD) (t : Fin cfg0.N) (hf : (cfg0.win 1).flush t = true) :
    (dat0 V c).flushed 1 t = ((cfg0.win 1).blk t).view.read (Elt Ideal) (embOut V c) := by
  have hN : cfg0.N = 20 := N_0
  have h19 : t.val = 19 := by have := (flush0_1 t).mp hf; have := t.isLt; omega
  obtain rfl : t = t19 := Fin.ext h19
  show (cfg0.win 1).cut (grid0.coords t19) ((dat0 V c).after 1 t19) = _
  rw [after0_1]
  have hz' : (fun a => win0_1.index t19 a * main_v0.ty.shape.size a) = fun _ => 0 := funext fun a => by fin_cases a <;> decide +kernel
  exact (Memref.read_access_unit_zero (Elt Ideal) main_v0 hz' (fun a => by rw [congrFun hz' a]; simp) (embOut V c)).symm

/-- So the output array ends holding that row. -/
theorem final0 (c : Dev nD) : (dat0 V c).arrAt 1 cfg0.N = embOut V c :=
  (dat0 V c).arrAt_eq_of_cover 1 (embOut V c) (flushed_eq0 V c) fun i =>
    ⟨t19, (flush0_1 t19).mpr rfl, by
      show i ∈ ((View.whole main_v0).slice (win0_1.rect t19)).set
      rw [View.set_slice_whole, Rect.mem_set_unit]
      intro a
      have h0 : (i 0 : Nat) < 1 := (i 0).isLt
      have h1 : (i 1 : Nat) < 64 := (i 1).isLt
      match a with
      | ⟨0, _⟩ => show win0_1.index t19 0 * win0_1.size 0 ≤ (i 0 : Nat) ∧ (i 0 : Nat) < win0_1.index t19 0 * win0_1.size 0 + win0_1.xsize (grid0.coords t19) 0
                  rw [show win0_1.index t19 0 * win0_1.size 0 = 0 from by decide +kernel, show win0_1.xsize (grid0.coords t19) 0 = 1 from by decide +kernel]; omega
      | ⟨1, _⟩ => show win0_1.index t19 1 * win0_1.size 1 ≤ (i 1 : Nat) ∧ (i 1 : Nat) < win0_1.index t19 1 * win0_1.size 1 + win0_1.xsize (grid0.coords t19) 1
                  rw [show win0_1.index t19 1 * win0_1.size 1 = 0 from by decide +kernel, show win0_1.xsize (grid0.coords t19) 1 = 64 from by decide +kernel]; omega⟩

/-! ## The input blocks -/

/-- The input window's block index at point t is (t, 0) (decided over the 20 points). -/
theorem idx_facts0 : ∀ t : Fin cfg0.N, win0_0.index t (0 : Fin 2) = t.val ∧ win0_0.index t (1 : Fin 2) = 0 :=
  (by decide +kernel : ∀ t : Fin grid0.N, _)

/-- Row k of the block at point t is row 10000·t + k of the array. -/
theorem blk_eq0 (c : Dev nD) (t : Fin cfg0.N) (k : Fin 10000) (j : Fin 64) (i : Fin 200000) (hi : i.val = 10000 * t.val + k.val) :
    iblk0 V c 0 t (ix2 k j) = V c main_arg0 (ix2 i j) := by
  obtain ⟨e00, e01⟩ := idx_facts0 t
  show V c main_arg0 (((cfg0.win 0).blk t).view.emb (ix2 k j)) = _
  refine congrArg (V c main_arg0) (funext fun a => Fin.ext ?_)
  match a with
  | ⟨0, _⟩ => show win0_0.index t (0 : Fin 2) * 10000 + 1 * k.val = i.val; omega
  | ⟨1, _⟩ => show win0_0.index t (1 : Fin 2) * 64 + 1 * j.val = j.val; omega

/-! ## The embedding: the smooth maximum of each column -/

/-- THE VALUE OF REGION 0. With every node state finite, entry j of the output row is the smooth maximum of column j of
    the node states: the running maximum and sum over the twenty blocks follow the online recurrence from (−∞, 0), the
    block rows are rows 10000·t … 10000·t + 9999 of the array, so after the last block they are the column's maximum M and
    Σ_i exp ((x(i,j) − M)·8); the last point stores log of that sum over 8, plus M. -/
theorem emb_eq (c : Dev nD)
    (hfin : ∀ (i : Fin 200000) (j : Fin 64), ∃ r : ℝ, V c main_arg0 (ValueIdx.ix2 i j) = (r : EReal)) (j : Fin 64) :
    (Cert.KernelIdeal.Fr.dat0 (F := Ideal) V c).arrAt 1 cfg0.N (ValueIdx.ix2 0 j) = Cert.Spec.lseAt (V c main_arg0) j := by
  rw [final0]
  show k0_pay6 (lAt V c 20) (mAt V c 20) (ix2 (0 : Fin 1) j) = _
  rw [Cert.EmbPay.pay6_apply]
  choose xr hxr using fun i => hfin i j
  have hN : cfg0.N = 20 := N_0
  have htt : ∀ t : Fin 20, t.val < cfg0.N := fun t => lt_of_lt_of_eq t.isLt hN.symm
  let e : Fin 20 × Fin 10000 ≃ Fin 200000 := finProdFinEquiv
  have he : ∀ (t : Fin 20) (k : Fin 10000), (e (t, k)).val = 10000 * t.val + k.val := fun t k => by
    show k.val + 10000 * t.val = _; omega
  -- the block of point t, column j, as real numbers
  have hblk : ∀ (t : Fin 20) (k : Fin 10000),
      iblk0 V c 0 ⟨t.val, htt t⟩ (ix2 k j) = ((xr (e (t, k)) : ℝ) : EReal) := fun t k =>
    (blk_eq0 V c ⟨t.val, htt t⟩ k j (e (t, k)) (he t k)).trans (hxr _)
  have hmS : ∀ t : Fin 20, mAt V c (t.val + 1) (ix2 (0 : Fin 1) j)
      = max (mAt V c t.val (ix2 (0 : Fin 1) j)) ((Finset.univ : Finset (Fin 10000)).fold max ⊥ (fun k => ((xr (e (t, k)) : ℝ) : EReal))) := by
    intro t
    rw [show mAt V c (t.val + 1) = _ from mAt_succ V c ⟨t.val, htt t⟩, Cert.EmbPay.pay5_apply]
    unfold Cert.EmbPay.blkMax
    simp only [hblk t]
  have hlS : ∀ t : Fin 20, lAt V c (t.val + 1) (ix2 (0 : Fin 1) j)
      = Ideal.exp (((8 : ℝ) : EReal) * (mAt V c t.val (ix2 (0 : Fin 1) j) - mAt V c (t.val + 1) (ix2 (0 : Fin 1) j))) * lAt V c t.val (ix2 (0 : Fin 1) j)
        + ∑ k : Fin 10000, Ideal.exp (((8 : ℝ) : EReal) * (((xr (e (t, k)) : ℝ) : EReal) - mAt V c (t.val + 1) (ix2 (0 : Fin 1) j))) := by
    intro t
    have hm1 : mAt V c (t.val + 1) (ix2 (0 : Fin 1) j)
        = max (mAt V c t.val (ix2 (0 : Fin 1) j)) (Cert.EmbPay.blkMax (iblk0 V c 0 ⟨t.val, htt t⟩) j) := by
      rw [show mAt V c (t.val + 1) = _ from mAt_succ V c ⟨t.val, htt t⟩, Cert.EmbPay.pay5_apply]
    rw [show lAt V c (t.val + 1) = _ from lAt_succ V c ⟨t.val, htt t⟩, Cert.EmbPay.pay4_apply, ← hm1, Cert.EmbPay.c8_eq]
    simp only [hblk t]
  obtain ⟨hm, hl⟩ := Cert.Lse.online (N := 20) (R := 10000) (by decide) 8 e xr
    (fun n => mAt V c n (ix2 (0 : Fin 1) j)) (fun n => lAt V c n (ix2 (0 : Fin 1) j))
    (by show mAt V c 0 (ix2 (0 : Fin 1) j) = ⊥; rw [mAt_zero]; exact Cert.EmbPay.pay1_apply j)
    (by show lAt V c 0 (ix2 (0 : Fin 1) j) = 0; rw [lAt_zero]; exact Cert.EmbPay.pay2_apply j)
    hmS hlS (by decide)
  have hcm : Cert.Spec.colMax (V c main_arg0) j = mAt V c 20 (ix2 (0 : Fin 1) j) := by
    unfold Cert.Spec.colMax
    rw [Cert.Spec.negInf_eq_bot, hm]
    exact congrArg (fun f => Finset.fold max (⊥ : EReal) f (Finset.univ : Finset (Fin 200000))) (funext fun i => hxr i)
  unfold Cert.Spec.lseAt
  rw [hcm, hl]
  have hc8 : Cert.Spec.c8 = ((8 : ℝ) : EReal) := Cert.EmbPay.c8_eq
  rw [hc8, Cert.EmbPay.c8_eq]
  simp only [hxr]

end Cert.KernelIdeal.Val

end
-- ==== Proof.RefEmb.lean ====
/-
  The reference's graph embedding read at a column: the smooth maximum of that column of the node states.
-/
import proofs.«131809_j79121887527265_1_alg».proof.Proof.RefRead
import proofs.«131809_j79121887527265_1_alg».proof.Proof.SpecEmb

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- Entry j of the reference's embedding is log (Σ_i exp ((x(i,j) − off(j)) · 8)) / 8 + off(j) over the node states x. -/
theorem refEmb_apply (V0 : Valuation τ sig (Elt Ideal)) (j : Fin 64) :
    refEmb V0 (ix1 j) = Cert.Spec.lseAt (V0 (Proc.devRef .tc main_arg0)) j := by
  unfold refEmb Value.res_main_v0
  exact Cert.Spec.host_emb_apply (V0 (Proc.devRef .tc main_arg0)) reducesTo_S200000x64_S64_d0 h_S_
    bcast_S64_S1x64_1 bcast_S1x64_S200000x64_0_1 bcast_S_S200000x64 bcast_S_S64 j

end Cert.ReferenceIdeal.RefValue

end
-- ==== Proof.Finite.lean ====
/-
  Finiteness of the node features.

  The precondition is the conjunction, over the program's float arguments, of "every entry x of the argument has
  |x| < +inf", where |x| is max x (-x) on the extended reals and +inf is the float word 0x7F800000.  The features
  array is the first conjunct, innermost in the chain of 21 conjunctions.  An extended real whose absolute value is
  below +inf is neither +inf nor -inf, so it is a real number: every entry of the features array is a real.
-/
import proofs.«131809_j79121887527265_1_alg».proof.Defs
import proofs.«131809_j79121887527265_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Idealize.SL.Sem
open Cert.Pre_finite_inputs (fn fn_part1 fn_part2 fn_part3 fn_part4 fn_part5 fn_part6)

/-- The scalar shape has one index. -/
instance : Subsingleton Cert.Pre_finite_inputs.S_.Idx := ⟨fun a b => funext fun d => d.elim0⟩

/-- The float word 0x7F800000 is +inf. -/
theorem inf_f32 : Ideal.ofBits .f32 0x7F800000#32 = (⊤ : EReal) := by simp [Ideal.ofBits, Ideal.ieee]

/-- An extended real whose absolute value max x (-x) is below +inf is a real number. -/
theorem real_of_abs_lt_top (x : EReal) (h : max x (-x) < ⊤) : ∃ r : ℝ, x = r := by
  induction x using EReal.rec with
  | bot => simp at h
  | coe r => exact ⟨r, rfl⟩
  | top => simp at h

/-- The test "|a| < B" at one index of an array, passed, where B reads +inf there, says the entry is a real number. -/
theorem real_of_test {s : Shape} (a B : FVec Ideal s .f32) (idx : s.Idx) (hB : B idx = ⊤)
    (e : cmpf .olt (Host.absf a) B idx = 1#1) : ∃ r : ℝ, a idx = (r : EReal) := by
  have e' : BitVec.ofBool (decide (max (a idx) (-(a idx)) < B idx)) = 1#1 := e
  rw [hB] at e'
  have hlt : max (a idx) (-(a idx)) < ⊤ := by
    cases hd : decide (max (a idx) (-(a idx)) < ⊤) with
    | true => exact of_decide_eq_true hd
    | false => rw [hd] at e'; exact absurd e' (by decide)
  exact real_of_abs_lt_top _ hlt

/-- Under the precondition every entry of the features array is a real number: the precondition's value is the
    conjunction of 22 tests, the features' test the innermost left one; that test is a conjunction over all entries
    of "|x| < +inf". -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) (i : Fin 200000) (j : Fin 64) :
    ∃ r : ℝ, m ((c.tc : Thread Cert.KernelIdeal.nD Cert.KernelIdeal.τ).loc Cert.KernelIdeal.main_arg0) (ValueIdx.ix2 i j) = (r : EReal) := by
  have h0 := congrFun (h c) ValueIdx.ix0
  generalize m ((c.tc : Thread Cert.KernelIdeal.nD Cert.KernelIdeal.τ).loc Cert.KernelIdeal.main_arg0) = a0 at h0 ⊢
  dsimp only [fn, fn_part1, fn_part2, fn_part3, fn_part4, fn_part5, fn_part6] at h0
  iterate 21 (replace h0 := (IntOp.andi_eq_one.1 h0).1)
  have e := Host.reduce_andi_all _ _ _ _ ix0 h0 (ix2 i j)
  exact real_of_test a0 _ (ix2 i j)
    ((broadcastInDim_apply _ _ _ (ix2 i j) ix0 (fun a => a.elim0)).trans inf_f32) e

end Cert.Finite

end
-- ==== Proof.EmbBridge.lean ====
/-
  The kernel's graph embedding is the reference's.

  Region 0 leaves, in its 1 × 64 output, the running form of the smooth column maximum of the node states; the first
  host operation after it lays that row out as 64 entries.  Entry j is therefore the smooth maximum of column j of the
  node states the program was launched on — which needs every node state to be a real number, and the precondition says
  so.  The reference's embedding at j is the same function of its own node states, and the two programs are launched on
  the same node states.
-/
import proofs.«131809_j79121887527265_1_alg».proof.Proof.KI.Args
import proofs.«131809_j79121887527265_1_alg».proof.Proof.KI.EmbVal
import proofs.«131809_j79121887527265_1_alg».proof.Proof.RefEmb
import proofs.«131809_j79121887527265_1_alg».proof.Proof.Finite
import proofs.«131809_j79121887527265_1_alg».proof.Proof.Bridge
import Idealize.ShloMosaic.Lib.ValueLayout
import Idealize.ShloMosaic.Lib.StableHlo.Run

set_option maxRecDepth 16384

noncomputable section

namespace Cert.EmbBridge

open Idealize.ShloMosaic Idealize.ShloMosaic.TcCoe Idealize.SL.Sem
open Cert.KernelIdeal Cert.KernelIdeal.Gen Cert.KernelIdeal.Fr
open Idealize.ShloMosaic.StableHlo
open Idealize.ShloMosaic.ValueIdx

variable (m : (ℓ : Loc nD τ sig) → Buf (Elt Ideal) ℓ) (ρ : Dev nD → PrngReg) (c : Dev nD)

set_option maxHeartbeats 2000000 in
/-- After the first host stretch the embedding vector is region 0's 1 × 64 output laid out as 64 entries. -/
theorem v1_eq : W2 (F := Ideal) m ρ c (Proc.devRef .tc main_v1)
    = shapeCast S64 (W1 (F := Ideal) m ρ c (Proc.devRef .tc main_v0)) shapeCasts_S1x64_S64 := by
  show StableHlo.after (hostOps1 (F := Ideal)) (W1 (F := Ideal) m ρ c) (Proc.devRef .tc main_v1) = _
  after_results
  rfl

set_option maxHeartbeats 2000000 in
/-- The embedding vector the kernel's program holds after region 0 and the reshape is the reference's embedding. -/
theorem emb (V0' : Valuation Cert.ReferenceIdeal.τ Cert.ReferenceIdeal.sig (Elt Ideal))
    (A : Cert.Bridge.Agree m c V0')
    (hpre : @Cert.Pre_KernelIdeal Cert.Pre_finite_inputs.Gen.facts m) :
    W2 (F := Ideal) m ρ c (Proc.devRef .tc main_v1) = Cert.ReferenceIdeal.RefValue.refEmb (F := Ideal) V0' := by
  funext idx
  obtain ⟨j, rfl⟩ : ∃ j : Fin 64, idx = ix1 j := ⟨idx 0, eq_ix1 idx⟩
  rw [Cert.ReferenceIdeal.RefValue.refEmb_apply V0' j, A.a0, v1_eq]
  refine (shapeCast_1a_a_apply _ _ j).trans ?_
  refine (congrFun (W1_arr m ρ c 1) (ix2 0 j)).trans ?_
  exact Cert.KernelIdeal.Val.emb_eq (V0 m ρ) c (fun i j => Cert.Finite.arg0_real m hpre c i j) j

end Cert.EmbBridge

end
-- ==== Proof.lean ====
/-
  The certificate of a message-passing layer over 200000 nodes: a smooth-maximum graph embedding, four relation
  perceptrons over gathered node rows, a log-sum-exp aggregation of their outputs by scatter-add, and an update
  perceptron over the concatenated features.

  The kernel computes the embedding by an online log-sum-exp over twenty blocks of 10000 rows (a running column maximum
  and a running sum rescaled whenever the maximum grows) and each perceptron block by block, 4000 rows at a time, on the
  matrix unit with operands rounded to bf16; the reference computes the embedding with one maximum and one sum over all
  rows and each perceptron as two whole matrix products. On the extended reals a change of float format is the identity,
  a block of a matrix product is the product's rows, and for finite node states the online log-sum-exp is the plain
  one, so the two results agree element by element (`algebraic`); every other operation is the same host operation in
  both programs and is carried unopened.

  The three frames: each program's run, item by item — six kernel regions among five stretches of host operations for
  the kernel, host operations only for the reference — terminates, faults nowhere, and writes no argument array.
  `preserves` is trivial: the idealized kernel is the kernel's own text read on the extended reals.
-/
import proofs.«131809_j79121887527265_1_alg».proof.Defs
import proofs.«131809_j79121887527265_1_alg».proof.Proof.Gen.Kernel
import proofs.«131809_j79121887527265_1_alg».proof.Proof.Gen.KernelIdeal
import proofs.«131809_j79121887527265_1_alg».proof.Proof.Gen.ReferenceIdeal
import proofs.«131809_j79121887527265_1_alg».proof.Proof.Gen.Pre_finite_inputs
import proofs.«131809_j79121887527265_1_alg».proof.Proof.KB.Args
import proofs.«131809_j79121887527265_1_alg».proof.Proof.KI.Args
import proofs.«131809_j79121887527265_1_alg».proof.Proof.Ref
import proofs.«131809_j79121887527265_1_alg».proof.Proof.BridgeFeat
import proofs.«131809_j79121887527265_1_alg».proof.Proof.EmbBridge
import Idealize.ShloMosaic.Adequacy
import Idealize.ShloMosaic.Init

noncomputable section

namespace Cert.Proof

open Idealize.ShloMosaic Idealize.SL.Sem Idealize.ShloMosaic.TcCoe

theorem frame_k : @Cert.frame_Kernel Cert.Kernel.Gen.facts Cert.Pre_finite_inputs.Gen.facts :=
  fun m ρ _ => Cert.Kernel.Fr.frame (F := Bits) m ρ

theorem frame_ki : @Cert.frame_KernelIdeal Cert.KernelIdeal.Gen.facts Cert.Pre_finite_inputs.Gen.facts :=
  fun m ρ _ => Cert.KernelIdeal.Fr.frame (F := Ideal) m ρ

/-- The idealized kernel's run ends with its result buffer at the last boundary's contents and the reference's run with
    its result at the reference's composed term; on agreeing arguments and finite node states the two are one array. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Fr.W11 (F := Ideal) m ρ c (Proc.devRef .tc Cert.KernelIdeal.main_v107), ?_, ?_⟩
  · refine (θ_run Cert.KernelIdeal.defs _ _).mono (fun r h c =>
      ⟨h c _ (Cert.KernelIdeal.Fr.mem_uc Cert.KernelIdeal.main_v107 (by decide)),
       Cert.KernelIdeal.Fr.arg_end m ρ r.2.mem h c Cert.KernelIdeal.main_arg0 (by decide) (by decide),
       Cert.KernelIdeal.Fr.arg_end m ρ r.2.mem h c Cert.KernelIdeal.main_arg1 (by decide) (by decide),
       Cert.KernelIdeal.Fr.arg_end m ρ r.2.mem h c Cert.KernelIdeal.main_arg2 (by decide) (by decide),
       Cert.KernelIdeal.Fr.arg_end m ρ r.2.mem h c Cert.KernelIdeal.main_arg3 (by decide) (by decide),
       Cert.KernelIdeal.Fr.arg_end m ρ r.2.mem h c Cert.KernelIdeal.main_arg4 (by decide) (by decide),
       Cert.KernelIdeal.Fr.arg_end m ρ r.2.mem h c Cert.KernelIdeal.main_arg5 (by decide) (by decide),
       Cert.KernelIdeal.Fr.arg_end m ρ r.2.mem h c Cert.KernelIdeal.main_arg6 (by decide) (by decide),
       Cert.KernelIdeal.Fr.arg_end m ρ r.2.mem h c Cert.KernelIdeal.main_arg7 (by decide) (by decide),
       Cert.KernelIdeal.Fr.arg_end m ρ r.2.mem h c Cert.KernelIdeal.main_arg8 (by decide) (by decide),
       Cert.KernelIdeal.Fr.arg_end m ρ r.2.mem h c Cert.KernelIdeal.main_arg9 (by decide) (by decide),
       Cert.KernelIdeal.Fr.arg_end m ρ r.2.mem h c Cert.KernelIdeal.main_arg10 (by decide) (by decide),
       Cert.KernelIdeal.Fr.arg_end m ρ r.2.mem h c Cert.KernelIdeal.main_arg11 (by decide) (by decide),
       Cert.KernelIdeal.Fr.arg_end m ρ r.2.mem h c Cert.KernelIdeal.main_arg12 (by decide) (by decide),
       Cert.KernelIdeal.Fr.arg_end m ρ r.2.mem h c Cert.KernelIdeal.main_arg13 (by decide) (by decide),
       Cert.KernelIdeal.Fr.arg_end m ρ r.2.mem h c Cert.KernelIdeal.main_arg14 (by decide) (by decide),
       Cert.KernelIdeal.Fr.arg_end m ρ r.2.mem h c Cert.KernelIdeal.main_arg15 (by decide) (by decide),
       Cert.KernelIdeal.Fr.arg_end m ρ r.2.mem h c Cert.KernelIdeal.main_arg16 (by decide) (by decide),
       Cert.KernelIdeal.Fr.arg_end m ρ r.2.mem h c Cert.KernelIdeal.main_arg17 (by decide) (by decide),
       Cert.KernelIdeal.Fr.arg_end m ρ r.2.mem h c Cert.KernelIdeal.main_arg18 (by decide) (by decide),
       Cert.KernelIdeal.Fr.arg_end m ρ r.2.mem h c Cert.KernelIdeal.main_arg19 (by decide) (by decide),
       Cert.KernelIdeal.Fr.arg_end m ρ r.2.mem h c Cert.KernelIdeal.main_arg20 (by decide) (by decide),
       Cert.KernelIdeal.Fr.arg_end m ρ r.2.mem h c Cert.KernelIdeal.main_arg21 (by decide) (by decide),
       Cert.KernelIdeal.Fr.arg_end m ρ r.2.mem h c Cert.KernelIdeal.main_arg22 (by decide) (by decide),
       Cert.KernelIdeal.Fr.arg_end m ρ r.2.mem h c Cert.KernelIdeal.main_arg23 (by decide) (by decide),
       Cert.KernelIdeal.Fr.arg_end m ρ r.2.mem h c Cert.KernelIdeal.main_arg24 (by decide) (by decide),
       Cert.KernelIdeal.Fr.arg_end m ρ r.2.mem h c Cert.KernelIdeal.main_arg25 (by decide) (by decide)⟩)
      (Cert.KernelIdeal.Fr.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25⟩ := hagree c
    have A : Cert.Bridge.Agree m c (StableHlo.launchContents m' c) := ⟨h0, h1, h2, h3, h4, h5, h6, h7, h8, h9, h10, h11, h12, h13, h14, h15, h16, h17, h18, h19, h20, h21, h22, h23, h24, h25⟩
    exact (Cert.Bridge.result m ρ c _ A (Cert.EmbBridge.emb m ρ c _ A (hpre))).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
